-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26)) (m ((c.tc : Thread Cert.Kernel.nD Cert.Kernel.τ).loc Cert.Kernel.main_arg27)) (m ((c.tc : Thread Cert.Kernel.nD Cert.Kernel.τ).loc Cert.Kernel.main_arg28))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27)) (m ((c.tc : Thread Cert.ReferenceIdeal.nD Cert.ReferenceIdeal.τ).loc Cert.ReferenceIdeal.main_arg28))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26)
      ∧ r.2.mem ((c.tc : Thread Cert.Kernel.nD Cert.Kernel.τ).loc Cert.Kernel.main_arg27) = m ((c.tc : Thread Cert.Kernel.nD Cert.Kernel.τ).loc Cert.Kernel.main_arg27)
      ∧ r.2.mem ((c.tc : Thread Cert.Kernel.nD Cert.Kernel.τ).loc Cert.Kernel.main_arg28) = m ((c.tc : Thread Cert.Kernel.nD Cert.Kernel.τ).loc Cert.Kernel.main_arg28))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
      ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27)
      ∧ r.2.mem ((c.tc : Thread Cert.ReferenceIdeal.nD Cert.ReferenceIdeal.τ).loc Cert.ReferenceIdeal.main_arg28) = m ((c.tc : Thread Cert.ReferenceIdeal.nD Cert.ReferenceIdeal.τ).loc Cert.ReferenceIdeal.main_arg28))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)
      ∧ m' ((c.tc : Thread Cert.ReferenceIdeal.nD Cert.ReferenceIdeal.τ).loc Cert.ReferenceIdeal.main_arg28) = m ((c.tc : Thread Cert.KernelIdeal.nD Cert.KernelIdeal.τ).loc Cert.KernelIdeal.main_arg28)) →
    ∃ (v0 : (c : Dev Cert.KernelIdeal.nD) → Buf (Elt Ideal) ((c.tc : Thread Cert.KernelIdeal.nD Cert.KernelIdeal.τ).loc Cert.KernelIdeal.main_v153)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v153) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
          ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
          ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v207) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26)
          ∧ r.2.mem ((c.tc : Thread Cert.ReferenceIdeal.nD Cert.ReferenceIdeal.τ).loc Cert.ReferenceIdeal.main_arg27) = m' ((c.tc : Thread Cert.ReferenceIdeal.nD Cert.ReferenceIdeal.τ).loc Cert.ReferenceIdeal.main_arg27)
          ∧ r.2.mem ((c.tc : Thread Cert.ReferenceIdeal.nD Cert.ReferenceIdeal.τ).loc Cert.ReferenceIdeal.main_arg28) = m' ((c.tc : Thread Cert.ReferenceIdeal.nD Cert.ReferenceIdeal.τ).loc Cert.ReferenceIdeal.main_arg28))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S100000 : Shape := ⟨1, ![100000]⟩
abbrev S2x2000000 : Shape := ⟨2, ![2, 2000000]⟩
abbrev S2x1000000 : Shape := ⟨2, ![2, 1000000]⟩
abbrev S100000x64 : Shape := ⟨2, ![100000, 64]⟩
abbrev S64x64 : Shape := ⟨2, ![64, 64]⟩
abbrev S64 : Shape := ⟨1, ![64]⟩
abbrev S64x128 : Shape := ⟨2, ![64, 128]⟩
abbrev S1x64 : Shape := ⟨2, ![1, 64]⟩
abbrev S1 : Shape := ⟨1, ![1]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S100000x64 : S_.BroadcastsInDim S100000x64 (![] : Fin 0 → Fin S100000x64.rank)
  reducesTo_S100000x64_S_d0_1 : S100000x64.ReducesTo [0, 1] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S64x128 : S_.BroadcastsInDim S64x128 (![] : Fin 0 → Fin S64x128.rank)
  reducesTo_S64x128_S_d0_1 : S64x128.ReducesTo [0, 1] S_
  bcast_S_S1x64 : S_.BroadcastsInDim S1x64 (![] : Fin 0 → Fin S1x64.rank)
  reducesTo_S1x64_S_d0_1 : S1x64.ReducesTo [0, 1] S_
  bcast_S_S1 : S_.BroadcastsInDim S1 (![] : Fin 0 → Fin S1.rank)
  reducesTo_S1_S_d0 : S1.ReducesTo [0] S_

variable [Facts]

def fn_part7 {F : FTy → Type} [FloatOps F] (main_v118 : IVec S_ 1) (main_v119 : FVec F S1 .f32) : IVec S_ 1 :=
  let main_cst_46 : FVec F S_ .f32 := constant S_ .f32 0x7F800000#32
  let main_v120 : FVec F S1 .f32 := broadcastInDim S1 ![] bcast_S_S1 main_cst_46
  let main_v121 : IVec S1 1 := cmpf .olt main_v119 main_v120
  let main_c_47 : IVec S_ 1 := constantI S_ 1 1#1
  let main_v122 : IVec S_ 1 := (fun x v => Host.reduce IntOp.andi x v reducesTo_S1_S_d0 h_S_) main_v121 main_c_47
  let main_v123 : IVec S_ 1 := andi main_v118 main_v122
  main_v123

def fn_part6 {F : FTy → Type} [FloatOps F] (main_arg25 : FVec F S64x128 .f32) (main_arg26 : FVec F S64 .f32) (main_arg27 : FVec F S1x64 .f32) (main_arg28 : FVec F S1 .f32) (main_v98 : IVec S_ 1) (main_v101 : IVec S64 1) (main_c_39 : IVec S_ 1) : IVec S_ 1 :=
  let main_v102 : IVec S_ 1 := (fun x v => Host.reduce IntOp.andi x v reducesTo_S64_S_d0 h_S_) main_v101 main_c_39
  let main_v103 : IVec S_ 1 := andi main_v98 main_v102
  let main_v104 : FVec F S64x128 .f32 := Host.absf main_arg25
  let main_cst_40 : FVec F S_ .f32 := constant S_ .f32 0x7F800000#32
  let main_v105 : FVec F S64x128 .f32 := broadcastInDim S64x128 ![] bcast_S_S64x128 main_cst_40
  let main_v106 : IVec S64x128 1 := cmpf .olt main_v104 main_v105
  let main_c_41 : IVec S_ 1 := constantI S_ 1 1#1
  let main_v107 : IVec S_ 1 := (fun x v => Host.reduce IntOp.andi x v reducesTo_S64x128_S_d0_1 h_S_) main_v106 main_c_41
  let main_v108 : IVec S_ 1 := andi main_v103 main_v107
  let main_v109 : FVec F S64 .f32 := Host.absf main_arg26
  let main_cst_42 : FVec F S_ .f32 := constant S_ .f32 0x7F800000#32
  let main_v110 : FVec F S64 .f32 := broadcastInDim S64 ![] bcast_S_S64 main_cst_42
  let main_v111 : IVec S64 1 := cmpf .olt main_v109 main_v110
  let main_c_43 : IVec S_ 1 := constantI S_ 1 1#1
  let main_v112 : IVec S_ 1 := (fun x v => Host.reduce IntOp.andi x v reducesTo_S64_S_d0 h_S_) main_v111 main_c_43
  let main_v113 : IVec S_ 1 := andi main_v108 main_v112
  let main_v114 : FVec F S1x64 .f32 := Host.absf main_arg27
  let main_cst_44 : FVec F S_ .f32 := constant S_ .f32 0x7F800000#32
  let main_v115 : FVec F S1x64 .f32 := broadcastInDim S1x64 ![] bcast_S_S1x64 main_cst_44
  let main_v116 : IVec S1x64 1 := cmpf .olt main_v114 main_v115
  let main_c_45 : IVec S_ 1 := constantI S_ 1 1#1
  let main_v117 : IVec S_ 1 := (fun x v => Host.reduce IntOp.andi x v reducesTo_S1x64_S_d0_1 h_S_) main_v116 main_c_45
  let main_v118 : IVec S_ 1 := andi main_v113 main_v117
  let main_v119 : FVec F S1 .f32 := Host.absf main_arg28
  fn_part7 (F := F) main_v118 main_v119

def fn_part5 {F : FTy → Type} [FloatOps F] (main_arg22 : FVec F S64x64 .f32) (main_arg23 : FVec F S64x64 .f32) (main_arg24 : FVec F S64 .f32) (main_arg25 : FVec F S64x128 .f32) (main_arg26 : FVec F S64 .f32) (main_arg27 : FVec F S1x64 .f32) (main_arg28 : FVec F S1 .f32) (main_v83 : IVec S_ 1) (main_v84 : FVec F S64 .f32) (main_cst_32 : FVec F S_ .f32) : IVec S_ 1 :=
  let main_v85 : FVec F S64 .f32 := broadcastInDim S64 ![] bcast_S_S64 main_cst_32
  let main_v86 : IVec S64 1 := cmpf .olt main_v84 main_v85
  let main_c_33 : IVec S_ 1 := constantI S_ 1 1#1
  let main_v87 : IVec S_ 1 := (fun x v => Host.reduce IntOp.andi x v reducesTo_S64_S_d0 h_S_) main_v86 main_c_33
  let main_v88 : IVec S_ 1 := andi main_v83 main_v87
  let main_v89 : FVec F S64x64 .f32 := Host.absf main_arg22
  let main_cst_34 : FVec F S_ .f32 := constant S_ .f32 0x7F800000#32
  let main_v90 : FVec F S64x64 .f32 := broadcastInDim S64x64 ![] bcast_S_S64x64 main_cst_34
  let main_v91 : IVec S64x64 1 := cmpf .olt main_v89 main_v90
  let main_c_35 : IVec S_ 1 := constantI S_ 1 1#1
  let main_v92 : IVec S_ 1 := (fun x v => Host.reduce IntOp.andi x v reducesTo_S64x64_S_d0_1 h_S_) main_v91 main_c_35
  let main_v93 : IVec S_ 1 := andi main_v88 main_v92
  let main_v94 : FVec F S64x64 .f32 := Host.absf main_arg23
  let main_cst_36 : FVec F S_ .f32 := constant S_ .f32 0x7F800000#32
  let main_v95 : FVec F S64x64 .f32 := broadcastInDim S64x64 ![] bcast_S_S64x64 main_cst_36
  let main_v96 : IVec S64x64 1 := cmpf .olt main_v94 main_v95
  let main_c_37 : IVec S_ 1 := constantI S_ 1 1#1
  let main_v97 : IVec S_ 1 := (fun x v => Host.reduce IntOp.andi x v reducesTo_S64x64_S_d0_1 h_S_) main_v96 main_c_37
  let main_v98 : IVec S_ 1 := andi main_v93 main_v97
  let main_v99 : FVec F S64 .f32 := Host.absf main_arg24
  let main_cst_38 : FVec F S_ .f32 := constant S_ .f32 0x7F800000#32
  let main_v100 : FVec F S64 .f32 := broadcastInDim S64 ![] bcast_S_S64 main_cst_38
  let main_v101 : IVec S64 1 := cmpf .olt main_v99 main_v100
  let main_c_39 : IVec S_ 1 := constantI S_ 1 1#1
  fn_part6 (F := F) main_arg25 main_arg26 main_arg27 main_arg28 main_v98 main_v101 main_c_39

def fn_part4 {F : FTy → Type} [FloatOps F] (main_arg18 : FVec F S64 .f32) (main_arg19 : FVec F S64x64 .f32) (main_arg20 : FVec F S64x64 .f32) (main_arg21 : FVec F S64 .f32) (main_arg22 : FVec F S64x64 .f32) (main_arg23 : FVec F S64x64 .f32) (main_arg24 : FVec F S64 .f32) (main_arg25 : FVec F S64x128 .f32) (main_arg26 : FVec F S64 .f32) (main_arg27 : FVec F S1x64 .f32) (main_arg28 : FVec F S1 .f32) (main_v63 : IVec S_ 1) (main_v67 : IVec S_ 1) : IVec S_ 1 :=
  let main_v68 : IVec S_ 1 := andi main_v63 main_v67
  let main_v69 : FVec F S64 .f32 := Host.absf main_arg18
  let main_cst_26 : FVec F S_ .f32 := constant S_ .f32 0x7F800000#32
  let main_v70 : FVec F S64 .f32 := broadcastInDim S64 ![] bcast_S_S64 main_cst_26
  let main_v71 : IVec S64 1 := cmpf .olt main_v69 main_v70
  let main_c_27 : IVec S_ 1 := constantI S_ 1 1#1
  let main_v72 : IVec S_ 1 := (fun x v => Host.reduce IntOp.andi x v reducesTo_S64_S_d0 h_S_) main_v71 main_c_27
  let main_v73 : IVec S_ 1 := andi main_v68 main_v72
  let main_v74 : FVec F S64x64 .f32 := Host.absf main_arg19
  let main_cst_28 : FVec F S_ .f32 := constant S_ .f32 0x7F800000#32
  let main_v75 : FVec F S64x64 .f32 := broadcastInDim S64x64 ![] bcast_S_S64x64 main_cst_28
  let main_v76 : IVec S64x64 1 := cmpf .olt main_v74 main_v75
  let main_c_29 : IVec S_ 1 := constantI S_ 1 1#1
  let main_v77 : IVec S_ 1 := (fun x v => Host.reduce IntOp.andi x v reducesTo_S64x64_S_d0_1 h_S_) main_v76 main_c_29
  let main_v78 : IVec S_ 1 := andi main_v73 main_v77
  let main_v79 : FVec F S64x64 .f32 := Host.absf main_arg20
  let main_cst_30 : FVec F S_ .f32 := constant S_ .f32 0x7F800000#32
  let main_v80 : FVec F S64x64 .f32 := broadcastInDim S64x64 ![] bcast_S_S64x64 main_cst_30
  let main_v81 : IVec S64x64 1 := cmpf .olt main_v79 main_v80
  let main_c_31 : IVec S_ 1 := constantI S_ 1 1#1
  let main_v82 : IVec S_ 1 := (fun x v => Host.reduce IntOp.andi x v reducesTo_S64x64_S_d0_1 h_S_) main_v81 main_c_31
  let main_v83 : IVec S_ 1 := andi main_v78 main_v82
  let main_v84 : FVec F S64 .f32 := Host.absf main_arg21
  let main_cst_32 : FVec F S_ .f32 := constant S_ .f32 0x7F800000#32
  fn_part5 (F := F) main_arg22 main_arg23 main_arg24 main_arg25 main_arg26 main_arg27 main_arg28 main_v83 main_v84 main_cst_32

def fn_part3 {F : FTy → Type} [FloatOps F] (main_arg15 : FVec F S64x64 .f32) (main_arg16 : FVec F S64 .f32) (main_arg17 : FVec F S64x64 .f32) (main_arg18 : FVec F S64 .f32) (main_arg19 : FVec F S64x64 .f32) (main_arg20 : FVec F S64x64 .f32) (main_arg21 : FVec F S64 .f32) (main_arg22 : FVec F S64x64 .f32) (main_arg23 : FVec F S64x64 .f32) (main_arg24 : FVec F S64 .f32) (main_arg25 : FVec F S64x128 .f32) (main_arg26 : FVec F S64 .f32) (main_arg27 : FVec F S1x64 .f32) (main_arg28 : FVec F S1 .f32) (main_v48 : IVec S_ 1) (main_v49 : FVec F S64x64 .f32) (main_v50 : FVec F S64x64 .f32) : IVec S_ 1 :=
  let main_v51 : IVec S64x64 1 := cmpf .olt main_v49 main_v50
  let main_c_19 : IVec S_ 1 := constantI S_ 1 1#1
  let main_v52 : IVec S_ 1 := (fun x v => Host.reduce IntOp.andi x v reducesTo_S64x64_S_d0_1 h_S_) main_v51 main_c_19
  let main_v53 : IVec S_ 1 := andi main_v48 main_v52
  let main_v54 : FVec F S64x64 .f32 := Host.absf main_arg15
  let main_cst_20 : FVec F S_ .f32 := constant S_ .f32 0x7F800000#32
  let main_v55 : FVec F S64x64 .f32 := broadcastInDim S64x64 ![] bcast_S_S64x64 main_cst_20
  let main_v56 : IVec S64x64 1 := cmpf .olt main_v54 main_v55
  let main_c_21 : IVec S_ 1 := constantI S_ 1 1#1
  let main_v57 : IVec S_ 1 := (fun x v => Host.reduce IntOp.andi x v reducesTo_S64x64_S_d0_1 h_S_) main_v56 main_c_21
  let main_v58 : IVec S_ 1 := andi main_v53 main_v57
  let main_v59 : FVec F S64 .f32 := Host.absf main_arg16
  let main_cst_22 : FVec F S_ .f32 := constant S_ .f32 0x7F800000#32
  let main_v60 : FVec F S64 .f32 := broadcastInDim S64 ![] bcast_S_S64 main_cst_22
  let main_v61 : IVec S64 1 := cmpf .olt main_v59 main_v60
  let main_c_23 : IVec S_ 1 := constantI S_ 1 1#1
  let main_v62 : IVec S_ 1 := (fun x v => Host.reduce IntOp.andi x v reducesTo_S64_S_d0 h_S_) main_v61 main_c_23
  let main_v63 : IVec S_ 1 := andi main_v58 main_v62
  let main_v64 : FVec F S64x64 .f32 := Host.absf main_arg17
  let main_cst_24 : FVec F S_ .f32 := constant S_ .f32 0x7F800000#32
  let main_v65 : FVec F S64x64 .f32 := broadcastInDim S64x64 ![] bcast_S_S64x64 main_cst_24
  let main_v66 : IVec S64x64 1 := cmpf .olt main_v64 main_v65
  let main_c_25 : IVec S_ 1 := constantI S_ 1 1#1
  let main_v67 : IVec S_ 1 := (fun x v => Host.reduce IntOp.andi x v reducesTo_S64x64_S_d0_1 h_S_) main_v66 main_c_25
  fn_part4 (F := F) main_arg18 main_arg19 main_arg20 main_arg21 main_arg22 main_arg23 main_arg24 main_arg25 main_arg26 main_arg27 main_arg28 main_v63 main_v67

def fn_part2 {F : FTy → Type} [FloatOps F] (main_arg11 : FVec F S64x64 .f32) (main_arg12 : FVec F S64x64 .f32) (main_arg13 : FVec F S64 .f32) (main_arg14 : FVec F S64x64 .f32) (main_arg15 : FVec F S64x64 .f32) (main_arg16 : FVec F S64 .f32) (main_arg17 : FVec F S64x64 .f32) (main_arg18 : FVec F S64 .f32) (main_arg19 : FVec F S64x64 .f32) (main_arg20 : FVec F S64x64 .f32) (main_arg21 : FVec F S64 .f32) (main_arg22 : FVec F S64x64 .f32) (main_arg23 : FVec F S64x64 .f32) (main_arg24 : FVec F S64 .f32) (main_arg25 : FVec F S64x128 .f32) (main_arg26 : FVec F S64 .f32) (main_arg27 : FVec F S1x64 .f32) (main_arg28 : FVec F S1 .f32) (main_v33 : IVec S_ 1) : IVec S_ 1 :=
  let main_v34 : FVec F S64x64 .f32 := Host.absf main_arg11
  let main_cst_12 : FVec F S_ .f32 := constant S_ .f32 0x7F800000#32
  let main_v35 : FVec F S64x64 .f32 := broadcastInDim S64x64 ![] bcast_S_S64x64 main_cst_12
  let main_v36 : IVec S64x64 1 := cmpf .olt main_v34 main_v35
  let main_c_13 : IVec S_ 1 := constantI S_ 1 1#1
  let main_v37 : IVec S_ 1 := (fun x v => Host.reduce IntOp.andi x v reducesTo_S64x64_S_d0_1 h_S_) main_v36 main_c_13
  let main_v38 : IVec S_ 1 := andi main_v33 main_v37
  let main_v39 : FVec F S64x64 .f32 := Host.absf main_arg12
  let main_cst_14 : FVec F S_ .f32 := constant S_ .f32 0x7F800000#32
  let main_v40 : FVec F S64x64 .f32 := broadcastInDim S64x64 ![] bcast_S_S64x64 main_cst_14
  let main_v41 : IVec S64x64 1 := cmpf .olt main_v39 main_v40
  let main_c_15 : IVec S_ 1 := constantI S_ 1 1#1
  let main_v42 : IVec S_ 1 := (fun x v => Host.reduce IntOp.andi x v reducesTo_S64x64_S_d0_1 h_S_) main_v41 main_c_15
  let main_v43 : IVec S_ 1 := andi main_v38 main_v42
  let main_v44 : FVec F S64 .f32 := Host.absf main_arg13
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S64x64 .f32 := Host.absf main_arg14
  let main_cst_18 : FVec F S_ .f32 := constant S_ .f32 0x7F800000#32
  let main_v50 : FVec F S64x64 .f32 := broadcastInDim S64x64 ![] bcast_S_S64x64 main_cst_18
  fn_part3 (F := F) main_arg15 main_arg16 main_arg17 main_arg18 main_arg19 main_arg20 main_arg21 main_arg22 main_arg23 main_arg24 main_arg25 main_arg26 main_arg27 main_arg28 main_v48 main_v49 main_v50

def fn_part1 {F : FTy → Type} [FloatOps F] (main_arg8 : FVec F S64x64 .f32) (main_arg9 : FVec F S64x64 .f32) (main_arg10 : FVec F S64 .f32) (main_arg11 : FVec F S64x64 .f32) (main_arg12 : FVec F S64x64 .f32) (main_arg13 : FVec F S64 .f32) (main_arg14 : FVec F S64x64 .f32) (main_arg15 : FVec F S64x64 .f32) (main_arg16 : FVec F S64 .f32) (main_arg17 : FVec F S64x64 .f32) (main_arg18 : FVec F S64 .f32) (main_arg19 : FVec F S64x64 .f32) (main_arg20 : FVec F S64x64 .f32) (main_arg21 : FVec F S64 .f32) (main_arg22 : FVec F S64x64 .f32) (main_arg23 : FVec F S64x64 .f32) (main_arg24 : FVec F S64 .f32) (main_arg25 : FVec F S64x128 .f32) (main_arg26 : FVec F S64 .f32) (main_arg27 : FVec F S1x64 .f32) (main_arg28 : FVec F S1 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg8
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64x64 .f32 := Host.absf main_arg9
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg10
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg11 main_arg12 main_arg13 main_arg14 main_arg15 main_arg16 main_arg17 main_arg18 main_arg19 main_arg20 main_arg21 main_arg22 main_arg23 main_arg24 main_arg25 main_arg26 main_arg27 main_arg28 main_v33

def fn {F : FTy → Type} [FloatOps F] (main_arg0 : FVec F S50000x64 .f32) (main_arg1 : IVec S100000 32) (main_arg2 : IVec S2x2000000 32) (main_arg3 : IVec S2x2000000 32) (main_arg4 : IVec S2x1000000 32) (main_arg5 : FVec F S100000x64 .f32) (main_arg6 : FVec F S64x64 .f32) (main_arg7 : FVec F S64 .f32) (main_arg8 : FVec F S64x64 .f32) (main_arg9 : FVec F S64x64 .f32) (main_arg10 : FVec F S64 .f32) (main_arg11 : FVec F S64x64 .f32) (main_arg12 : FVec F S64x64 .f32) (main_arg13 : FVec F S64 .f32) (main_arg14 : FVec F S64x64 .f32) (main_arg15 : FVec F S64x64 .f32) (main_arg16 : FVec F S64 .f32) (main_arg17 : FVec F S64x64 .f32) (main_arg18 : FVec F S64 .f32) (main_arg19 : FVec F S64x64 .f32) (main_arg20 : FVec F S64x64 .f32) (main_arg21 : FVec F S64 .f32) (main_arg22 : FVec F S64x64 .f32) (main_arg23 : FVec F S64x64 .f32) (main_arg24 : FVec F S64 .f32) (main_arg25 : FVec F S64x128 .f32) (main_arg26 : FVec F S64 .f32) (main_arg27 : FVec F S1x64 .f32) (main_arg28 : FVec F S1 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S100000x64 .f32 := Host.absf main_arg5
  let main_cst_0 : FVec F S_ .f32 := constant S_ .f32 0x7F800000#32
  let main_v5 : FVec F S100000x64 .f32 := broadcastInDim S100000x64 ![] bcast_S_S100000x64 main_cst_0
  let main_v6 : IVec S100000x64 1 := cmpf .olt main_v4 main_v5
  let main_c_1 : IVec S_ 1 := constantI S_ 1 1#1
  let main_v7 : IVec S_ 1 := (fun x v => Host.reduce IntOp.andi x v reducesTo_S100000x64_S_d0_1 h_S_) main_v6 main_c_1
  let main_v8 : IVec S_ 1 := andi main_v3 main_v7
  let main_v9 : FVec F S64x64 .f32 := Host.absf main_arg6
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64 .f32 := Host.absf main_arg7
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg8 main_arg9 main_arg10 main_arg11 main_arg12 main_arg13 main_arg14 main_arg15 main_arg16 main_arg17 main_arg18 main_arg19 main_arg20 main_arg21 main_arg22 main_arg23 main_arg24 main_arg25 main_arg26 main_arg27 main_arg28 main_v13 main_v16
-- ==== Kernel.lean ====
abbrev S50000x64 : Shape := ⟨2, ![50000, 64]⟩
abbrev S100000 : Shape := ⟨1, ![100000]⟩
abbrev S2x2000000 : Shape := ⟨2, ![2, 2000000]⟩
abbrev S2x1000000 : Shape := ⟨2, ![2, 1000000]⟩
abbrev S100000x64 : Shape := ⟨2, ![100000, 64]⟩
abbrev S64x64 : Shape := ⟨2, ![64, 64]⟩
abbrev S64 : Shape := ⟨1, ![64]⟩
abbrev S64x128 : Shape := ⟨2, ![64, 128]⟩
abbrev S1x64 : Shape := ⟨2, ![1, 64]⟩
abbrev S1 : Shape := ⟨1, ![1]⟩
abbrev S_ : Shape := ⟨0, ![]⟩
abbrev S100000x1 : Shape := ⟨2, ![100000, 1]⟩
abbrev S1x2000000 : Shape := ⟨2, ![1, 2000000]⟩
abbrev S2000000 : Shape := ⟨1, ![2000000]⟩
abbrev S50000 : Shape := ⟨1, ![50000]⟩
abbrev S2000000x1 : Shape := ⟨2, ![2000000, 1]⟩
abbrev S2000000x64 : Shape := ⟨2, ![2000000, 64]⟩
abbrev S53248x64 : Shape := ⟨2, ![53248, 64]⟩
abbrev S50000x1 : Shape := ⟨2, ![50000, 1]⟩
abbrev S53248x1 : Shape := ⟨2, ![53248, 1]⟩
abbrev S4096x64 : Shape := ⟨2, ![4096, 64]⟩
abbrev S4096x1 : Shape := ⟨2, ![4096, 1]⟩
abbrev S102400x64 : Shape := ⟨2, ![102400, 64]⟩
abbrev S102400x1 : Shape := ⟨2, ![102400, 1]⟩
abbrev S1x1000000 : Shape := ⟨2, ![1, 1000000]⟩
abbrev S1000000 : Shape := ⟨1, ![1000000]⟩
abbrev S1000000x1 : Shape := ⟨2, ![1000000, 1]⟩
abbrev S1000000x64 : Shape := ⟨2, ![1000000, 64]⟩
abbrev S64x1 : Shape := ⟨2, ![64, 1]⟩
abbrev S1007616x64 : Shape := ⟨2, ![1007616, 64]⟩
abbrev S1x1 : Shape := ⟨2, ![1, 1]⟩
abbrev S1007616x1 : Shape := ⟨2, ![1007616, 1]⟩
abbrev S8192x64 : Shape := ⟨2, ![8192, 64]⟩
abbrev S8192x1 : Shape := ⟨2, ![8192, 1]⟩

abbrev nBuf : Space → Nat
  | .hbm => 239
  | .vmem => 70
  | .smem => 0
  | _ => 0

abbrev hbmTy0_0 (i : Nat) : BufTy := match i % 128 with
  | 0 => ⟨S50000x64, .f32⟩
  | 1 => ⟨S100000, .i32⟩
  | 2 => ⟨S2x2000000, .i32⟩
  | 3 => ⟨S2x2000000, .i32⟩
  | 4 => ⟨S2x1000000, .i32⟩
  | 5 => ⟨S100000x64, .f32⟩
  | 6 => ⟨S64x64, .f32⟩
  | 7 => ⟨S64, .f32⟩
  | 8 => ⟨S64x64, .f32⟩
  | 9 => ⟨S64x64, .f32⟩
  | 10 => ⟨S64, .f32⟩
  | 11 => ⟨S64x64, .f32⟩
  | 12 => ⟨S64x64, .f32⟩
  | 13 => ⟨S64, .f32⟩
  | 14 => ⟨S64x64, .f32⟩
  | 15 => ⟨S64x64, .f32⟩
  | 16 => ⟨S64, .f32⟩
  | 17 => ⟨S64x64, .f32⟩
  | 18 => ⟨S64, .f32⟩
  | 19 => ⟨S64x64, .f32⟩
  | 20 => ⟨S64x64, .f32⟩
  | 21 => ⟨S64, .f32⟩
  | 22 => ⟨S64x64, .f32⟩
  | 23 => ⟨S64x64, .f32⟩
  | 24 => ⟨S64, .f32⟩
  | 25 => ⟨S64x128, .f32⟩
  | 26 => ⟨S64, .f32⟩
  | 27 => ⟨S1x64, .f32⟩
  | 28 => ⟨S1, .f32⟩
  | 29 => ⟨S_, .i32⟩
  | 30 => ⟨S100000, .i32⟩
  | 31 => ⟨S100000, .i1⟩
  | 32 => ⟨S_, .i32⟩
  | 33 => ⟨S100000, .i32⟩
  | 34 => ⟨S100000, .i32⟩
  | 35 => ⟨S100000, .i32⟩
  | 36 => ⟨S100000x1, .i32⟩
  | 37 => ⟨S100000x64, .f32⟩
  | 38 => ⟨S1x2000000, .i32⟩
  | 39 => ⟨S2000000, .i32⟩
  | 40 => ⟨S_, .f32⟩
  | 41 => ⟨S2000000, .f32⟩
  | 42 => ⟨S_, .f32⟩
  | 43 => ⟨S50000, .f32⟩
  | 44 => ⟨S2000000x1, .i32⟩
  | 45 => ⟨S50000, .f32⟩
  | 46 => ⟨S1x2000000, .i32⟩
  | 47 => ⟨S2000000, .i32⟩
  | 48 => ⟨S_, .f32⟩
  | 49 => ⟨S2000000, .f32⟩
  | 50 => ⟨S_, .f32⟩
  | 51 => ⟨S100000, .f32⟩
  | 52 => ⟨S2000000x1, .i32⟩
  | 53 => ⟨S100000, .f32⟩
  | 54 => ⟨S1x2000000, .i32⟩
  | 55 => ⟨S2000000, .i32⟩
  | 56 => ⟨S1x2000000, .i32⟩
  | 57 => ⟨S2000000, .i32⟩
  | 58 => ⟨S_, .i32⟩
  | 59 => ⟨S2000000, .i32⟩
  | 60 => ⟨S2000000, .i1⟩
  | 61 => ⟨S_, .i32⟩
  | 62 => ⟨S2000000, .i32⟩
  | 63 => ⟨S2000000, .i32⟩
  | 64 => ⟨S2000000, .i32⟩
  | 65 => ⟨S2000000x1, .i32⟩
  | 66 => ⟨S2000000x64, .f32⟩
  | 67 => ⟨S_, .f32⟩
  | 68 => ⟨S50000x64, .f32⟩
  | 69 => ⟨S2000000x1, .i32⟩
  | 70 => ⟨S50000x64, .f32⟩
  | 71 => ⟨S64x64, .f32⟩
  | 72 => ⟨S64x64, .f32⟩
  | 73 => ⟨S_, .i32⟩
  | 74 => ⟨S_, .f32⟩
  | 75 => ⟨S53248x64, .f32⟩
  | 76 => ⟨S50000x1, .f32⟩
  | 77 => ⟨S_, .i32⟩
  | 78 => ⟨S_, .f32⟩
  | 79 => ⟨S53248x1, .f32⟩
  | 80 => ⟨S_, .i32⟩
  | 81 => ⟨S_, .f32⟩
  | 82 => ⟨S53248x64, .f32⟩
  | 83 => ⟨S1x64, .f32⟩
  | 84 => ⟨S53248x64, .f32⟩
  | 85 => ⟨S50000x64, .f32⟩
  | 86 => ⟨S1x2000000, .i32⟩
  | 87 => ⟨S2000000, .i32⟩
  | 88 => ⟨S1x2000000, .i32⟩
  | 89 => ⟨S2000000, .i32⟩
  | 90 => ⟨S_, .i32⟩
  | 91 => ⟨S2000000, .i32⟩
  | 92 => ⟨S2000000, .i1⟩
  | 93 => ⟨S_, .i32⟩
  | 94 => ⟨S2000000, .i32⟩
  | 95 => ⟨S2000000, .i32⟩
  | 96 => ⟨S2000000, .i32⟩
  | 97 => ⟨S2000000x1, .i32⟩
  | 98 => ⟨S2000000x64, .f32⟩
  | 99 => ⟨S_, .f32⟩
  | 100 => ⟨S100000x64, .f32⟩
  | 101 => ⟨S2000000x1, .i32⟩
  | 102 => ⟨S100000x64, .f32⟩
  | 103 => ⟨S64x64, .f32⟩
  | 104 => ⟨S64x64, .f32⟩
  | 105 => ⟨S_, .i32⟩
  | 106 => ⟨S_, .f32⟩
  | 107 => ⟨S102400x64, .f32⟩
  | 108 => ⟨S100000x1, .f32⟩
  | 109 => ⟨S_, .i32⟩
  | 110 => ⟨S_, .f32⟩
  | 111 => ⟨S102400x1, .f32⟩
  | 112 => ⟨S_, .i32⟩
  | 113 => ⟨S_, .f32⟩
  | 114 => ⟨S102400x64, .f32⟩
  | 115 => ⟨S1x64, .f32⟩
  | 116 => ⟨S102400x64, .f32⟩
  | 117 => ⟨S100000x64, .f32⟩
  | 118 => ⟨S1x2000000, .i32⟩
  | 119 => ⟨S2000000, .i32⟩
  | 120 => ⟨S1x2000000, .i32⟩
  | 121 => ⟨S2000000, .i32⟩
  | 122 => ⟨S_, .i32⟩
  | 123 => ⟨S2000000, .i32⟩
  | 124 => ⟨S2000000, .i1⟩
  | 125 => ⟨S_, .i32⟩
  | 126 => ⟨S2000000, .i32⟩
  | 127 => ⟨S2000000, .i32⟩
  | _ => ⟨S50000x64, .f32⟩

abbrev hbmTy0_1 (i : Nat) : BufTy := match i % 128 with
  | 0 => ⟨S2000000, .i32⟩
  | 1 => ⟨S2000000x1, .i32⟩
  | 2 => ⟨S2000000x64, .f32⟩
  | 3 => ⟨S_, .f32⟩
  | 4 => ⟨S100000x64, .f32⟩
  | 5 => ⟨S2000000x1, .i32⟩
  | 6 => ⟨S100000x64, .f32⟩
  | 7 => ⟨S64x64, .f32⟩
  | 8 => ⟨S64x64, .f32⟩
  | 9 => ⟨S64x64, .f32⟩
  | 10 => ⟨S_, .i32⟩
  | 11 => ⟨S_, .f32⟩
  | 12 => ⟨S102400x64, .f32⟩
  | 13 => ⟨S100000x1, .f32⟩
  | 14 => ⟨S_, .i32⟩
  | 15 => ⟨S_, .f32⟩
  | 16 => ⟨S102400x1, .f32⟩
  | 17 => ⟨S_, .i32⟩
  | 18 => ⟨S_, .f32⟩
  | 19 => ⟨S102400x64, .f32⟩
  | 20 => ⟨S1x64, .f32⟩
  | 21 => ⟨S1x64, .f32⟩
  | 22 => ⟨S102400x64, .f32⟩
  | 23 => ⟨S100000x64, .f32⟩
  | 24 => ⟨S64x64, .f32⟩
  | 25 => ⟨S64x64, .f32⟩
  | 26 => ⟨S_, .i32⟩
  | 27 => ⟨S_, .f32⟩
  | 28 => ⟨S53248x64, .f32⟩
  | 29 => ⟨S50000x1, .f32⟩
  | 30 => ⟨S_, .i32⟩
  | 31 => ⟨S_, .f32⟩
  | 32 => ⟨S53248x1, .f32⟩
  | 33 => ⟨S_, .i32⟩
  | 34 => ⟨S_, .f32⟩
  | 35 => ⟨S53248x64, .f32⟩
  | 36 => ⟨S1x64, .f32⟩
  | 37 => ⟨S53248x64, .f32⟩
  | 38 => ⟨S50000x64, .f32⟩
  | 39 => ⟨S1x2000000, .i32⟩
  | 40 => ⟨S2000000, .i32⟩
  | 41 => ⟨S1x2000000, .i32⟩
  | 42 => ⟨S2000000, .i32⟩
  | 43 => ⟨S_, .i32⟩
  | 44 => ⟨S2000000, .i32⟩
  | 45 => ⟨S2000000, .i1⟩
  | 46 => ⟨S_, .i32⟩
  | 47 => ⟨S2000000, .i32⟩
  | 48 => ⟨S2000000, .i32⟩
  | 49 => ⟨S2000000, .i32⟩
  | 50 => ⟨S2000000x1, .i32⟩
  | 51 => ⟨S2000000x64, .f32⟩
  | 52 => ⟨S_, .f32⟩
  | 53 => ⟨S50000x64, .f32⟩
  | 54 => ⟨S2000000x1, .i32⟩
  | 55 => ⟨S50000x64, .f32⟩
  | 56 => ⟨S64x64, .f32⟩
  | 57 => ⟨S64x64, .f32⟩
  | 58 => ⟨S64x64, .f32⟩
  | 59 => ⟨S_, .i32⟩
  | 60 => ⟨S_, .f32⟩
  | 61 => ⟨S53248x64, .f32⟩
  | 62 => ⟨S50000x1, .f32⟩
  | 63 => ⟨S_, .i32⟩
  | 64 => ⟨S_, .f32⟩
  | 65 => ⟨S53248x1, .f32⟩
  | 66 => ⟨S_, .i32⟩
  | 67 => ⟨S_, .f32⟩
  | 68 => ⟨S53248x64, .f32⟩
  | 69 => ⟨S1x64, .f32⟩
  | 70 => ⟨S1x64, .f32⟩
  | 71 => ⟨S53248x64, .f32⟩
  | 72 => ⟨S50000x64, .f32⟩
  | 73 => ⟨S1x1000000, .i32⟩
  | 74 => ⟨S1000000, .i32⟩
  | 75 => ⟨S1x1000000, .i32⟩
  | 76 => ⟨S1000000, .i32⟩
  | 77 => ⟨S_, .i32⟩
  | 78 => ⟨S1000000, .i32⟩
  | 79 => ⟨S1000000, .i1⟩
  | 80 => ⟨S_, .i32⟩
  | 81 => ⟨S1000000, .i32⟩
  | 82 => ⟨S1000000, .i32⟩
  | 83 => ⟨S1000000, .i32⟩
  | 84 => ⟨S1000000x1, .i32⟩
  | 85 => ⟨S1000000x64, .f32⟩
  | 86 => ⟨S_, .i32⟩
  | 87 => ⟨S1000000, .i32⟩
  | 88 => ⟨S1000000, .i1⟩
  | 89 => ⟨S_, .i32⟩
  | 90 => ⟨S1000000, .i32⟩
  | 91 => ⟨S1000000, .i32⟩
  | 92 => ⟨S1000000, .i32⟩
  | 93 => ⟨S1000000x1, .i32⟩
  | 94 => ⟨S1000000x64, .f32⟩
  | 95 => ⟨S64x64, .f32⟩
  | 96 => ⟨S64x64, .f32⟩
  | 97 => ⟨S64x64, .f32⟩
  | 98 => ⟨S64x64, .f32⟩
  | 99 => ⟨S64x1, .f32⟩
  | 100 => ⟨S_, .i32⟩
  | 101 => ⟨S_, .f32⟩
  | 102 => ⟨S1007616x64, .f32⟩
  | 103 => ⟨S_, .i32⟩
  | 104 => ⟨S_, .f32⟩
  | 105 => ⟨S1007616x64, .f32⟩
  | 106 => ⟨S1x64, .f32⟩
  | 107 => ⟨S1x1, .f32⟩
  | 108 => ⟨S1007616x1, .f32⟩
  | 109 => ⟨S1000000x1, .f32⟩
  | 110 => ⟨S1000000, .f32⟩
  | _ => ⟨S50000x64, .f32⟩

abbrev hbmTy (i : Nat) : BufTy := match i / 128 with
  | 0 => hbmTy0_0 i
  | 1 => hbmTy0_1 i
  | _ => ⟨S50000x64, .f32⟩

abbrev bufTy : (tb : Table) → Fin (tcTables nBuf tb) → BufTy
  | .hbm, ⟨i, _⟩ => hbmTy i
  | .local _ .vmem, ⟨0, _⟩ => ⟨S4096x64, .f32⟩
  | .local _ .vmem, ⟨1, _⟩ => ⟨S4096x64, .f32⟩
  | .local _ .vmem, ⟨2, _⟩ => ⟨S4096x1, .f32⟩
  | .local _ .vmem, ⟨3, _⟩ => ⟨S4096x1, .f32⟩
  | .local _ .vmem, ⟨4, _⟩ => ⟨S4096x64, .f32⟩
  | .local _ .vmem, ⟨5, _⟩ => ⟨S4096x64, .f32⟩
  | .local _ .vmem, ⟨6, _⟩ => ⟨S64x64, .f32⟩
  | .local _ .vmem, ⟨7, _⟩ => ⟨S1x64, .f32⟩
  | .local _ .vmem, ⟨8, _⟩ => ⟨S64x64, .f32⟩
  | .local _ .vmem, ⟨9, _⟩ => ⟨S4096x64, .f32⟩
  | .local _ .vmem, ⟨10, _⟩ => ⟨S4096x64, .f32⟩
  | .local _ .vmem, ⟨11, _⟩ => ⟨S4096x64, .f32⟩
  | .local _ .vmem, ⟨12, _⟩ => ⟨S4096x64, .f32⟩
  | .local _ .vmem, ⟨13, _⟩ => ⟨S4096x1, .f32⟩
  | .local _ .vmem, ⟨14, _⟩ => ⟨S4096x1, .f32⟩
  | .local _ .vmem, ⟨15, _⟩ => ⟨S4096x64, .f32⟩
  | .local _ .vmem, ⟨16, _⟩ => ⟨S4096x64, .f32⟩
  | .local _ .vmem, ⟨17, _⟩ => ⟨S64x64, .f32⟩
  | .local _ .vmem, ⟨18, _⟩ => ⟨S1x64, .f32⟩
  | .local _ .vmem, ⟨19, _⟩ => ⟨S64x64, .f32⟩
  | .local _ .vmem, ⟨20, _⟩ => ⟨S4096x64, .f32⟩
  | .local _ .vmem, ⟨21, _⟩ => ⟨S4096x64, .f32⟩
  | .local _ .vmem, ⟨22, _⟩ => ⟨S4096x64, .f32⟩
  | .local _ .vmem, ⟨23, _⟩ => ⟨S4096x64, .f32⟩
  | .local _ .vmem, ⟨24, _⟩ => ⟨S4096x1, .f32⟩
  | .local _ .vmem, ⟨25, _⟩ => ⟨S4096x1, .f32⟩
  | .local _ .vmem, ⟨26, _⟩ => ⟨S4096x64, .f32⟩
  | .local _ .vmem, ⟨27, _⟩ => ⟨S4096x64, .f32⟩
  | .local _ .vmem, ⟨28, _⟩ => ⟨S64x64, .f32⟩
  | .local _ .vmem, ⟨29, _⟩ => ⟨S1x64, .f32⟩
  | .local _ .vmem, ⟨30, _⟩ => ⟨S64x64, .f32⟩
  | .local _ .vmem, ⟨31, _⟩ => ⟨S64x64, .f32⟩
  | .local _ .vmem, ⟨32, _⟩ => ⟨S1x64, .f32⟩
  | .local _ .vmem, ⟨33, _⟩ => ⟨S4096x64, .f32⟩
  | .local _ .vmem, ⟨34, _⟩ => ⟨S4096x64, .f32⟩
  | .local _ .vmem, ⟨35, _⟩ => ⟨S4096x64, .f32⟩
  | .local _ .vmem, ⟨36, _⟩ => ⟨S4096x64, .f32⟩
  | .local _ .vmem, ⟨37, _⟩ => ⟨S4096x1, .f32⟩
  | .local _ .vmem, ⟨38, _⟩ => ⟨S4096x1, .f32⟩
  | .local _ .vmem, ⟨39, _⟩ => ⟨S4096x64, .f32⟩
  | .local _ .vmem, ⟨40, _⟩ => ⟨S4096x64, .f32⟩
  | .local _ .vmem, ⟨41, _⟩ => ⟨S64x64, .f32⟩
  | .local _ .vmem, ⟨42, _⟩ => ⟨S1x64, .f32⟩
  | .local _ .vmem, ⟨43, _⟩ => ⟨S64x64, .f32⟩
  | .local _ .vmem, ⟨44, _⟩ => ⟨S4096x64, .f32⟩
  | .local _ .vmem, ⟨45, _⟩ => ⟨S4096x64, .f32⟩
  | .local _ .vmem, ⟨46, _⟩ => ⟨S4096x64, .f32⟩
  | .local _ .vmem, ⟨47, _⟩ => ⟨S4096x64, .f32⟩
  | .local _ .vmem, ⟨48, _⟩ => ⟨S4096x1, .f32⟩
  | .local _ .vmem, ⟨49, _⟩ => ⟨S4096x1, .f32⟩
  | .local _ .vmem, ⟨50, _⟩ => ⟨S4096x64, .f32⟩
  | .local _ .vmem, ⟨51, _⟩ => ⟨S4096x64, .f32⟩
  | .local _ .vmem, ⟨52, _⟩ => ⟨S64x64, .f32⟩
  | .local _ .vmem, ⟨53, _⟩ => ⟨S1x64, .f32⟩
  | .local _ .vmem, ⟨54, _⟩ => ⟨S64x64, .f32⟩
  | .local _ .vmem, ⟨55, _⟩ => ⟨S64x64, .f32⟩
  | .local _ .vmem, ⟨56, _⟩ => ⟨S1x64, .f32⟩
  | .local _ .vmem, ⟨57, _⟩ => ⟨S4096x64, .f32⟩
  | .local _ .vmem, ⟨58, _⟩ => ⟨S4096x64, .f32⟩
  | .local _ .vmem, ⟨59, _⟩ => ⟨S8192x64, .f32⟩
  | .local _ .vmem, ⟨60, _⟩ => ⟨S8192x64, .f32⟩
  | .local _ .vmem, ⟨61, _⟩ => ⟨S8192x64, .f32⟩
  | .local _ .vmem, ⟨62, _⟩ => ⟨S8192x64, .f32⟩
  | .local _ .vmem, ⟨63, _⟩ => ⟨S64x64, .f32⟩
  | .local _ .vmem, ⟨64, _⟩ => ⟨S64x64, .f32⟩
  | .local _ .vmem, ⟨65, _⟩ => ⟨S1x64, .f32⟩
  | .local _ .vmem, ⟨66, _⟩ => ⟨S64x1, .f32⟩
  | .local _ .vmem, ⟨67, _⟩ => ⟨S1x1, .f32⟩
  | .local _ .vmem, ⟨68, _⟩ => ⟨S8192x1, .f32⟩
  | .local _ .vmem, ⟨69, _⟩ => ⟨S8192x1, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | _, _ => false

abbrev semScoped : Fin 0 → Bool
  | ⟨_, h⟩ => absurd h (Nat.not_lt_zero _)

abbrev dmaSemScoped : Fin 70 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | _ => false

abbrev sig : RefSig :=
  ofTc nBuf bufTy 0 70 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_c : Ref sig .tc := ⟨.hbm, 29, rfl⟩
abbrev main_v0 : Ref sig .tc := ⟨.hbm, 30, rfl⟩
abbrev main_v1 : Ref sig .tc := ⟨.hbm, 31, rfl⟩
abbrev main_c_0 : Ref sig .tc := ⟨.hbm, 32, rfl⟩
abbrev main_v2 : Ref sig .tc := ⟨.hbm, 33, rfl⟩
abbrev main_v3 : Ref sig .tc := ⟨.hbm, 34, rfl⟩
abbrev main_v4 : Ref sig .tc := ⟨.hbm, 35, rfl⟩
abbrev main_v5 : Ref sig .tc := ⟨.hbm, 36, rfl⟩
abbrev main_v6 : Ref sig .tc := ⟨.hbm, 37, rfl⟩
abbrev main_v7 : Ref sig .tc := ⟨.hbm, 38, rfl⟩
abbrev main_v8 : Ref sig .tc := ⟨.hbm, 39, rfl⟩
abbrev main_cst : Ref sig .tc := ⟨.hbm, 40, rfl⟩
abbrev main_v9 : Ref sig .tc := ⟨.hbm, 41, rfl⟩
abbrev main_cst_1 : Ref sig .tc := ⟨.hbm, 42, rfl⟩
abbrev main_v10 : Ref sig .tc := ⟨.hbm, 43, rfl⟩
abbrev main_v11 : Ref sig .tc := ⟨.hbm, 44, rfl⟩
abbrev main_v12 : Ref sig .tc := ⟨.hbm, 45, rfl⟩
abbrev main_v13 : Ref sig .tc := ⟨.hbm, 46, rfl⟩
abbrev main_v14 : Ref sig .tc := ⟨.hbm, 47, rfl⟩
abbrev main_cst_2 : Ref sig .tc := ⟨.hbm, 48, rfl⟩
abbrev main_v15 : Ref sig .tc := ⟨.hbm, 49, rfl⟩
abbrev main_cst_3 : Ref sig .tc := ⟨.hbm, 50, rfl⟩
abbrev main_v16 : Ref sig .tc := ⟨.hbm, 51, rfl⟩
abbrev main_v17 : Ref sig .tc := ⟨.hbm, 52, rfl⟩
abbrev main_v18 : Ref sig .tc := ⟨.hbm, 53, rfl⟩
abbrev main_v19 : Ref sig .tc := ⟨.hbm, 54, rfl⟩
abbrev main_v20 : Ref sig .tc := ⟨.hbm, 55, rfl⟩
abbrev main_v21 : Ref sig .tc := ⟨.hbm, 56, rfl⟩
abbrev main_v22 : Ref sig .tc := ⟨.hbm, 57, rfl⟩
abbrev main_c_4 : Ref sig .tc := ⟨.hbm, 58, rfl⟩
abbrev main_v23 : Ref sig .tc := ⟨.hbm, 59, rfl⟩
abbrev main_v24 : Ref sig .tc := ⟨.hbm, 60, rfl⟩
abbrev main_c_5 : Ref sig .tc := ⟨.hbm, 61, rfl⟩
abbrev main_v25 : Ref sig .tc := ⟨.hbm, 62, rfl⟩
abbrev main_v26 : Ref sig .tc := ⟨.hbm, 63, rfl⟩
abbrev main_v27 : Ref sig .tc := ⟨.hbm, 64, rfl⟩
abbrev main_v28 : Ref sig .tc := ⟨.hbm, 65, rfl⟩
abbrev main_v29 : Ref sig .tc := ⟨.hbm, 66, rfl⟩
abbrev main_cst_6 : Ref sig .tc := ⟨.hbm, 67, rfl⟩
abbrev main_v30 : Ref sig .tc := ⟨.hbm, 68, rfl⟩
abbrev main_v31 : Ref sig .tc := ⟨.hbm, 69, rfl⟩
abbrev main_v32 : Ref sig .tc := ⟨.hbm, 70, rfl⟩
abbrev main_v33 : Ref sig .tc := ⟨.hbm, 71, rfl⟩
abbrev main_v34 : Ref sig .tc := ⟨.hbm, 72, rfl⟩
abbrev main_c_7 : Ref sig .tc := ⟨.hbm, 73, rfl⟩
abbrev main_call0_v0 : Ref sig .tc := ⟨.hbm, 74, rfl⟩
abbrev main_v35 : Ref sig .tc := ⟨.hbm, 75, rfl⟩
abbrev main_v36 : Ref sig .tc := ⟨.hbm, 76, rfl⟩
abbrev main_c_8 : Ref sig .tc := ⟨.hbm, 77, rfl⟩
abbrev main_call1_v0 : Ref sig .tc := ⟨.hbm, 78, rfl⟩
abbrev main_v37 : Ref sig .tc := ⟨.hbm, 79, rfl⟩
abbrev main_c_9 : Ref sig .tc := ⟨.hbm, 80, rfl⟩
abbrev main_call2_v0 : Ref sig .tc := ⟨.hbm, 81, rfl⟩
abbrev main_v38 : Ref sig .tc := ⟨.hbm, 82, rfl⟩
abbrev main_v39 : Ref sig .tc := ⟨.hbm, 83, rfl⟩
abbrev main_v40 : Ref sig .tc := ⟨.hbm, 84, rfl⟩
abbrev main_v41 : Ref sig .tc := ⟨.hbm, 85, rfl⟩
abbrev main_v42 : Ref sig .tc := ⟨.hbm, 86, rfl⟩
abbrev main_v43 : Ref sig .tc := ⟨.hbm, 87, rfl⟩
abbrev main_v44 : Ref sig .tc := ⟨.hbm, 88, rfl⟩
abbrev main_v45 : Ref sig .tc := ⟨.hbm, 89, rfl⟩
abbrev main_c_10 : Ref sig .tc := ⟨.hbm, 90, rfl⟩
abbrev main_v46 : Ref sig .tc := ⟨.hbm, 91, rfl⟩
abbrev main_v47 : Ref sig .tc := ⟨.hbm, 92, rfl⟩
abbrev main_c_11 : Ref sig .tc := ⟨.hbm, 93, rfl⟩
abbrev main_v48 : Ref sig .tc := ⟨.hbm, 94, rfl⟩
abbrev main_v49 : Ref sig .tc := ⟨.hbm, 95, rfl⟩
abbrev main_v50 : Ref sig .tc := ⟨.hbm, 96, rfl⟩
abbrev main_v51 : Ref sig .tc := ⟨.hbm, 97, rfl⟩
abbrev main_v52 : Ref sig .tc := ⟨.hbm, 98, rfl⟩
abbrev main_cst_12 : Ref sig .tc := ⟨.hbm, 99, rfl⟩
abbrev main_v53 : Ref sig .tc := ⟨.hbm, 100, rfl⟩
abbrev main_v54 : Ref sig .tc := ⟨.hbm, 101, rfl⟩
abbrev main_v55 : Ref sig .tc := ⟨.hbm, 102, rfl⟩
abbrev main_v56 : Ref sig .tc := ⟨.hbm, 103, rfl⟩
abbrev main_v57 : Ref sig .tc := ⟨.hbm, 104, rfl⟩
abbrev main_c_13 : Ref sig .tc := ⟨.hbm, 105, rfl⟩
abbrev main_call3_v0 : Ref sig .tc := ⟨.hbm, 106, rfl⟩
abbrev main_v58 : Ref sig .tc := ⟨.hbm, 107, rfl⟩
abbrev main_v59 : Ref sig .tc := ⟨.hbm, 108, rfl⟩
abbrev main_c_14 : Ref sig .tc := ⟨.hbm, 109, rfl⟩
abbrev main_call4_v0 : Ref sig .tc := ⟨.hbm, 110, rfl⟩
abbrev main_v60 : Ref sig .tc := ⟨.hbm, 111, rfl⟩
abbrev main_c_15 : Ref sig .tc := ⟨.hbm, 112, rfl⟩
abbrev main_call5_v0 : Ref sig .tc := ⟨.hbm, 113, rfl⟩
abbrev main_v61 : Ref sig .tc := ⟨.hbm, 114, rfl⟩
abbrev main_v62 : Ref sig .tc := ⟨.hbm, 115, rfl⟩
abbrev main_v63 : Ref sig .tc := ⟨.hbm, 116, rfl⟩
abbrev main_v64 : Ref sig .tc := ⟨.hbm, 117, rfl⟩
abbrev main_v65 : Ref sig .tc := ⟨.hbm, 118, rfl⟩
abbrev main_v66 : Ref sig .tc := ⟨.hbm, 119, rfl⟩
abbrev main_v67 : Ref sig .tc := ⟨.hbm, 120, rfl⟩
abbrev main_v68 : Ref sig .tc := ⟨.hbm, 121, rfl⟩
abbrev main_c_16 : Ref sig .tc := ⟨.hbm, 122, rfl⟩
abbrev main_v69 : Ref sig .tc := ⟨.hbm, 123, rfl⟩
abbrev main_v70 : Ref sig .tc := ⟨.hbm, 124, rfl⟩
abbrev main_c_17 : Ref sig .tc := ⟨.hbm, 125, rfl⟩
abbrev main_v71 : Ref sig .tc := ⟨.hbm, 126, rfl⟩
abbrev main_v72 : Ref sig .tc := ⟨.hbm, 127, rfl⟩
abbrev main_v73 : Ref sig .tc := ⟨.hbm, 128, rfl⟩
abbrev main_v74 : Ref sig .tc := ⟨.hbm, 129, rfl⟩
abbrev main_v75 : Ref sig .tc := ⟨.hbm, 130, rfl⟩
abbrev main_cst_18 : Ref sig .tc := ⟨.hbm, 131, rfl⟩
abbrev main_v76 : Ref sig .tc := ⟨.hbm, 132, rfl⟩
abbrev main_v77 : Ref sig .tc := ⟨.hbm, 133, rfl⟩
abbrev main_v78 : Ref sig .tc := ⟨.hbm, 134, rfl⟩
abbrev main_v79 : Ref sig .tc := ⟨.hbm, 135, rfl⟩
abbrev main_v80 : Ref sig .tc := ⟨.hbm, 136, rfl⟩
abbrev main_v81 : Ref sig .tc := ⟨.hbm, 137, rfl⟩
abbrev main_c_19 : Ref sig .tc := ⟨.hbm, 138, rfl⟩
abbrev main_call6_v0 : Ref sig .tc := ⟨.hbm, 139, rfl⟩
abbrev main_v82 : Ref sig .tc := ⟨.hbm, 140, rfl⟩
abbrev main_v83 : Ref sig .tc := ⟨.hbm, 141, rfl⟩
abbrev main_c_20 : Ref sig .tc := ⟨.hbm, 142, rfl⟩
abbrev main_call7_v0 : Ref sig .tc := ⟨.hbm, 143, rfl⟩
abbrev main_v84 : Ref sig .tc := ⟨.hbm, 144, rfl⟩
abbrev main_c_21 : Ref sig .tc := ⟨.hbm, 145, rfl⟩
abbrev main_call8_v0 : Ref sig .tc := ⟨.hbm, 146, rfl⟩
abbrev main_v85 : Ref sig .tc := ⟨.hbm, 147, rfl⟩
abbrev main_v86 : Ref sig .tc := ⟨.hbm, 148, rfl⟩
abbrev main_v87 : Ref sig .tc := ⟨.hbm, 149, rfl⟩
abbrev main_v88 : Ref sig .tc := ⟨.hbm, 150, rfl⟩
abbrev main_v89 : Ref sig .tc := ⟨.hbm, 151, rfl⟩
abbrev main_v90 : Ref sig .tc := ⟨.hbm, 152, rfl⟩
abbrev main_v91 : Ref sig .tc := ⟨.hbm, 153, rfl⟩
abbrev main_c_22 : Ref sig .tc := ⟨.hbm, 154, rfl⟩
abbrev main_call9_v0 : Ref sig .tc := ⟨.hbm, 155, rfl⟩
abbrev main_v92 : Ref sig .tc := ⟨.hbm, 156, rfl⟩
abbrev main_v93 : Ref sig .tc := ⟨.hbm, 157, rfl⟩
abbrev main_c_23 : Ref sig .tc := ⟨.hbm, 158, rfl⟩
abbrev main_call10_v0 : Ref sig .tc := ⟨.hbm, 159, rfl⟩
abbrev main_v94 : Ref sig .tc := ⟨.hbm, 160, rfl⟩
abbrev main_c_24 : Ref sig .tc := ⟨.hbm, 161, rfl⟩
abbrev main_call11_v0 : Ref sig .tc := ⟨.hbm, 162, rfl⟩
abbrev main_v95 : Ref sig .tc := ⟨.hbm, 163, rfl⟩
abbrev main_v96 : Ref sig .tc := ⟨.hbm, 164, rfl⟩
abbrev main_v97 : Ref sig .tc := ⟨.hbm, 165, rfl⟩
abbrev main_v98 : Ref sig .tc := ⟨.hbm, 166, rfl⟩
abbrev main_v99 : Ref sig .tc := ⟨.hbm, 167, rfl⟩
abbrev main_v100 : Ref sig .tc := ⟨.hbm, 168, rfl⟩
abbrev main_v101 : Ref sig .tc := ⟨.hbm, 169, rfl⟩
abbrev main_v102 : Ref sig .tc := ⟨.hbm, 170, rfl⟩
abbrev main_c_25 : Ref sig .tc := ⟨.hbm, 171, rfl⟩
abbrev main_v103 : Ref sig .tc := ⟨.hbm, 172, rfl⟩
abbrev main_v104 : Ref sig .tc := ⟨.hbm, 173, rfl⟩
abbrev main_c_26 : Ref sig .tc := ⟨.hbm, 174, rfl⟩
abbrev main_v105 : Ref sig .tc := ⟨.hbm, 175, rfl⟩
abbrev main_v106 : Ref sig .tc := ⟨.hbm, 176, rfl⟩
abbrev main_v107 : Ref sig .tc := ⟨.hbm, 177, rfl⟩
abbrev main_v108 : Ref sig .tc := ⟨.hbm, 178, rfl⟩
abbrev main_v109 : Ref sig .tc := ⟨.hbm, 179, rfl⟩
abbrev main_cst_27 : Ref sig .tc := ⟨.hbm, 180, rfl⟩
abbrev main_v110 : Ref sig .tc := ⟨.hbm, 181, rfl⟩
abbrev main_v111 : Ref sig .tc := ⟨.hbm, 182, rfl⟩
abbrev main_v112 : Ref sig .tc := ⟨.hbm, 183, rfl⟩
abbrev main_v113 : Ref sig .tc := ⟨.hbm, 184, rfl⟩
abbrev main_v114 : Ref sig .tc := ⟨.hbm, 185, rfl⟩
abbrev main_v115 : Ref sig .tc := ⟨.hbm, 186, rfl⟩
abbrev main_c_28 : Ref sig .tc := ⟨.hbm, 187, rfl⟩
abbrev main_call12_v0 : Ref sig .tc := ⟨.hbm, 188, rfl⟩
abbrev main_v116 : Ref sig .tc := ⟨.hbm, 189, rfl⟩
abbrev main_v117 : Ref sig .tc := ⟨.hbm, 190, rfl⟩
abbrev main_c_29 : Ref sig .tc := ⟨.hbm, 191, rfl⟩
abbrev main_call13_v0 : Ref sig .tc := ⟨.hbm, 192, rfl⟩
abbrev main_v118 : Ref sig .tc := ⟨.hbm, 193, rfl⟩
abbrev main_c_30 : Ref sig .tc := ⟨.hbm, 194, rfl⟩
abbrev main_call14_v0 : Ref sig .tc := ⟨.hbm, 195, rfl⟩
abbrev main_v119 : Ref sig .tc := ⟨.hbm, 196, rfl⟩
abbrev main_v120 : Ref sig .tc := ⟨.hbm, 197, rfl⟩
abbrev main_v121 : Ref sig .tc := ⟨.hbm, 198, rfl⟩
abbrev main_v122 : Ref sig .tc := ⟨.hbm, 199, rfl⟩
abbrev main_v123 : Ref sig .tc := ⟨.hbm, 200, rfl⟩
abbrev main_v124 : Ref sig .tc := ⟨.hbm, 201, rfl⟩
abbrev main_v125 : Ref sig .tc := ⟨.hbm, 202, rfl⟩
abbrev main_v126 : Ref sig .tc := ⟨.hbm, 203, rfl⟩
abbrev main_v127 : Ref sig .tc := ⟨.hbm, 204, rfl⟩
abbrev main_c_31 : Ref sig .tc := ⟨.hbm, 205, rfl⟩
abbrev main_v128 : Ref sig .tc := ⟨.hbm, 206, rfl⟩
abbrev main_v129 : Ref sig .tc := ⟨.hbm, 207, rfl⟩
abbrev main_c_32 : Ref sig .tc := ⟨.hbm, 208, rfl⟩
abbrev main_v130 : Ref sig .tc := ⟨.hbm, 209, rfl⟩
abbrev main_v131 : Ref sig .tc := ⟨.hbm, 210, rfl⟩
abbrev main_v132 : Ref sig .tc := ⟨.hbm, 211, rfl⟩
abbrev main_v133 : Ref sig .tc := ⟨.hbm, 212, rfl⟩
abbrev main_v134 : Ref sig .tc := ⟨.hbm, 213, rfl⟩
abbrev main_c_33 : Ref sig .tc := ⟨.hbm, 214, rfl⟩
abbrev main_v135 : Ref sig .tc := ⟨.hbm, 215, rfl⟩
abbrev main_v136 : Ref sig .tc := ⟨.hbm, 216, rfl⟩
abbrev main_c_34 : Ref sig .tc := ⟨.hbm, 217, rfl⟩
abbrev main_v137 : Ref sig .tc := ⟨.hbm, 218, rfl⟩
abbrev main_v138 : Ref sig .tc := ⟨.hbm, 219, rfl⟩
abbrev main_v139 : Ref sig .tc := ⟨.hbm, 220, rfl⟩
abbrev main_v140 : Ref sig .tc := ⟨.hbm, 221, rfl⟩
abbrev main_v141 : Ref sig .tc := ⟨.hbm, 222, rfl⟩
abbrev main_v142 : Ref sig .tc := ⟨.hbm, 223, rfl⟩
abbrev main_v143 : Ref sig .tc := ⟨.hbm, 224, rfl⟩
abbrev main_v144 : Ref sig .tc := ⟨.hbm, 225, rfl⟩
abbrev main_v145 : Ref sig .tc := ⟨.hbm, 226, rfl⟩
abbrev main_v146 : Ref sig .tc := ⟨.hbm, 227, rfl⟩
abbrev main_c_35 : Ref sig .tc := ⟨.hbm, 228, rfl⟩
abbrev main_call15_v0 : Ref sig .tc := ⟨.hbm, 229, rfl⟩
abbrev main_v147 : Ref sig .tc := ⟨.hbm, 230, rfl⟩
abbrev main_c_36 : Ref sig .tc := ⟨.hbm, 231, rfl⟩
abbrev main_call16_v0 : Ref sig .tc := ⟨.hbm, 232, rfl⟩
abbrev main_v148 : Ref sig .tc := ⟨.hbm, 233, rfl⟩
abbrev main_v149 : Ref sig .tc := ⟨.hbm, 234, rfl⟩
abbrev main_v150 : Ref sig .tc := ⟨.hbm, 235, rfl⟩
abbrev main_v151 : Ref sig .tc := ⟨.hbm, 236, rfl⟩
abbrev main_v152 : Ref sig .tc := ⟨.hbm, 237, rfl⟩
abbrev main_v153 : Ref sig .tc := ⟨.hbm, 238, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg6_1 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg1_1 : Ref sig .tc := ⟨.vmem, 25, rfl⟩
abbrev cc2_stg2_0 : Ref sig .tc := ⟨.vmem, 26, rfl⟩
abbrev cc2_stg2_1 : Ref sig .tc := ⟨.vmem, 27, rfl⟩
abbrev cc2_stg3_0 : Ref sig .tc := ⟨.vmem, 28, rfl⟩
abbrev cc2_stg4_0 : Ref sig .tc := ⟨.vmem, 29, rfl⟩
abbrev cc2_stg5_0 : Ref sig .tc := ⟨.vmem, 30, rfl⟩
abbrev cc2_stg6_0 : Ref sig .tc := ⟨.vmem, 31, rfl⟩
abbrev cc2_stg7_0 : Ref sig .tc := ⟨.vmem, 32, rfl⟩
abbrev cc2_stg8_0 : Ref sig .tc := ⟨.vmem, 33, rfl⟩
abbrev cc2_stg8_1 : Ref sig .tc := ⟨.vmem, 34, rfl⟩
abbrev cc3_stg0_0 : Ref sig .tc := ⟨.vmem, 35, rfl⟩
abbrev cc3_stg0_1 : Ref sig .tc := ⟨.vmem, 36, rfl⟩
abbrev cc3_stg1_0 : Ref sig .tc := ⟨.vmem, 37, rfl⟩
abbrev cc3_stg1_1 : Ref sig .tc := ⟨.vmem, 38, rfl⟩
abbrev cc3_stg2_0 : Ref sig .tc := ⟨.vmem, 39, rfl⟩
abbrev cc3_stg2_1 : Ref sig .tc := ⟨.vmem, 40, rfl⟩
abbrev cc3_stg3_0 : Ref sig .tc := ⟨.vmem, 41, rfl⟩
abbrev cc3_stg4_0 : Ref sig .tc := ⟨.vmem, 42, rfl⟩
abbrev cc3_stg5_0 : Ref sig .tc := ⟨.vmem, 43, rfl⟩
abbrev cc3_stg6_0 : Ref sig .tc := ⟨.vmem, 44, rfl⟩
abbrev cc3_stg6_1 : Ref sig .tc := ⟨.vmem, 45, rfl⟩
abbrev cc4_stg0_0 : Ref sig .tc := ⟨.vmem, 46, rfl⟩
abbrev cc4_stg0_1 : Ref sig .tc := ⟨.vmem, 47, rfl⟩
abbrev cc4_stg1_0 : Ref sig .tc := ⟨.vmem, 48, rfl⟩
abbrev cc4_stg1_1 : Ref sig .tc := ⟨.vmem, 49, rfl⟩
abbrev cc4_stg2_0 : Ref sig .tc := ⟨.vmem, 50, rfl⟩
abbrev cc4_stg2_1 : Ref sig .tc := ⟨.vmem, 51, rfl⟩
abbrev cc4_stg3_0 : Ref sig .tc := ⟨.vmem, 52, rfl⟩
abbrev cc4_stg4_0 : Ref sig .tc := ⟨.vmem, 53, rfl⟩
abbrev cc4_stg5_0 : Ref sig .tc := ⟨.vmem, 54, rfl⟩
abbrev cc4_stg6_0 : Ref sig .tc := ⟨.vmem, 55, rfl⟩
abbrev cc4_stg7_0 : Ref sig .tc := ⟨.vmem, 56, rfl⟩
abbrev cc4_stg8_0 : Ref sig .tc := ⟨.vmem, 57, rfl⟩
abbrev cc4_stg8_1 : Ref sig .tc := ⟨.vmem, 58, rfl⟩
abbrev cc5_stg0_0 : Ref sig .tc := ⟨.vmem, 59, rfl⟩
abbrev cc5_stg0_1 : Ref sig .tc := ⟨.vmem, 60, rfl⟩
abbrev cc5_stg1_0 : Ref sig .tc := ⟨.vmem, 61, rfl⟩
abbrev cc5_stg1_1 : Ref sig .tc := ⟨.vmem, 62, rfl⟩
abbrev cc5_stg2_0 : Ref sig .tc := ⟨.vmem, 63, rfl⟩
abbrev cc5_stg3_0 : Ref sig .tc := ⟨.vmem, 64, rfl⟩
abbrev cc5_stg4_0 : Ref sig .tc := ⟨.vmem, 65, rfl⟩
abbrev cc5_stg5_0 : Ref sig .tc := ⟨.vmem, 66, rfl⟩
abbrev cc5_stg6_0 : Ref sig .tc := ⟨.vmem, 67, rfl⟩
abbrev cc5_stg7_0 : Ref sig .tc := ⟨.vmem, 68, rfl⟩
abbrev cc5_stg7_1 : Ref sig .tc := ⟨.vmem, 69, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem6_1 : DmaSem sig := 21
abbrev cc2_sem0_0 : DmaSem sig := 22
abbrev cc2_sem0_1 : DmaSem sig := 23
abbrev cc2_sem1_0 : DmaSem sig := 24
abbrev cc2_sem1_1 : DmaSem sig := 25
abbrev cc2_sem2_0 : DmaSem sig := 26
abbrev cc2_sem2_1 : DmaSem sig := 27
abbrev cc2_sem3_0 : DmaSem sig := 28
abbrev cc2_sem4_0 : DmaSem sig := 29
abbrev cc2_sem5_0 : DmaSem sig := 30
abbrev cc2_sem6_0 : DmaSem sig := 31
abbrev cc2_sem7_0 : DmaSem sig := 32
abbrev cc2_sem8_0 : DmaSem sig := 33
abbrev cc2_sem8_1 : DmaSem sig := 34
abbrev cc3_sem0_0 : DmaSem sig := 35
abbrev cc3_sem0_1 : DmaSem sig := 36
abbrev cc3_sem1_0 : DmaSem sig := 37
abbrev cc3_sem1_1 : DmaSem sig := 38
abbrev cc3_sem2_0 : DmaSem sig := 39
abbrev cc3_sem2_1 : DmaSem sig := 40
abbrev cc3_sem3_0 : DmaSem sig := 41
abbrev cc3_sem4_0 : DmaSem sig := 42
abbrev cc3_sem5_0 : DmaSem sig := 43
abbrev cc3_sem6_0 : DmaSem sig := 44
abbrev cc3_sem6_1 : DmaSem sig := 45
abbrev cc4_sem0_0 : DmaSem sig := 46
abbrev cc4_sem0_1 : DmaSem sig := 47
abbrev cc4_sem1_0 : DmaSem sig := 48
abbrev cc4_sem1_1 : DmaSem sig := 49
abbrev cc4_sem2_0 : DmaSem sig := 50
abbrev cc4_sem2_1 : DmaSem sig := 51
abbrev cc4_sem3_0 : DmaSem sig := 52
abbrev cc4_sem4_0 : DmaSem sig := 53
abbrev cc4_sem5_0 : DmaSem sig := 54
abbrev cc4_sem6_0 : DmaSem sig := 55
abbrev cc4_sem7_0 : DmaSem sig := 56
abbrev cc4_sem8_0 : DmaSem sig := 57
abbrev cc4_sem8_1 : DmaSem sig := 58
abbrev cc5_sem0_0 : DmaSem sig := 59
abbrev cc5_sem0_1 : DmaSem sig := 60
abbrev cc5_sem1_0 : DmaSem sig := 61
abbrev cc5_sem1_1 : DmaSem sig := 62
abbrev cc5_sem2_0 : DmaSem sig := 63
abbrev cc5_sem3_0 : DmaSem sig := 64
abbrev cc5_sem4_0 : DmaSem sig := 65
abbrev cc5_sem5_0 : DmaSem sig := 66
abbrev cc5_sem6_0 : DmaSem sig := 67
abbrev cc5_sem7_0 : DmaSem sig := 68
abbrev cc5_sem7_1 : DmaSem sig := 69

abbrev nD : Nat := 1
abbrev τ : Topo := Topo.v7x

variable {F : FTy → Type} [FloatOps F]

abbrev grid0 : Pipeline.Grid := ⟨1, ![13], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S4096x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4096x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4096x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4096x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S64x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S4096x64 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4096x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4096x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S4096x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S64x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S64x64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S64x64 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x64 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 2 → Memref sig .tc .vmem S4096x64 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true]

abbrev grid3 : Pipeline.Grid := ⟨1, ![13], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S4096x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S4096x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S4096x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S64x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S64x64 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S4096x64 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev grid4 : Pipeline.Grid := ⟨1, ![13], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_7 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_8 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S4096x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S4096x1 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S4096x64 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 1 → Memref sig .tc .vmem S64x64 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x64 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S64x64 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S64x64 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 1 → Memref sig .tc .vmem S1x64 .f32 := fun | 0 => Memref.whole cc4_stg7_0 | ⟨_ + 1, h⟩ => absurd h (Nat.not_lt.2 (Nat.le_add_left _ _))
abbrev sem4_7 : Fin 1 → DmaSem sig := fun | 0 => cc4_sem7_0 | ⟨_ + 1, h⟩ => absurd h (Nat.not_lt.2 (Nat.le_add_left _ _))
abbrev reads4_7 : Fin grid4.rank → Bool := ![false]

abbrev stage4_8 : Fin 2 → Memref sig .tc .vmem S4096x64 .f32 := fun | 0 => Memref.whole cc4_stg8_0 | 1 => Memref.whole cc4_stg8_1 | ⟨_ + 2, h⟩ => absurd h (Nat.not_lt.2 (Nat.le_add_left _ _))
abbrev sem4_8 : Fin 2 → DmaSem sig := fun | 0 => cc4_sem8_0 | 1 => cc4_sem8_1 | ⟨_ + 2, h⟩ => absurd h (Nat.not_lt.2 (Nat.le_add_left _ _))
abbrev reads4_8 : Fin grid4.rank → Bool := ![true]

abbrev grid5 : Pipeline.Grid := ⟨1, ![123], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_7 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S8192x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S8192x64 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S64x64 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S64x64 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x64 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S64x1 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 1 → Memref sig .tc .vmem S1x1 .f32 := fun | 0 => Memref.whole cc5_stg6_0 | ⟨_ + 1, h⟩ => absurd h (Nat.not_lt.2 (Nat.le_add_left _ _))
abbrev sem5_6 : Fin 1 → DmaSem sig := fun | 0 => cc5_sem6_0 | ⟨_ + 1, h⟩ => absurd h (Nat.not_lt.2 (Nat.le_add_left _ _))
abbrev reads5_6 : Fin grid5.rank → Bool := ![false]

abbrev stage5_7 : Fin 2 → Memref sig .tc .vmem S8192x1 .f32 := fun | 0 => Memref.whole cc5_stg7_0 | 1 => Memref.whole cc5_stg7_1 | ⟨_ + 2, h⟩ => absurd h (Nat.not_lt.2 (Nat.le_add_left _ _))
abbrev sem5_7 : Fin 2 → DmaSem sig := fun | 0 => cc5_sem7_0 | 1 => cc5_sem7_1 | ⟨_ + 2, h⟩ => absurd h (Nat.not_lt.2 (Nat.le_add_left _ _))
abbrev reads5_7 : Fin grid5.rank → Bool := ![true]

class Facts₀ : Prop where
  bcast_S_S100000 : S_.BroadcastsInDim S100000 (![] : Fin 0 → Fin S100000.rank)
  bcast_S100000_S100000x1_0 : S100000.BroadcastsInDim S100000x1 (![0] : Fin 1 → Fin S100000x1.rank)
  slices_S2x2000000_S1x2000000_1_0 : S2x2000000.Slices ![1, 0] S1x2000000
  shapeCasts_S1x2000000_S2000000 : S1x2000000.ShapeCasts S2000000
  bcast_S_S2000000 : S_.BroadcastsInDim S2000000 (![] : Fin 0 → Fin S2000000.rank)
  bcast_S_S50000 : S_.BroadcastsInDim S50000 (![] : Fin 0 → Fin S50000.rank)
  bcast_S2000000_S2000000x1_0 : S2000000.BroadcastsInDim S2000000x1 (![0] : Fin 1 → Fin S2000000x1.rank)
  slices_S2x2000000_S1x2000000_0_0 : S2x2000000.Slices ![0, 0] S1x2000000
  bcast_S_S50000x64 : S_.BroadcastsInDim S50000x64 (![] : Fin 0 → Fin S50000x64.rank)
  transposes_S64x64_S64x64_1_0 : S64x64.Transposes [1, 0] S64x64
  pads_S50000x64_S53248x64_032480_000 : S50000x64.Pads (![0, 0] : Fin 2 → Nat) ![3248, 0] ![0, 0] S53248x64
  h_S_ : 0 < S_.numel
  shapeCasts_S50000_S50000x1 : S50000.ShapeCasts S50000x1
  pads_S50000x1_S53248x1_032480_000 : S50000x1.Pads (![0, 0] : Fin 2 → Nat) ![3248, 0] ![0, 0] S53248x1
  shapeCasts_S64_S1x64 : S64.ShapeCasts S1x64
  inb_S4096x1_S4096x1_0_0 : ∀ a, (![0, 0] : Fin 2 → Nat) a + S4096x1.size a ≤ S4096x1.size a
  h_S4096x1 : 0 < S4096x1.numel
  shapeCasts_S4096x1_S4096x1 : S4096x1.ShapeCasts S4096x1
  inb_S4096x64_S4096x64_0_0 : ∀ a, (![0, 0] : Fin 2 → Nat) a + S4096x64.size a ≤ S4096x64.size a
  h_S4096x64 : 0 < S4096x64.numel
  shapeCasts_S4096x64_S4096x64 : S4096x64.ShapeCasts S4096x64
  broadcasts_S4096x1_S4096x64 : S4096x1.Broadcasts S4096x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S4096x64 : S1x64.Broadcasts S4096x64
  slices_S53248x64_S50000x64_0_0 : S53248x64.Slices ![0, 0] S50000x64
  bcast_S_S100000x64 : S_.BroadcastsInDim S100000x64 (![] : Fin 0 → Fin S100000x64.rank)
  pads_S100000x64_S102400x64_024000_000 : S100000x64.Pads (![0, 0] : Fin 2 → Nat) ![2400, 0] ![0, 0] S102400x64
  shapeCasts_S100000_S100000x1 : S100000.ShapeCasts S100000x1
  pads_S100000x1_S102400x1_024000_000 : S100000x1.Pads (![0, 0] : Fin 2 → Nat) ![2400, 0] ![0, 0] S102400x1
  slices_S102400x64_S100000x64_0_0 : S102400x64.Slices ![0, 0] S100000x64
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  bcast_S_S1000000 : S_.BroadcastsInDim S1000000 (![] : Fin 0 → Fin S1000000.rank)
  bcast_S1000000_S1000000x1_0 : S1000000.BroadcastsInDim S1000000x1 (![0] : Fin 1 → Fin S1000000x1.rank)
  slices_S64x128_S64x64_0_0 : S64x128.Slices ![0, 0] S64x64
  slices_S64x128_S64x64_0_64 : S64x128.Slices ![0, 64] S64x64
  transposes_S1x64_S64x1_1_0 : S1x64.Transposes [1, 0] S64x1
  pads_S1000000x64_S1007616x64_076160_000 : S1000000x64.Pads (![0, 0] : Fin 2 → Nat) ![7616, 0] ![0, 0] S1007616x64
  shapeCasts_S1_S1x1 : S1.ShapeCasts S1x1
  inb_S8192x64_S8192x64_0_0 : ∀ a, (![0, 0] : Fin 2 → Nat) a + S8192x64.size a ≤ S8192x64.size a
  h_S8192x64 : 0 < S8192x64.numel
  shapeCasts_S8192x64_S8192x64 : S8192x64.ShapeCasts S8192x64
  broadcasts_S1x64_S8192x64 : S1x64.Broadcasts S8192x64
  inb_S64x1_S64x1_0_0 : ∀ a, (![0, 0] : Fin 2 → Nat) a + S64x1.size a ≤ S64x1.size a
  h_S64x1 : 0 < S64x1.numel
  shapeCasts_S64x1_S64x1 : S64x1.ShapeCasts S64x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S8192x1 : S1x1.Broadcasts S8192x1
  inb_S8192x1_S8192x1_0_0 : ∀ a, (![0, 0] : Fin 2 → Nat) a + S8192x1.size a ≤ S8192x1.size a
  h_S8192x1 : 0 < S8192x1.numel
  slices_S1007616x1_S1000000x1_0_0 : S1007616x1.Slices ![0, 0] S1000000x1
  shapeCasts_S1000000x1_S1000000 : S1000000x1.ShapeCasts S1000000
  gather_S100000x64_S100000x1_S100000x64_1_0_n_n_0_1_164_wf : GatherDims.WF S100000x64 S100000x1 S100000x64 [1] [0] [] [0] [] 1 ![1, 64]
  scatter_S50000_S2000000x1_S2000000_n_0_0_1_wf : ScatterDims.WF S50000 S2000000x1 S2000000 [] [0] [0] 1
  scatter_S100000_S2000000x1_S2000000_n_0_0_1_wf : ScatterDims.WF S100000 S2000000x1 S2000000 [] [0] [0] 1
  gather_S50000x64_S2000000x1_S2000000x64_1_0_n_n_0_1_164_wf : GatherDims.WF S50000x64 S2000000x1 S2000000x64 [1] [0] [] [0] [] 1 ![1, 64]
  scatter_S50000x64_S2000000x1_S2000000x64_1_0_0_1_wf : ScatterDims.WF S50000x64 S2000000x1 S2000000x64 [1] [0] [0] 1
  dot_S4096x64_S64x64_S4096x64_1_0_0_1_n_n_wf : DotDims.WF S4096x64 S64x64 S4096x64 [1] [0] [0] [1] [] []
  scatter_S100000x64_S2000000x1_S2000000x64_1_0_0_1_wf : ScatterDims.WF S100000x64 S2000000x1 S2000000x64 [1] [0] [0] 1
  gather_S100000x64_S1000000x1_S1000000x64_1_0_n_n_0_1_164_wf : GatherDims.WF S100000x64 S1000000x1 S1000000x64 [1] [0] [] [0] [] 1 ![1, 64]
  gather_S50000x64_S1000000x1_S1000000x64_1_0_n_n_0_1_164_wf : GatherDims.WF S50000x64 S1000000x1 S1000000x64 [1] [0] [] [0] [] 1 ![1, 64]
  dot_S8192x64_S64x64_S8192x64_1_0_0_1_n_n_wf : DotDims.WF S8192x64 S64x64 S8192x64 [1] [0] [0] [1] [] []
  dot_S8192x64_S64x1_S8192x1_1_0_0_1_n_n_wf : DotDims.WF S8192x64 S64x1 S8192x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x64.size a ≤ S53248x64.size a
  hwx0_0 : ∀ i : grid0.Coords, EltTy.bits .f32 = 32 ∨ (Rect.block (s := S53248x64) S4096x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x1.size a ≤ S53248x1.size a
  hwx0_1 : ∀ i : grid0.Coords, EltTy.bits .f32 = 32 ∨ (Rect.block (s := S53248x1) S4096x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4096x64.size a ≤ S53248x64.size a
  hwx0_2 : ∀ i : grid0.Coords, EltTy.bits .f32 = 32 ∨ (Rect.block (s := S53248x64) S4096x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x64.size a ≤ S64x64.size a
  hwx0_5 : ∀ i : grid0.Coords, EltTy.bits .f32 = 32 ∨ (Rect.block (s := S64x64) S64x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S4096x64.size a ≤ S53248x64.size a
  hwx0_6 : ∀ i : grid0.Coords, EltTy.bits .f32 = 32 ∨ (Rect.block (s := S53248x64) S4096x64.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4096x64.size a ≤ S102400x64.size a
  hwx1_0 : ∀ i : grid1.Coords, EltTy.bits .f32 = 32 ∨ (Rect.block (s := S102400x64) S4096x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4096x1.size a ≤ S102400x1.size a
  hwx1_1 : ∀ i : grid1.Coords, EltTy.bits .f32 = 32 ∨ (Rect.block (s := S102400x1) S4096x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4096x64.size a ≤ S102400x64.size a
  hwx1_2 : ∀ i : grid1.Coords, EltTy.bits .f32 = 32 ∨ (Rect.block (s := S102400x64) S4096x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .f32 = 32 ∨ (Rect.block (s := S64x64) S64x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S64x64.size a ≤ S64x64.size a
  hwx1_5 : ∀ i : grid1.Coords, EltTy.bits .f32 = 32 ∨ (Rect.block (s := S64x64) S64x64.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S4096x64.size a ≤ S102400x64.size a
  hwx1_6 : ∀ i : grid1.Coords, EltTy.bits .f32 = 32 ∨ (Rect.block (s := S102400x64) S4096x64.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4096x64.size a ≤ S102400x64.size a
  hwx2_0 : ∀ i : grid2.Coords, EltTy.bits .f32 = 32 ∨ (Rect.block (s := S102400x64) S4096x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4096x1.size a ≤ S102400x1.size a
  hwx2_1 : ∀ i : grid2.Coords, EltTy.bits .f32 = 32 ∨ (Rect.block (s := S102400x1) S4096x1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S4096x64.size a ≤ S102400x64.size a
  hwx2_2 : ∀ i : grid2.Coords, EltTy.bits .f32 = 32 ∨ (Rect.block (s := S102400x64) S4096x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64x64.size a ≤ S64x64.size a
  hwx2_3 : ∀ i : grid2.Coords, EltTy.bits .f32 = 32 ∨ (Rect.block (s := S64x64) S64x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x64.size a ≤ S1x64.size a
  hwx2_4 : ∀ i : grid2.Coords, EltTy.bits .f32 = 32 ∨ (Rect.block (s := S1x64) S1x64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S64x64.size a ≤ S64x64.size a
  hwx2_5 : ∀ i : grid2.Coords, EltTy.bits .f32 = 32 ∨ (Rect.block (s := S64x64) S64x64.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S64x64.size a ≤ S64x64.size a
  hwx2_6 : ∀ i : grid2.Coords, EltTy.bits .f32 = 32 ∨ (Rect.block (s := S64x64) S64x64.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x64.size a ≤ S1x64.size a
  hwx2_7 : ∀ i : grid2.Coords, EltTy.bits .f32 = 32 ∨ (Rect.block (s := S1x64) S1x64.size (cc2_transform_7 i) (hinb2_7 i)).WholeWords (EltTy.packing .f32)
  hstage2_8 : ∀ j, (stage2_8 j).IsWhole
  nbuf2_8 : grid2.bufCount reads2_8 false = 2
  hreads2_8 : ∀ i i' : grid2.Coords, (∀ a, reads2_8 a = true → i a = i' a) → cc2_transform_8 i = cc2_transform_8 i'
  hinb2_8 : ∀ (i : grid2.Coords) a, (cc2_transform_8 i a + 1) * S4096x64.size a ≤ S102400x64.size a
  hwx2_8 : ∀ i : grid2.Coords, EltTy.bits .f32 = 32 ∨ (Rect.block (s := S102400x64) S4096x64.size (cc2_transform_8 i) (hinb2_8 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S4096x64.size a ≤ S53248x64.size a
  hwx3_0 : ∀ i : grid3.Coords, EltTy.bits .f32 = 32 ∨ (Rect.block (s := S53248x64) S4096x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S4096x1.size a ≤ S53248x1.size a
  hwx3_1 : ∀ i : grid3.Coords, EltTy.bits .f32 = 32 ∨ (Rect.block (s := S53248x1) S4096x1.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S4096x64.size a ≤ S53248x64.size a
  hwx3_2 : ∀ i : grid3.Coords, EltTy.bits .f32 = 32 ∨ (Rect.block (s := S53248x64) S4096x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S64x64.size a ≤ S64x64.size a
  hwx3_3 : ∀ i : grid3.Coords, EltTy.bits .f32 = 32 ∨ (Rect.block (s := S64x64) S64x64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x64.size a ≤ S1x64.size a
  hwx3_4 : ∀ i : grid3.Coords, EltTy.bits .f32 = 32 ∨ (Rect.block (s := S1x64) S1x64.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S64x64.size a ≤ S64x64.size a
  hwx3_5 : ∀ i : grid3.Coords, EltTy.bits .f32 = 32 ∨ (Rect.block (s := S64x64) S64x64.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S4096x64.size a ≤ S53248x64.size a
  hwx3_6 : ∀ i : grid3.Coords, EltTy.bits .f32 = 32 ∨ (Rect.block (s := S53248x64) S4096x64.size (cc3_transform_6 i) (hinb3_6 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S4096x64.size a ≤ S53248x64.size a
  hwx4_0 : ∀ i : grid4.Coords, EltTy.bits .f32 = 32 ∨ (Rect.block (s := S53248x64) S4096x64.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S4096x1.size a ≤ S53248x1.size a
  hwx4_1 : ∀ i : grid4.Coords, EltTy.bits .f32 = 32 ∨ (Rect.block (s := S53248x1) S4096x1.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S4096x64.size a ≤ S53248x64.size a
  hwx4_2 : ∀ i : grid4.Coords, EltTy.bits .f32 = 32 ∨ (Rect.block (s := S53248x64) S4096x64.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S64x64.size a ≤ S64x64.size a
  hwx4_3 : ∀ i : grid4.Coords, EltTy.bits .f32 = 32 ∨ (Rect.block (s := S64x64) S64x64.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x64.size a ≤ S1x64.size a
  hwx4_4 : ∀ i : grid4.Coords, EltTy.bits .f32 = 32 ∨ (Rect.block (s := S1x64) S1x64.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S64x64.size a ≤ S64x64.size a
  hwx4_5 : ∀ i : grid4.Coords, EltTy.bits .f32 = 32 ∨ (Rect.block (s := S64x64) S64x64.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S64x64.size a ≤ S64x64.size a
  hwx4_6 : ∀ i : grid4.Coords, EltTy.bits .f32 = 32 ∨ (Rect.block (s := S64x64) S64x64.size (cc4_transform_6 i) (hinb4_6 i)).WholeWords (EltTy.packing .f32)
  hstage4_7 : ∀ j, (stage4_7 j).IsWhole
  nbuf4_7 : grid4.bufCount reads4_7 true = 1
  hreads4_7 : ∀ i i' : grid4.Coords, (∀ a, reads4_7 a = true → i a = i' a) → cc4_transform_7 i = cc4_transform_7 i'
  hinb4_7 : ∀ (i : grid4.Coords) a, (cc4_transform_7 i a + 1) * S1x64.size a ≤ S1x64.size a
  hwx4_7 : ∀ i : grid4.Coords, EltTy.bits .f32 = 32 ∨ (Rect.block (s := S1x64) S1x64.size (cc4_transform_7 i) (hinb4_7 i)).WholeWords (EltTy.packing .f32)
  hstage4_8 : ∀ j, (stage4_8 j).IsWhole
  nbuf4_8 : grid4.bufCount reads4_8 false = 2
  hreads4_8 : ∀ i i' : grid4.Coords, (∀ a, reads4_8 a = true → i a = i' a) → cc4_transform_8 i = cc4_transform_8 i'
  hinb4_8 : ∀ (i : grid4.Coords) a, (cc4_transform_8 i a + 1) * S4096x64.size a ≤ S53248x64.size a
  hwx4_8 : ∀ i : grid4.Coords, EltTy.bits .f32 = 32 ∨ (Rect.block (s := S53248x64) S4096x64.size (cc4_transform_8 i) (hinb4_8 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S8192x64.size a ≤ S1007616x64.size a
  hwx5_0 : ∀ i : grid5.Coords, EltTy.bits .f32 = 32 ∨ (Rect.block (s := S1007616x64) S8192x64.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S8192x64.size a ≤ S1007616x64.size a
  hwx5_1 : ∀ i : grid5.Coords, EltTy.bits .f32 = 32 ∨ (Rect.block (s := S1007616x64) S8192x64.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S64x64.size a ≤ S64x64.size a
  hwx5_2 : ∀ i : grid5.Coords, EltTy.bits .f32 = 32 ∨ (Rect.block (s := S64x64) S64x64.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S64x64.size a ≤ S64x64.size a
  hwx5_3 : ∀ i : grid5.Coords, EltTy.bits .f32 = 32 ∨ (Rect.block (s := S64x64) S64x64.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x64.size a ≤ S1x64.size a
  hwx5_4 : ∀ i : grid5.Coords, EltTy.bits .f32 = 32 ∨ (Rect.block (s := S1x64) S1x64.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S64x1.size a ≤ S64x1.size a
  hwx5_5 : ∀ i : grid5.Coords, EltTy.bits .f32 = 32 ∨ (Rect.block (s := S64x1) S64x1.size (cc5_transform_5 i) (hinb5_5 i)).WholeWords (EltTy.packing .f32)
  hstage5_6 : ∀ j, (stage5_6 j).IsWhole
  nbuf5_6 : grid5.bufCount reads5_6 true = 1
  hreads5_6 : ∀ i i' : grid5.Coords, (∀ a, reads5_6 a = true → i a = i' a) → cc5_transform_6 i = cc5_transform_6 i'
  hinb5_6 : ∀ (i : grid5.Coords) a, (cc5_transform_6 i a + 1) * S1x1.size a ≤ S1x1.size a
  hwx5_6 : ∀ i : grid5.Coords, EltTy.bits .f32 = 32 ∨ (Rect.block (s := S1x1) S1x1.size (cc5_transform_6 i) (hinb5_6 i)).WholeWords (EltTy.packing .f32)
  hstage5_7 : ∀ j, (stage5_7 j).IsWhole
  nbuf5_7 : grid5.bufCount reads5_7 false = 2
  hreads5_7 : ∀ i i' : grid5.Coords, (∀ a, reads5_7 a = true → i a = i' a) → cc5_transform_7 i = cc5_transform_7 i'
  hinb5_7 : ∀ (i : grid5.Coords) a, (cc5_transform_7 i a + 1) * S8192x1.size a ≤ S1007616x1.size a
  hwx5_7 : ∀ i : grid5.Coords, EltTy.bits .f32 = 32 ∨ (Rect.block (s := S1007616x1) S8192x1.size (cc5_transform_7 i) (hinb5_7 i)).WholeWords (EltTy.packing .f32)

variable [Facts₀]

def gather_S100000x64_S100000x1_S100000x64_1_0_n_n_0_1_164 : GatherDims S100000x64 S100000x1 S100000x64 where
  offsetDims := [1]
  collapsedSliceDims := [0]
  operandBatchingDims := []
  startIndicesBatchingDims := []
  startIndexMap := [0]
  indexVectorDim := 1
  sliceSizes := ![1, 64]
  wf := gather_S100000x64_S100000x1_S100000x64_1_0_n_n_0_1_164_wf
def scatter_S50000_S2000000x1_S2000000_n_0_0_1 : ScatterDims S50000 S2000000x1 S2000000 where
  updateWindowDims := []
  insertedWindowDims := [0]
  scatterDimsToOperandDims := [0]
  indexVectorDim := 1
  wf := scatter_S50000_S2000000x1_S2000000_n_0_0_1_wf
def scatter_S100000_S2000000x1_S2000000_n_0_0_1 : ScatterDims S100000 S2000000x1 S2000000 where
  updateWindowDims := []
  insertedWindowDims := [0]
  scatterDimsToOperandDims := [0]
  indexVectorDim := 1
  wf := scatter_S100000_S2000000x1_S2000000_n_0_0_1_wf
def gather_S50000x64_S2000000x1_S2000000x64_1_0_n_n_0_1_164 : GatherDims S50000x64 S2000000x1 S2000000x64 where
  offsetDims := [1]
  collapsedSliceDims := [0]
  operandBatchingDims := []
  startIndicesBatchingDims := []
  startIndexMap := [0]
  indexVectorDim := 1
  sliceSizes := ![1, 64]
  wf := gather_S50000x64_S2000000x1_S2000000x64_1_0_n_n_0_1_164_wf
def scatter_S50000x64_S2000000x1_S2000000x64_1_0_0_1 : ScatterDims S50000x64 S2000000x1 S2000000x64 where
  updateWindowDims := [1]
  insertedWindowDims := [0]
  scatterDimsToOperandDims := [0]
  indexVectorDim := 1
  wf := scatter_S50000x64_S2000000x1_S2000000x64_1_0_0_1_wf
def dot_S4096x64_S64x64_S4096x64_1_0_0_1_n_n : DotDims S4096x64 S64x64 S4096x64 where
  lhsContracting := [1]
  rhsContracting := [0]
  lhsNonContracting := [0]
  rhsNonContracting := [1]
  lhsBatch := []
  rhsBatch := []
  wf := dot_S4096x64_S64x64_S4096x64_1_0_0_1_n_n_wf
def scatter_S100000x64_S2000000x1_S2000000x64_1_0_0_1 : ScatterDims S100000x64 S2000000x1 S2000000x64 where
  updateWindowDims := [1]
  insertedWindowDims := [0]
  scatterDimsToOperandDims := [0]
  indexVectorDim := 1
  wf := scatter_S100000x64_S2000000x1_S2000000x64_1_0_0_1_wf
def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def gather_S50000x64_S1000000x1_S1000000x64_1_0_n_n_0_1_164 : GatherDims S50000x64 S1000000x1 S1000000x64 where
  offsetDims := [1]
  collapsedSliceDims := [0]
  operandBatchingDims := []
  startIndicesBatchingDims := []
  startIndexMap := [0]
  indexVectorDim := 1
  sliceSizes := ![1, 64]
  wf := gather_S50000x64_S1000000x1_S1000000x64_1_0_n_n_0_1_164_wf
def dot_S8192x64_S64x64_S8192x64_1_0_0_1_n_n : DotDims S8192x64 S64x64 S8192x64 where
  lhsContracting := [1]
  rhsContracting := [0]
  lhsNonContracting := [0]
  rhsNonContracting := [1]
  lhsBatch := []
  rhsBatch := []
  wf := dot_S8192x64_S64x64_S8192x64_1_0_0_1_n_n_wf
def dot_S8192x64_S64x1_S8192x1_1_0_0_1_n_n : DotDims S8192x64 S64x1 S8192x1 where
  lhsContracting := [1]
  rhsContracting := [0]
  lhsNonContracting := [0]
  rhsNonContracting := [1]
  lhsBatch := []
  rhsBatch := []
  wf := dot_S8192x64_S64x1_S8192x1_1_0_0_1_n_n_wf

abbrev win0_0 : Pipeline.Window sig grid0 :=
  Pipeline.Window.ofSpec (Memref.whole main_v35) S4096x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v37) S4096x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v38) S4096x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v33) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v39) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v34) S64x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v40) S4096x64.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v58) S4096x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v60) S4096x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v61) S4096x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v56) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v62) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v57) S64x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v63) S4096x64.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v82) S4096x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v84) S4096x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v85) S4096x64.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v79) S64x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v86) S1x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v80) S64x64.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v81) S64x64.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v87) S1x64.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v88) S4096x64.size cc2_transform_8 reads2_8 true false 2 stage2_8 sem2_8
    hrank2 hreads2_8 hinb2_8 nbuf2_8 (Memref.isWhole_whole _) hwx2_8 hstage2_8

abbrev win2 : Fin 9 → Pipeline.Window sig grid2 := fun | 0 => win2_0 | 1 => win2_1 | 2 => win2_2 | 3 => win2_3 | 4 => win2_4 | 5 => win2_5 | 6 => win2_6 | 7 => win2_7 | 8 => win2_8 | ⟨_ + 9, h⟩ => absurd h (Nat.not_lt.2 (Nat.le_add_left _ _))
abbrev spec2 : Fin 9 → Pipeline.WinSpec sig grid2.rank := fun w => (win2 w).toWinSpec

abbrev win3_0 : Pipeline.Window sig grid3 :=
  Pipeline.Window.ofSpec (Memref.whole main_v92) S4096x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v94) S4096x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v95) S4096x64.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v90) S64x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v96) S1x64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v91) S64x64.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v97) S4096x64.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

abbrev win4_0 : Pipeline.Window sig grid4 :=
  Pipeline.Window.ofSpec (Memref.whole main_v116) S4096x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v118) S4096x1.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v119) S4096x64.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v113) S64x64.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v120) S1x64.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v114) S64x64.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v115) S64x64.size cc4_transform_6 reads4_6 false true 1 stage4_6 sem4_6
    hrank4 hreads4_6 hinb4_6 nbuf4_6 (Memref.isWhole_whole _) hwx4_6 hstage4_6

abbrev win4_7 : Pipeline.Window sig grid4 :=
  Pipeline.Window.ofSpec (Memref.whole main_v121) S1x64.size cc4_transform_7 reads4_7 false true 1 stage4_7 sem4_7
    hrank4 hreads4_7 hinb4_7 nbuf4_7 (Memref.isWhole_whole _) hwx4_7 hstage4_7

abbrev win4_8 : Pipeline.Window sig grid4 :=
  Pipeline.Window.ofSpec (Memref.whole main_v122) S4096x64.size cc4_transform_8 reads4_8 true false 2 stage4_8 sem4_8
    hrank4 hreads4_8 hinb4_8 nbuf4_8 (Memref.isWhole_whole _) hwx4_8 hstage4_8

abbrev win4 : Fin 9 → Pipeline.Window sig grid4 := fun | 0 => win4_0 | 1 => win4_1 | 2 => win4_2 | 3 => win4_3 | 4 => win4_4 | 5 => win4_5 | 6 => win4_6 | 7 => win4_7 | 8 => win4_8 | ⟨_ + 9, h⟩ => absurd h (Nat.not_lt.2 (Nat.le_add_left _ _))
abbrev spec4 : Fin 9 → Pipeline.WinSpec sig grid4.rank := fun w => (win4 w).toWinSpec

abbrev win5_0 : Pipeline.Window sig grid5 :=
  Pipeline.Window.ofSpec (Memref.whole main_v147) S8192x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v148) S8192x64.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v144) S64x64.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v145) S64x64.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v149) S1x64.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v146) S64x1.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v150) S1x1.size cc5_transform_6 reads5_6 false true 1 stage5_6 sem5_6
    hrank5 hreads5_6 hinb5_6 nbuf5_6 (Memref.isWhole_whole _) hwx5_6 hstage5_6

abbrev win5_7 : Pipeline.Window sig grid5 :=
  Pipeline.Window.ofSpec (Memref.whole main_v151) S8192x1.size cc5_transform_7 reads5_7 true false 2 stage5_7 sem5_7
    hrank5 hreads5_7 hinb5_7 nbuf5_7 (Memref.isWhole_whole _) hwx5_7 hstage5_7

abbrev win5 : Fin 8 → Pipeline.Window sig grid5 := fun | 0 => win5_0 | 1 => win5_1 | 2 => win5_2 | 3 => win5_3 | 4 => win5_4 | 5 => win5_5 | 6 => win5_6 | 7 => win5_7 | ⟨_ + 8, h⟩ => absurd h (Nat.not_lt.2 (Nat.le_add_left _ _))
abbrev spec5 : Fin 8 → Pipeline.WinSpec sig grid5.rank := fun w => (win5 w).toWinSpec

class Facts : Prop extends Facts₀ where

variable [Facts]
-- ==== ReferenceIdeal.lean ====
abbrev S50000x64 : Shape := ⟨2, ![50000, 64]⟩
abbrev S100000 : Shape := ⟨1, ![100000]⟩
abbrev S2x2000000 : Shape := ⟨2, ![2, 2000000]⟩
abbrev S2x1000000 : Shape := ⟨2, ![2, 1000000]⟩
abbrev S100000x64 : Shape := ⟨2, ![100000, 64]⟩
abbrev S64x64 : Shape := ⟨2, ![64, 64]⟩
abbrev S64 : Shape := ⟨1, ![64]⟩
abbrev S64x128 : Shape := ⟨2, ![64, 128]⟩
abbrev S1x64 : Shape := ⟨2, ![1, 64]⟩
abbrev S1 : Shape := ⟨1, ![1]⟩
abbrev S_ : Shape := ⟨0, ![]⟩
abbrev S100000x1 : Shape := ⟨2, ![100000, 1]⟩
abbrev S1x2000000 : Shape := ⟨2, ![1, 2000000]⟩
abbrev S2000000 : Shape := ⟨1, ![2000000]⟩
abbrev S2000000x1 : Shape := ⟨2, ![2000000, 1]⟩
abbrev S2000000x64 : Shape := ⟨2, ![2000000, 64]⟩
abbrev S50000 : Shape := ⟨1, ![50000]⟩
abbrev S50000x1 : Shape := ⟨2, ![50000, 1]⟩
abbrev S1x1000000 : Shape := ⟨2, ![1, 1000000]⟩
abbrev S1000000 : Shape := ⟨1, ![1000000]⟩
abbrev S1000000x1 : Shape := ⟨2, ![1000000, 1]⟩
abbrev S1000000x64 : Shape := ⟨2, ![1000000, 64]⟩
abbrev S1000000x128 : Shape := ⟨2, ![1000000, 128]⟩
abbrev S128x64 : Shape := ⟨2, ![128, 64]⟩
abbrev S64x1 : Shape := ⟨2, ![64, 1]⟩
abbrev S1x1 : Shape := ⟨2, ![1, 1]⟩

abbrev nBuf : Space → Nat
  | .hbm => 285
  | .vmem => 0
  | .smem => 0
  | _ => 0

abbrev hbmTy0_0 (i : Nat) : BufTy := match i % 128 with
  | 0 => ⟨S50000x64, .f32⟩
  | 1 => ⟨S100000, .i32⟩
  | 2 => ⟨S2x2000000, .i32⟩
  | 3 => ⟨S2x2000000, .i32⟩
  | 4 => ⟨S2x1000000, .i32⟩
  | 5 => ⟨S100000x64, .f32⟩
  | 6 => ⟨S64x64, .f32⟩
  | 7 => ⟨S64, .f32⟩
  | 8 => ⟨S64x64, .f32⟩
  | 9 => ⟨S64x64, .f32⟩
  | 10 => ⟨S64, .f32⟩
  | 11 => ⟨S64x64, .f32⟩
  | 12 => ⟨S64x64, .f32⟩
  | 13 => ⟨S64, .f32⟩
  | 14 => ⟨S64x64, .f32⟩
  | 15 => ⟨S64x64, .f32⟩
  | 16 => ⟨S64, .f32⟩
  | 17 => ⟨S64x64, .f32⟩
  | 18 => ⟨S64, .f32⟩
  | 19 => ⟨S64x64, .f32⟩
  | 20 => ⟨S64x64, .f32⟩
  | 21 => ⟨S64, .f32⟩
  | 22 => ⟨S64x64, .f32⟩
  | 23 => ⟨S64x64, .f32⟩
  | 24 => ⟨S64, .f32⟩
  | 25 => ⟨S64x128, .f32⟩
  | 26 => ⟨S64, .f32⟩
  | 27 => ⟨S1x64, .f32⟩
  | 28 => ⟨S1, .f32⟩
  | 29 => ⟨S_, .i32⟩
  | 30 => ⟨S100000, .i32⟩
  | 31 => ⟨S100000, .i1⟩
  | 32 => ⟨S_, .i32⟩
  | 33 => ⟨S100000, .i32⟩
  | 34 => ⟨S100000, .i32⟩
  | 35 => ⟨S100000, .i32⟩
  | 36 => ⟨S100000x1, .i32⟩
  | 37 => ⟨S100000x64, .f32⟩
  | 38 => ⟨S1x2000000, .i32⟩
  | 39 => ⟨S2000000, .i32⟩
  | 40 => ⟨S1x2000000, .i32⟩
  | 41 => ⟨S2000000, .i32⟩
  | 42 => ⟨S_, .i32⟩
  | 43 => ⟨S2000000, .i32⟩
  | 44 => ⟨S2000000, .i1⟩
  | 45 => ⟨S_, .i32⟩
  | 46 => ⟨S2000000, .i32⟩
  | 47 => ⟨S2000000, .i32⟩
  | 48 => ⟨S2000000, .i32⟩
  | 49 => ⟨S2000000x1, .i32⟩
  | 50 => ⟨S2000000x64, .f32⟩
  | 51 => ⟨S_, .f32⟩
  | 52 => ⟨S50000x64, .f32⟩
  | 53 => ⟨S2000000x1, .i32⟩
  | 54 => ⟨S50000x64, .f32⟩
  | 55 => ⟨S_, .f32⟩
  | 56 => ⟨S2000000, .f32⟩
  | 57 => ⟨S_, .f32⟩
  | 58 => ⟨S50000, .f32⟩
  | 59 => ⟨S2000000x1, .i32⟩
  | 60 => ⟨S50000, .f32⟩
  | 61 => ⟨S_, .f32⟩
  | 62 => ⟨S50000, .f32⟩
  | 63 => ⟨S50000, .f32⟩
  | 64 => ⟨S50000x1, .f32⟩
  | 65 => ⟨S50000x64, .f32⟩
  | 66 => ⟨S50000x64, .f32⟩
  | 67 => ⟨S64x64, .f32⟩
  | 68 => ⟨S50000x64, .f32⟩
  | 69 => ⟨S1x64, .f32⟩
  | 70 => ⟨S50000x64, .f32⟩
  | 71 => ⟨S50000x64, .f32⟩
  | 72 => ⟨S64x64, .f32⟩
  | 73 => ⟨S50000x64, .f32⟩
  | 74 => ⟨S50000x64, .f32⟩
  | 75 => ⟨S_, .f32⟩
  | 76 => ⟨S50000x64, .f32⟩
  | 77 => ⟨S50000x64, .f32⟩
  | 78 => ⟨S1x2000000, .i32⟩
  | 79 => ⟨S2000000, .i32⟩
  | 80 => ⟨S1x2000000, .i32⟩
  | 81 => ⟨S2000000, .i32⟩
  | 82 => ⟨S_, .i32⟩
  | 83 => ⟨S2000000, .i32⟩
  | 84 => ⟨S2000000, .i1⟩
  | 85 => ⟨S_, .i32⟩
  | 86 => ⟨S2000000, .i32⟩
  | 87 => ⟨S2000000, .i32⟩
  | 88 => ⟨S2000000, .i32⟩
  | 89 => ⟨S2000000x1, .i32⟩
  | 90 => ⟨S2000000x64, .f32⟩
  | 91 => ⟨S_, .f32⟩
  | 92 => ⟨S100000x64, .f32⟩
  | 93 => ⟨S2000000x1, .i32⟩
  | 94 => ⟨S100000x64, .f32⟩
  | 95 => ⟨S_, .f32⟩
  | 96 => ⟨S2000000, .f32⟩
  | 97 => ⟨S_, .f32⟩
  | 98 => ⟨S100000, .f32⟩
  | 99 => ⟨S2000000x1, .i32⟩
  | 100 => ⟨S100000, .f32⟩
  | 101 => ⟨S_, .f32⟩
  | 102 => ⟨S100000, .f32⟩
  | 103 => ⟨S100000, .f32⟩
  | 104 => ⟨S100000x1, .f32⟩
  | 105 => ⟨S100000x64, .f32⟩
  | 106 => ⟨S100000x64, .f32⟩
  | 107 => ⟨S64x64, .f32⟩
  | 108 => ⟨S100000x64, .f32⟩
  | 109 => ⟨S1x64, .f32⟩
  | 110 => ⟨S100000x64, .f32⟩
  | 111 => ⟨S100000x64, .f32⟩
  | 112 => ⟨S64x64, .f32⟩
  | 113 => ⟨S100000x64, .f32⟩
  | 114 => ⟨S100000x64, .f32⟩
  | 115 => ⟨S_, .f32⟩
  | 116 => ⟨S100000x64, .f32⟩
  | 117 => ⟨S100000x64, .f32⟩
  | 118 => ⟨S1x2000000, .i32⟩
  | 119 => ⟨S2000000, .i32⟩
  | 120 => ⟨S1x2000000, .i32⟩
  | 121 => ⟨S2000000, .i32⟩
  | 122 => ⟨S_, .i32⟩
  | 123 => ⟨S2000000, .i32⟩
  | 124 => ⟨S2000000, .i1⟩
  | 125 => ⟨S_, .i32⟩
  | 126 => ⟨S2000000, .i32⟩
  | 127 => ⟨S2000000, .i32⟩
  | _ => ⟨S50000x64, .f32⟩

abbrev hbmTy0_1 (i : Nat) : BufTy := match i % 128 with
  | 0 => ⟨S2000000, .i32⟩
  | 1 => ⟨S2000000x1, .i32⟩
  | 2 => ⟨S2000000x64, .f32⟩
  | 3 => ⟨S_, .f32⟩
  | 4 => ⟨S100000x64, .f32⟩
  | 5 => ⟨S2000000x1, .i32⟩
  | 6 => ⟨S100000x64, .f32⟩
  | 7 => ⟨S_, .f32⟩
  | 8 => ⟨S2000000, .f32⟩
  | 9 => ⟨S_, .f32⟩
  | 10 => ⟨S100000, .f32⟩
  | 11 => ⟨S2000000x1, .i32⟩
  | 12 => ⟨S100000, .f32⟩
  | 13 => ⟨S_, .f32⟩
  | 14 => ⟨S100000, .f32⟩
  | 15 => ⟨S100000, .f32⟩
  | 16 => ⟨S100000x1, .f32⟩
  | 17 => ⟨S100000x64, .f32⟩
  | 18 => ⟨S100000x64, .f32⟩
  | 19 => ⟨S64x64, .f32⟩
  | 20 => ⟨S100000x64, .f32⟩
  | 21 => ⟨S1x64, .f32⟩
  | 22 => ⟨S100000x64, .f32⟩
  | 23 => ⟨S100000x64, .f32⟩
  | 24 => ⟨S64x64, .f32⟩
  | 25 => ⟨S100000x64, .f32⟩
  | 26 => ⟨S100000x64, .f32⟩
  | 27 => ⟨S_, .f32⟩
  | 28 => ⟨S100000x64, .f32⟩
  | 29 => ⟨S100000x64, .f32⟩
  | 30 => ⟨S64x64, .f32⟩
  | 31 => ⟨S100000x64, .f32⟩
  | 32 => ⟨S1x64, .f32⟩
  | 33 => ⟨S100000x64, .f32⟩
  | 34 => ⟨S100000x64, .f32⟩
  | 35 => ⟨S1x2000000, .i32⟩
  | 36 => ⟨S2000000, .i32⟩
  | 37 => ⟨S1x2000000, .i32⟩
  | 38 => ⟨S2000000, .i32⟩
  | 39 => ⟨S_, .i32⟩
  | 40 => ⟨S2000000, .i32⟩
  | 41 => ⟨S2000000, .i1⟩
  | 42 => ⟨S_, .i32⟩
  | 43 => ⟨S2000000, .i32⟩
  | 44 => ⟨S2000000, .i32⟩
  | 45 => ⟨S2000000, .i32⟩
  | 46 => ⟨S2000000x1, .i32⟩
  | 47 => ⟨S2000000x64, .f32⟩
  | 48 => ⟨S_, .f32⟩
  | 49 => ⟨S50000x64, .f32⟩
  | 50 => ⟨S2000000x1, .i32⟩
  | 51 => ⟨S50000x64, .f32⟩
  | 52 => ⟨S_, .f32⟩
  | 53 => ⟨S2000000, .f32⟩
  | 54 => ⟨S_, .f32⟩
  | 55 => ⟨S50000, .f32⟩
  | 56 => ⟨S2000000x1, .i32⟩
  | 57 => ⟨S50000, .f32⟩
  | 58 => ⟨S_, .f32⟩
  | 59 => ⟨S50000, .f32⟩
  | 60 => ⟨S50000, .f32⟩
  | 61 => ⟨S50000x1, .f32⟩
  | 62 => ⟨S50000x64, .f32⟩
  | 63 => ⟨S50000x64, .f32⟩
  | 64 => ⟨S64x64, .f32⟩
  | 65 => ⟨S50000x64, .f32⟩
  | 66 => ⟨S1x64, .f32⟩
  | 67 => ⟨S50000x64, .f32⟩
  | 68 => ⟨S50000x64, .f32⟩
  | 69 => ⟨S64x64, .f32⟩
  | 70 => ⟨S50000x64, .f32⟩
  | 71 => ⟨S50000x64, .f32⟩
  | 72 => ⟨S_, .f32⟩
  | 73 => ⟨S50000x64, .f32⟩
  | 74 => ⟨S50000x64, .f32⟩
  | 75 => ⟨S1x2000000, .i32⟩
  | 76 => ⟨S2000000, .i32⟩
  | 77 => ⟨S1x2000000, .i32⟩
  | 78 => ⟨S2000000, .i32⟩
  | 79 => ⟨S_, .i32⟩
  | 80 => ⟨S2000000, .i32⟩
  | 81 => ⟨S2000000, .i1⟩
  | 82 => ⟨S_, .i32⟩
  | 83 => ⟨S2000000, .i32⟩
  | 84 => ⟨S2000000, .i32⟩
  | 85 => ⟨S2000000, .i32⟩
  | 86 => ⟨S2000000x1, .i32⟩
  | 87 => ⟨S2000000x64, .f32⟩
  | 88 => ⟨S_, .f32⟩
  | 89 => ⟨S50000x64, .f32⟩
  | 90 => ⟨S2000000x1, .i32⟩
  | 91 => ⟨S50000x64, .f32⟩
  | 92 => ⟨S_, .f32⟩
  | 93 => ⟨S2000000, .f32⟩
  | 94 => ⟨S_, .f32⟩
  | 95 => ⟨S50000, .f32⟩
  | 96 => ⟨S2000000x1, .i32⟩
  | 97 => ⟨S50000, .f32⟩
  | 98 => ⟨S_, .f32⟩
  | 99 => ⟨S50000, .f32⟩
  | 100 => ⟨S50000, .f32⟩
  | 101 => ⟨S50000x1, .f32⟩
  | 102 => ⟨S50000x64, .f32⟩
  | 103 => ⟨S50000x64, .f32⟩
  | 104 => ⟨S64x64, .f32⟩
  | 105 => ⟨S50000x64, .f32⟩
  | 106 => ⟨S1x64, .f32⟩
  | 107 => ⟨S50000x64, .f32⟩
  | 108 => ⟨S50000x64, .f32⟩
  | 109 => ⟨S64x64, .f32⟩
  | 110 => ⟨S50000x64, .f32⟩
  | 111 => ⟨S50000x64, .f32⟩
  | 112 => ⟨S_, .f32⟩
  | 113 => ⟨S50000x64, .f32⟩
  | 114 => ⟨S50000x64, .f32⟩
  | 115 => ⟨S64x64, .f32⟩
  | 116 => ⟨S50000x64, .f32⟩
  | 117 => ⟨S1x64, .f32⟩
  | 118 => ⟨S50000x64, .f32⟩
  | 119 => ⟨S50000x64, .f32⟩
  | 120 => ⟨S1x1000000, .i32⟩
  | 121 => ⟨S1000000, .i32⟩
  | 122 => ⟨S1x1000000, .i32⟩
  | 123 => ⟨S1000000, .i32⟩
  | 124 => ⟨S_, .i32⟩
  | 125 => ⟨S1000000, .i32⟩
  | 126 => ⟨S1000000, .i1⟩
  | 127 => ⟨S_, .i32⟩
  | _ => ⟨S50000x64, .f32⟩

abbrev hbmTy0_2 (i : Nat) : BufTy := match i % 128 with
  | 0 => ⟨S1000000, .i32⟩
  | 1 => ⟨S1000000, .i32⟩
  | 2 => ⟨S1000000, .i32⟩
  | 3 => ⟨S1000000x1, .i32⟩
  | 4 => ⟨S1000000x64, .f32⟩
  | 5 => ⟨S_, .i32⟩
  | 6 => ⟨S1000000, .i32⟩
  | 7 => ⟨S1000000, .i1⟩
  | 8 => ⟨S_, .i32⟩
  | 9 => ⟨S1000000, .i32⟩
  | 10 => ⟨S1000000, .i32⟩
  | 11 => ⟨S1000000, .i32⟩
  | 12 => ⟨S1000000x1, .i32⟩
  | 13 => ⟨S1000000x64, .f32⟩
  | 14 => ⟨S1000000x128, .f32⟩
  | 15 => ⟨S128x64, .f32⟩
  | 16 => ⟨S1000000x64, .f32⟩
  | 17 => ⟨S1x64, .f32⟩
  | 18 => ⟨S1000000x64, .f32⟩
  | 19 => ⟨S1000000x64, .f32⟩
  | 20 => ⟨S_, .f32⟩
  | 21 => ⟨S1000000x64, .f32⟩
  | 22 => ⟨S1000000x64, .f32⟩
  | 23 => ⟨S64x1, .f32⟩
  | 24 => ⟨S1000000x1, .f32⟩
  | 25 => ⟨S1x1, .f32⟩
  | 26 => ⟨S1000000x1, .f32⟩
  | 27 => ⟨S1000000x1, .f32⟩
  | 28 => ⟨S1000000, .f32⟩
  | _ => ⟨S50000x64, .f32⟩

abbrev hbmTy (i : Nat) : BufTy := match i / 128 with
  | 0 => hbmTy0_0 i
  | 1 => hbmTy0_1 i
  | 2 => hbmTy0_2 i
  | _ => ⟨S50000x64, .f32⟩

abbrev bufTy : (tb : Table) → Fin (tcTables nBuf tb) → BufTy
  | .hbm, ⟨i, _⟩ => hbmTy i
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_c : Ref sig .tc := ⟨.hbm, 29, rfl⟩
abbrev main_v0 : Ref sig .tc := ⟨.hbm, 30, rfl⟩
abbrev main_v1 : Ref sig .tc := ⟨.hbm, 31, rfl⟩
abbrev main_c_0 : Ref sig .tc := ⟨.hbm, 32, rfl⟩
abbrev main_v2 : Ref sig .tc := ⟨.hbm, 33, rfl⟩
abbrev main_v3 : Ref sig .tc := ⟨.hbm, 34, rfl⟩
abbrev main_v4 : Ref sig .tc := ⟨.hbm, 35, rfl⟩
abbrev main_v5 : Ref sig .tc := ⟨.hbm, 36, rfl⟩
abbrev main_v6 : Ref sig .tc := ⟨.hbm, 37, rfl⟩
abbrev main_v7 : Ref sig .tc := ⟨.hbm, 38, rfl⟩
abbrev main_v8 : Ref sig .tc := ⟨.hbm, 39, rfl⟩
abbrev main_v9 : Ref sig .tc := ⟨.hbm, 40, rfl⟩
abbrev main_v10 : Ref sig .tc := ⟨.hbm, 41, rfl⟩
abbrev main_c_1 : Ref sig .tc := ⟨.hbm, 42, rfl⟩
abbrev main_v11 : Ref sig .tc := ⟨.hbm, 43, rfl⟩
abbrev main_v12 : Ref sig .tc := ⟨.hbm, 44, rfl⟩
abbrev main_c_2 : Ref sig .tc := ⟨.hbm, 45, rfl⟩
abbrev main_v13 : Ref sig .tc := ⟨.hbm, 46, rfl⟩
abbrev main_v14 : Ref sig .tc := ⟨.hbm, 47, rfl⟩
abbrev main_v15 : Ref sig .tc := ⟨.hbm, 48, rfl⟩
abbrev main_v16 : Ref sig .tc := ⟨.hbm, 49, rfl⟩
abbrev main_v17 : Ref sig .tc := ⟨.hbm, 50, rfl⟩
abbrev main_cst : Ref sig .tc := ⟨.hbm, 51, rfl⟩
abbrev main_v18 : Ref sig .tc := ⟨.hbm, 52, rfl⟩
abbrev main_v19 : Ref sig .tc := ⟨.hbm, 53, rfl⟩
abbrev main_v20 : Ref sig .tc := ⟨.hbm, 54, rfl⟩
abbrev main_cst_3 : Ref sig .tc := ⟨.hbm, 55, rfl⟩
abbrev main_v21 : Ref sig .tc := ⟨.hbm, 56, rfl⟩
abbrev main_cst_4 : Ref sig .tc := ⟨.hbm, 57, rfl⟩
abbrev main_v22 : Ref sig .tc := ⟨.hbm, 58, rfl⟩
abbrev main_v23 : Ref sig .tc := ⟨.hbm, 59, rfl⟩
abbrev main_v24 : Ref sig .tc := ⟨.hbm, 60, rfl⟩
abbrev main_cst_5 : Ref sig .tc := ⟨.hbm, 61, rfl⟩
abbrev main_v25 : Ref sig .tc := ⟨.hbm, 62, rfl⟩
abbrev main_v26 : Ref sig .tc := ⟨.hbm, 63, rfl⟩
abbrev main_v27 : Ref sig .tc := ⟨.hbm, 64, rfl⟩
abbrev main_v28 : Ref sig .tc := ⟨.hbm, 65, rfl⟩
abbrev main_v29 : Ref sig .tc := ⟨.hbm, 66, rfl⟩
abbrev main_v30 : Ref sig .tc := ⟨.hbm, 67, rfl⟩
abbrev main_v31 : Ref sig .tc := ⟨.hbm, 68, rfl⟩
abbrev main_v32 : Ref sig .tc := ⟨.hbm, 69, rfl⟩
abbrev main_v33 : Ref sig .tc := ⟨.hbm, 70, rfl⟩
abbrev main_v34 : Ref sig .tc := ⟨.hbm, 71, rfl⟩
abbrev main_v35 : Ref sig .tc := ⟨.hbm, 72, rfl⟩
abbrev main_v36 : Ref sig .tc := ⟨.hbm, 73, rfl⟩
abbrev main_v37 : Ref sig .tc := ⟨.hbm, 74, rfl⟩
abbrev main_call0_cst : Ref sig .tc := ⟨.hbm, 75, rfl⟩
abbrev main_call0_v0 : Ref sig .tc := ⟨.hbm, 76, rfl⟩
abbrev main_v38 : Ref sig .tc := ⟨.hbm, 77, rfl⟩
abbrev main_v39 : Ref sig .tc := ⟨.hbm, 78, rfl⟩
abbrev main_v40 : Ref sig .tc := ⟨.hbm, 79, rfl⟩
abbrev main_v41 : Ref sig .tc := ⟨.hbm, 80, rfl⟩
abbrev main_v42 : Ref sig .tc := ⟨.hbm, 81, rfl⟩
abbrev main_c_6 : Ref sig .tc := ⟨.hbm, 82, rfl⟩
abbrev main_v43 : Ref sig .tc := ⟨.hbm, 83, rfl⟩
abbrev main_v44 : Ref sig .tc := ⟨.hbm, 84, rfl⟩
abbrev main_c_7 : Ref sig .tc := ⟨.hbm, 85, rfl⟩
abbrev main_v45 : Ref sig .tc := ⟨.hbm, 86, rfl⟩
abbrev main_v46 : Ref sig .tc := ⟨.hbm, 87, rfl⟩
abbrev main_v47 : Ref sig .tc := ⟨.hbm, 88, rfl⟩
abbrev main_v48 : Ref sig .tc := ⟨.hbm, 89, rfl⟩
abbrev main_v49 : Ref sig .tc := ⟨.hbm, 90, rfl⟩
abbrev main_cst_8 : Ref sig .tc := ⟨.hbm, 91, rfl⟩
abbrev main_v50 : Ref sig .tc := ⟨.hbm, 92, rfl⟩
abbrev main_v51 : Ref sig .tc := ⟨.hbm, 93, rfl⟩
abbrev main_v52 : Ref sig .tc := ⟨.hbm, 94, rfl⟩
abbrev main_cst_9 : Ref sig .tc := ⟨.hbm, 95, rfl⟩
abbrev main_v53 : Ref sig .tc := ⟨.hbm, 96, rfl⟩
abbrev main_cst_10 : Ref sig .tc := ⟨.hbm, 97, rfl⟩
abbrev main_v54 : Ref sig .tc := ⟨.hbm, 98, rfl⟩
abbrev main_v55 : Ref sig .tc := ⟨.hbm, 99, rfl⟩
abbrev main_v56 : Ref sig .tc := ⟨.hbm, 100, rfl⟩
abbrev main_cst_11 : Ref sig .tc := ⟨.hbm, 101, rfl⟩
abbrev main_v57 : Ref sig .tc := ⟨.hbm, 102, rfl⟩
abbrev main_v58 : Ref sig .tc := ⟨.hbm, 103, rfl⟩
abbrev main_v59 : Ref sig .tc := ⟨.hbm, 104, rfl⟩
abbrev main_v60 : Ref sig .tc := ⟨.hbm, 105, rfl⟩
abbrev main_v61 : Ref sig .tc := ⟨.hbm, 106, rfl⟩
abbrev main_v62 : Ref sig .tc := ⟨.hbm, 107, rfl⟩
abbrev main_v63 : Ref sig .tc := ⟨.hbm, 108, rfl⟩
abbrev main_v64 : Ref sig .tc := ⟨.hbm, 109, rfl⟩
abbrev main_v65 : Ref sig .tc := ⟨.hbm, 110, rfl⟩
abbrev main_v66 : Ref sig .tc := ⟨.hbm, 111, rfl⟩
abbrev main_v67 : Ref sig .tc := ⟨.hbm, 112, rfl⟩
abbrev main_v68 : Ref sig .tc := ⟨.hbm, 113, rfl⟩
abbrev main_v69 : Ref sig .tc := ⟨.hbm, 114, rfl⟩
abbrev main_call1_cst : Ref sig .tc := ⟨.hbm, 115, rfl⟩
abbrev main_call1_v0 : Ref sig .tc := ⟨.hbm, 116, rfl⟩
abbrev main_v70 : Ref sig .tc := ⟨.hbm, 117, rfl⟩
abbrev main_v71 : Ref sig .tc := ⟨.hbm, 118, rfl⟩
abbrev main_v72 : Ref sig .tc := ⟨.hbm, 119, rfl⟩
abbrev main_v73 : Ref sig .tc := ⟨.hbm, 120, rfl⟩
abbrev main_v74 : Ref sig .tc := ⟨.hbm, 121, rfl⟩
abbrev main_c_12 : Ref sig .tc := ⟨.hbm, 122, rfl⟩
abbrev main_v75 : Ref sig .tc := ⟨.hbm, 123, rfl⟩
abbrev main_v76 : Ref sig .tc := ⟨.hbm, 124, rfl⟩
abbrev main_c_13 : Ref sig .tc := ⟨.hbm, 125, rfl⟩
abbrev main_v77 : Ref sig .tc := ⟨.hbm, 126, rfl⟩
abbrev main_v78 : Ref sig .tc := ⟨.hbm, 127, rfl⟩
abbrev main_v79 : Ref sig .tc := ⟨.hbm, 128, rfl⟩
abbrev main_v80 : Ref sig .tc := ⟨.hbm, 129, rfl⟩
abbrev main_v81 : Ref sig .tc := ⟨.hbm, 130, rfl⟩
abbrev main_cst_14 : Ref sig .tc := ⟨.hbm, 131, rfl⟩
abbrev main_v82 : Ref sig .tc := ⟨.hbm, 132, rfl⟩
abbrev main_v83 : Ref sig .tc := ⟨.hbm, 133, rfl⟩
abbrev main_v84 : Ref sig .tc := ⟨.hbm, 134, rfl⟩
abbrev main_cst_15 : Ref sig .tc := ⟨.hbm, 135, rfl⟩
abbrev main_v85 : Ref sig .tc := ⟨.hbm, 136, rfl⟩
abbrev main_cst_16 : Ref sig .tc := ⟨.hbm, 137, rfl⟩
abbrev main_v86 : Ref sig .tc := ⟨.hbm, 138, rfl⟩
abbrev main_v87 : Ref sig .tc := ⟨.hbm, 139, rfl⟩
abbrev main_v88 : Ref sig .tc := ⟨.hbm, 140, rfl⟩
abbrev main_cst_17 : Ref sig .tc := ⟨.hbm, 141, rfl⟩
abbrev main_v89 : Ref sig .tc := ⟨.hbm, 142, rfl⟩
abbrev main_v90 : Ref sig .tc := ⟨.hbm, 143, rfl⟩
abbrev main_v91 : Ref sig .tc := ⟨.hbm, 144, rfl⟩
abbrev main_v92 : Ref sig .tc := ⟨.hbm, 145, rfl⟩
abbrev main_v93 : Ref sig .tc := ⟨.hbm, 146, rfl⟩
abbrev main_v94 : Ref sig .tc := ⟨.hbm, 147, rfl⟩
abbrev main_v95 : Ref sig .tc := ⟨.hbm, 148, rfl⟩
abbrev main_v96 : Ref sig .tc := ⟨.hbm, 149, rfl⟩
abbrev main_v97 : Ref sig .tc := ⟨.hbm, 150, rfl⟩
abbrev main_v98 : Ref sig .tc := ⟨.hbm, 151, rfl⟩
abbrev main_v99 : Ref sig .tc := ⟨.hbm, 152, rfl⟩
abbrev main_v100 : Ref sig .tc := ⟨.hbm, 153, rfl⟩
abbrev main_v101 : Ref sig .tc := ⟨.hbm, 154, rfl⟩
abbrev main_call2_cst : Ref sig .tc := ⟨.hbm, 155, rfl⟩
abbrev main_call2_v0 : Ref sig .tc := ⟨.hbm, 156, rfl⟩
abbrev main_v102 : Ref sig .tc := ⟨.hbm, 157, rfl⟩
abbrev main_v103 : Ref sig .tc := ⟨.hbm, 158, rfl⟩
abbrev main_v104 : Ref sig .tc := ⟨.hbm, 159, rfl⟩
abbrev main_v105 : Ref sig .tc := ⟨.hbm, 160, rfl⟩
abbrev main_v106 : Ref sig .tc := ⟨.hbm, 161, rfl⟩
abbrev main_v107 : Ref sig .tc := ⟨.hbm, 162, rfl⟩
abbrev main_v108 : Ref sig .tc := ⟨.hbm, 163, rfl⟩
abbrev main_v109 : Ref sig .tc := ⟨.hbm, 164, rfl⟩
abbrev main_v110 : Ref sig .tc := ⟨.hbm, 165, rfl⟩
abbrev main_v111 : Ref sig .tc := ⟨.hbm, 166, rfl⟩
abbrev main_c_18 : Ref sig .tc := ⟨.hbm, 167, rfl⟩
abbrev main_v112 : Ref sig .tc := ⟨.hbm, 168, rfl⟩
abbrev main_v113 : Ref sig .tc := ⟨.hbm, 169, rfl⟩
abbrev main_c_19 : Ref sig .tc := ⟨.hbm, 170, rfl⟩
abbrev main_v114 : Ref sig .tc := ⟨.hbm, 171, rfl⟩
abbrev main_v115 : Ref sig .tc := ⟨.hbm, 172, rfl⟩
abbrev main_v116 : Ref sig .tc := ⟨.hbm, 173, rfl⟩
abbrev main_v117 : Ref sig .tc := ⟨.hbm, 174, rfl⟩
abbrev main_v118 : Ref sig .tc := ⟨.hbm, 175, rfl⟩
abbrev main_cst_20 : Ref sig .tc := ⟨.hbm, 176, rfl⟩
abbrev main_v119 : Ref sig .tc := ⟨.hbm, 177, rfl⟩
abbrev main_v120 : Ref sig .tc := ⟨.hbm, 178, rfl⟩
abbrev main_v121 : Ref sig .tc := ⟨.hbm, 179, rfl⟩
abbrev main_cst_21 : Ref sig .tc := ⟨.hbm, 180, rfl⟩
abbrev main_v122 : Ref sig .tc := ⟨.hbm, 181, rfl⟩
abbrev main_cst_22 : Ref sig .tc := ⟨.hbm, 182, rfl⟩
abbrev main_v123 : Ref sig .tc := ⟨.hbm, 183, rfl⟩
abbrev main_v124 : Ref sig .tc := ⟨.hbm, 184, rfl⟩
abbrev main_v125 : Ref sig .tc := ⟨.hbm, 185, rfl⟩
abbrev main_cst_23 : Ref sig .tc := ⟨.hbm, 186, rfl⟩
abbrev main_v126 : Ref sig .tc := ⟨.hbm, 187, rfl⟩
abbrev main_v127 : Ref sig .tc := ⟨.hbm, 188, rfl⟩
abbrev main_v128 : Ref sig .tc := ⟨.hbm, 189, rfl⟩
abbrev main_v129 : Ref sig .tc := ⟨.hbm, 190, rfl⟩
abbrev main_v130 : Ref sig .tc := ⟨.hbm, 191, rfl⟩
abbrev main_v131 : Ref sig .tc := ⟨.hbm, 192, rfl⟩
abbrev main_v132 : Ref sig .tc := ⟨.hbm, 193, rfl⟩
abbrev main_v133 : Ref sig .tc := ⟨.hbm, 194, rfl⟩
abbrev main_v134 : Ref sig .tc := ⟨.hbm, 195, rfl⟩
abbrev main_v135 : Ref sig .tc := ⟨.hbm, 196, rfl⟩
abbrev main_v136 : Ref sig .tc := ⟨.hbm, 197, rfl⟩
abbrev main_v137 : Ref sig .tc := ⟨.hbm, 198, rfl⟩
abbrev main_v138 : Ref sig .tc := ⟨.hbm, 199, rfl⟩
abbrev main_call3_cst : Ref sig .tc := ⟨.hbm, 200, rfl⟩
abbrev main_call3_v0 : Ref sig .tc := ⟨.hbm, 201, rfl⟩
abbrev main_v139 : Ref sig .tc := ⟨.hbm, 202, rfl⟩
abbrev main_v140 : Ref sig .tc := ⟨.hbm, 203, rfl⟩
abbrev main_v141 : Ref sig .tc := ⟨.hbm, 204, rfl⟩
abbrev main_v142 : Ref sig .tc := ⟨.hbm, 205, rfl⟩
abbrev main_v143 : Ref sig .tc := ⟨.hbm, 206, rfl⟩
abbrev main_c_24 : Ref sig .tc := ⟨.hbm, 207, rfl⟩
abbrev main_v144 : Ref sig .tc := ⟨.hbm, 208, rfl⟩
abbrev main_v145 : Ref sig .tc := ⟨.hbm, 209, rfl⟩
abbrev main_c_25 : Ref sig .tc := ⟨.hbm, 210, rfl⟩
abbrev main_v146 : Ref sig .tc := ⟨.hbm, 211, rfl⟩
abbrev main_v147 : Ref sig .tc := ⟨.hbm, 212, rfl⟩
abbrev main_v148 : Ref sig .tc := ⟨.hbm, 213, rfl⟩
abbrev main_v149 : Ref sig .tc := ⟨.hbm, 214, rfl⟩
abbrev main_v150 : Ref sig .tc := ⟨.hbm, 215, rfl⟩
abbrev main_cst_26 : Ref sig .tc := ⟨.hbm, 216, rfl⟩
abbrev main_v151 : Ref sig .tc := ⟨.hbm, 217, rfl⟩
abbrev main_v152 : Ref sig .tc := ⟨.hbm, 218, rfl⟩
abbrev main_v153 : Ref sig .tc := ⟨.hbm, 219, rfl⟩
abbrev main_cst_27 : Ref sig .tc := ⟨.hbm, 220, rfl⟩
abbrev main_v154 : Ref sig .tc := ⟨.hbm, 221, rfl⟩
abbrev main_cst_28 : Ref sig .tc := ⟨.hbm, 222, rfl⟩
abbrev main_v155 : Ref sig .tc := ⟨.hbm, 223, rfl⟩
abbrev main_v156 : Ref sig .tc := ⟨.hbm, 224, rfl⟩
abbrev main_v157 : Ref sig .tc := ⟨.hbm, 225, rfl⟩
abbrev main_cst_29 : Ref sig .tc := ⟨.hbm, 226, rfl⟩
abbrev main_v158 : Ref sig .tc := ⟨.hbm, 227, rfl⟩
abbrev main_v159 : Ref sig .tc := ⟨.hbm, 228, rfl⟩
abbrev main_v160 : Ref sig .tc := ⟨.hbm, 229, rfl⟩
abbrev main_v161 : Ref sig .tc := ⟨.hbm, 230, rfl⟩
abbrev main_v162 : Ref sig .tc := ⟨.hbm, 231, rfl⟩
abbrev main_v163 : Ref sig .tc := ⟨.hbm, 232, rfl⟩
abbrev main_v164 : Ref sig .tc := ⟨.hbm, 233, rfl⟩
abbrev main_v165 : Ref sig .tc := ⟨.hbm, 234, rfl⟩
abbrev main_v166 : Ref sig .tc := ⟨.hbm, 235, rfl⟩
abbrev main_v167 : Ref sig .tc := ⟨.hbm, 236, rfl⟩
abbrev main_v168 : Ref sig .tc := ⟨.hbm, 237, rfl⟩
abbrev main_v169 : Ref sig .tc := ⟨.hbm, 238, rfl⟩
abbrev main_v170 : Ref sig .tc := ⟨.hbm, 239, rfl⟩
abbrev main_call4_cst : Ref sig .tc := ⟨.hbm, 240, rfl⟩
abbrev main_call4_v0 : Ref sig .tc := ⟨.hbm, 241, rfl⟩
abbrev main_v171 : Ref sig .tc := ⟨.hbm, 242, rfl⟩
abbrev main_v172 : Ref sig .tc := ⟨.hbm, 243, rfl⟩
abbrev main_v173 : Ref sig .tc := ⟨.hbm, 244, rfl⟩
abbrev main_v174 : Ref sig .tc := ⟨.hbm, 245, rfl⟩
abbrev main_v175 : Ref sig .tc := ⟨.hbm, 246, rfl⟩
abbrev main_v176 : Ref sig .tc := ⟨.hbm, 247, rfl⟩
abbrev main_v177 : Ref sig .tc := ⟨.hbm, 248, rfl⟩
abbrev main_v178 : Ref sig .tc := ⟨.hbm, 249, rfl⟩
abbrev main_v179 : Ref sig .tc := ⟨.hbm, 250, rfl⟩
abbrev main_v180 : Ref sig .tc := ⟨.hbm, 251, rfl⟩
abbrev main_c_30 : Ref sig .tc := ⟨.hbm, 252, rfl⟩
abbrev main_v181 : Ref sig .tc := ⟨.hbm, 253, rfl⟩
abbrev main_v182 : Ref sig .tc := ⟨.hbm, 254, rfl⟩
abbrev main_c_31 : Ref sig .tc := ⟨.hbm, 255, rfl⟩
abbrev main_v183 : Ref sig .tc := ⟨.hbm, 256, rfl⟩
abbrev main_v184 : Ref sig .tc := ⟨.hbm, 257, rfl⟩
abbrev main_v185 : Ref sig .tc := ⟨.hbm, 258, rfl⟩
abbrev main_v186 : Ref sig .tc := ⟨.hbm, 259, rfl⟩
abbrev main_v187 : Ref sig .tc := ⟨.hbm, 260, rfl⟩
abbrev main_c_32 : Ref sig .tc := ⟨.hbm, 261, rfl⟩
abbrev main_v188 : Ref sig .tc := ⟨.hbm, 262, rfl⟩
abbrev main_v189 : Ref sig .tc := ⟨.hbm, 263, rfl⟩
abbrev main_c_33 : Ref sig .tc := ⟨.hbm, 264, rfl⟩
abbrev main_v190 : Ref sig .tc := ⟨.hbm, 265, rfl⟩
abbrev main_v191 : Ref sig .tc := ⟨.hbm, 266, rfl⟩
abbrev main_v192 : Ref sig .tc := ⟨.hbm, 267, rfl⟩
abbrev main_v193 : Ref sig .tc := ⟨.hbm, 268, rfl⟩
abbrev main_v194 : Ref sig .tc := ⟨.hbm, 269, rfl⟩
abbrev main_v195 : Ref sig .tc := ⟨.hbm, 270, rfl⟩
abbrev main_v196 : Ref sig .tc := ⟨.hbm, 271, rfl⟩
abbrev main_v197 : Ref sig .tc := ⟨.hbm, 272, rfl⟩
abbrev main_v198 : Ref sig .tc := ⟨.hbm, 273, rfl⟩
abbrev main_v199 : Ref sig .tc := ⟨.hbm, 274, rfl⟩
abbrev main_v200 : Ref sig .tc := ⟨.hbm, 275, rfl⟩
abbrev main_call5_cst : Ref sig .tc := ⟨.hbm, 276, rfl⟩
abbrev main_call5_v0 : Ref sig .tc := ⟨.hbm, 277, rfl⟩
abbrev main_v201 : Ref sig .tc := ⟨.hbm, 278, rfl⟩
abbrev main_v202 : Ref sig .tc := ⟨.hbm, 279, rfl⟩
abbrev main_v203 : Ref sig .tc := ⟨.hbm, 280, rfl⟩
abbrev main_v204 : Ref sig .tc := ⟨.hbm, 281, rfl⟩
abbrev main_v205 : Ref sig .tc := ⟨.hbm, 282, rfl⟩
abbrev main_v206 : Ref sig .tc := ⟨.hbm, 283, rfl⟩
abbrev main_v207 : Ref sig .tc := ⟨.hbm, 284, rfl⟩

abbrev nD : Nat := 1
abbrev τ : Topo := Topo.v7x

variable {F : FTy → Type} [FloatOps F]

class Facts₀ : Prop where
  bcast_S_S100000 : S_.BroadcastsInDim S100000 (![] : Fin 0 → Fin S100000.rank)
  bcast_S100000_S100000x1_0 : S100000.BroadcastsInDim S100000x1 (![0] : Fin 1 → Fin S100000x1.rank)
  slices_S2x2000000_S1x2000000_0_0 : S2x2000000.Slices ![0, 0] S1x2000000
  shapeCasts_S1x2000000_S2000000 : S1x2000000.ShapeCasts S2000000
  slices_S2x2000000_S1x2000000_1_0 : S2x2000000.Slices ![1, 0] S1x2000000
  bcast_S_S2000000 : S_.BroadcastsInDim S2000000 (![] : Fin 0 → Fin S2000000.rank)
  bcast_S2000000_S2000000x1_0 : S2000000.BroadcastsInDim S2000000x1 (![0] : Fin 1 → Fin S2000000x1.rank)
  bcast_S_S50000x64 : S_.BroadcastsInDim S50000x64 (![] : Fin 0 → Fin S50000x64.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x64_0_1 : S50000x1.BroadcastsInDim S50000x64 (![0, 1] : Fin 2 → Fin S50000x64.rank)
  transposes_S64x64_S64x64_1_0 : S64x64.Transposes [1, 0] S64x64
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  bcast_S1x64_S100000x64_0_1 : S1x64.BroadcastsInDim S100000x64 (![0, 1] : Fin 2 → Fin S100000x64.rank)
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  bcast_S_S1000000 : S_.BroadcastsInDim S1000000 (![] : Fin 0 → Fin S1000000.rank)
  bcast_S1000000_S1000000x1_0 : S1000000.BroadcastsInDim S1000000x1 (![0] : Fin 1 → Fin S1000000x1.rank)
  concatenates_S1000000x64_S1000000x64_S1000000x128_d1 : Shape.Concatenates [S1000000x64, S1000000x64] S1000000x128 1
  transposes_S64x128_S128x64_1_0 : S64x128.Transposes [1, 0] S128x64
  bcast_S1x64_S1000000x64_0_1 : S1x64.BroadcastsInDim S1000000x64 (![0, 1] : Fin 2 → Fin S1000000x64.rank)
  bcast_S_S1000000x64 : S_.BroadcastsInDim S1000000x64 (![] : Fin 0 → Fin S1000000x64.rank)
  transposes_S1x64_S64x1_1_0 : S1x64.Transposes [1, 0] S64x1
  bcast_S1_S1x1_1 : S1.BroadcastsInDim S1x1 (![1] : Fin 1 → Fin S1x1.rank)
  bcast_S1x1_S1000000x1_0_1 : S1x1.BroadcastsInDim S1000000x1 (![0, 1] : Fin 2 → Fin S1000000x1.rank)
  shapeCasts_S1000000x1_S1000000 : S1000000x1.ShapeCasts S1000000
  gather_S100000x64_S100000x1_S100000x64_1_0_n_n_0_1_164_wf : GatherDims.WF S100000x64 S100000x1 S100000x64 [1] [0] [] [0] [] 1 ![1, 64]
  gather_S50000x64_S2000000x1_S2000000x64_1_0_n_n_0_1_164_wf : GatherDims.WF S50000x64 S2000000x1 S2000000x64 [1] [0] [] [0] [] 1 ![1, 64]
  scatter_S50000x64_S2000000x1_S2000000x64_1_0_0_1_wf : ScatterDims.WF S50000x64 S2000000x1 S2000000x64 [1] [0] [0] 1
  scatter_S50000_S2000000x1_S2000000_n_0_0_1_wf : ScatterDims.WF S50000 S2000000x1 S2000000 [] [0] [0] 1
  dot_S50000x64_S64x64_S50000x64_1_0_0_1_n_n_wf : DotDims.WF S50000x64 S64x64 S50000x64 [1] [0] [0] [1] [] []
  scatter_S100000x64_S2000000x1_S2000000x64_1_0_0_1_wf : ScatterDims.WF S100000x64 S2000000x1 S2000000x64 [1] [0] [0] 1
  scatter_S100000_S2000000x1_S2000000_n_0_0_1_wf : ScatterDims.WF S100000 S2000000x1 S2000000 [] [0] [0] 1
  dot_S100000x64_S64x64_S100000x64_1_0_0_1_n_n_wf : DotDims.WF S100000x64 S64x64 S100000x64 [1] [0] [0] [1] [] []
  gather_S100000x64_S1000000x1_S1000000x64_1_0_n_n_0_1_164_wf : GatherDims.WF S100000x64 S1000000x1 S1000000x64 [1] [0] [] [0] [] 1 ![1, 64]
  gather_S50000x64_S1000000x1_S1000000x64_1_0_n_n_0_1_164_wf : GatherDims.WF S50000x64 S1000000x1 S1000000x64 [1] [0] [] [0] [] 1 ![1, 64]
  dot_S1000000x128_S128x64_S1000000x64_1_0_0_1_n_n_wf : DotDims.WF S1000000x128 S128x64 S1000000x64 [1] [0] [0] [1] [] []
  dot_S1000000x64_S64x1_S1000000x1_1_0_0_1_n_n_wf : DotDims.WF S1000000x64 S64x1 S1000000x1 [1] [0] [0] [1] [] []

variable [Facts₀]

def gather_S100000x64_S100000x1_S100000x64_1_0_n_n_0_1_164 : GatherDims S100000x64 S100000x1 S100000x64 where
  offsetDims := [1]
  collapsedSliceDims := [0]
  operandBatchingDims := []
  startIndicesBatchingDims := []
  startIndexMap := [0]
  indexVectorDim := 1
  sliceSizes := ![1, 64]
  wf := gather_S100000x64_S100000x1_S100000x64_1_0_n_n_0_1_164_wf
def gather_S50000x64_S2000000x1_S2000000x64_1_0_n_n_0_1_164 : GatherDims S50000x64 S2000000x1 S2000000x64 where
  offsetDims := [1]
  collapsedSliceDims := [0]
  operandBatchingDims := []
  startIndicesBatchingDims := []
  startIndexMap := [0]
  indexVectorDim := 1
  sliceSizes := ![1, 64]
  wf := gather_S50000x64_S2000000x1_S2000000x64_1_0_n_n_0_1_164_wf
def scatter_S50000x64_S2000000x1_S2000000x64_1_0_0_1 : ScatterDims S50000x64 S2000000x1 S2000000x64 where
  updateWindowDims := [1]
  insertedWindowDims := [0]
  scatterDimsToOperandDims := [0]
  indexVectorDim := 1
  wf := scatter_S50000x64_S2000000x1_S2000000x64_1_0_0_1_wf
def scatter_S50000_S2000000x1_S2000000_n_0_0_1 : ScatterDims S50000 S2000000x1 S2000000 where
  updateWindowDims := []
  insertedWindowDims := [0]
  scatterDimsToOperandDims := [0]
  indexVectorDim := 1
  wf := scatter_S50000_S2000000x1_S2000000_n_0_0_1_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def scatter_S100000x64_S2000000x1_S2000000x64_1_0_0_1 : ScatterDims S100000x64 S2000000x1 S2000000x64 where
  updateWindowDims := [1]
  insertedWindowDims := [0]
  scatterDimsToOperandDims := [0]
  indexVectorDim := 1
  wf := scatter_S100000x64_S2000000x1_S2000000x64_1_0_0_1_wf
def scatter_S100000_S2000000x1_S2000000_n_0_0_1 : ScatterDims S100000 S2000000x1 S2000000 where
  updateWindowDims := []
  insertedWindowDims := [0]
  scatterDimsToOperandDims := [0]
  indexVectorDim := 1
  wf := scatter_S100000_S2000000x1_S2000000_n_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def gather_S50000x64_S1000000x1_S1000000x64_1_0_n_n_0_1_164 : GatherDims S50000x64 S1000000x1 S1000000x64 where
  offsetDims := [1]
  collapsedSliceDims := [0]
  operandBatchingDims := []
  startIndicesBatchingDims := []
  startIndexMap := [0]
  indexVectorDim := 1
  sliceSizes := ![1, 64]
  wf := gather_S50000x64_S1000000x1_S1000000x64_1_0_n_n_0_1_164_wf
def dot_S1000000x128_S128x64_S1000000x64_1_0_0_1_n_n : DotDims S1000000x128 S128x64 S1000000x64 where
  lhsContracting := [1]
  rhsContracting := [0]
  lhsNonContracting := [0]
  rhsNonContracting := [1]
  lhsBatch := []
  rhsBatch := []
  wf := dot_S1000000x128_S128x64_S1000000x64_1_0_0_1_n_n_wf
def dot_S1000000x64_S64x1_S1000000x1_1_0_0_1_n_n : DotDims S1000000x64 S64x1 S1000000x1 where
  lhsContracting := [1]
  rhsContracting := [0]
  lhsNonContracting := [0]
  rhsNonContracting := [1]
  lhsBatch := []
  rhsBatch := []
  wf := dot_S1000000x64_S64x1_S1000000x1_1_0_0_1_n_n_wf

class Facts : Prop extends Facts₀ where

variable [Facts]
-- ==== Proof.KernelRun.lean ====
/-
  The kernel program's run with its result read.

  @main is a chain of host operations and six pipelined regions.  Every weakly fair execution from a memory with zero
  counters terminates without a fault, and then every unscoped buffer of the device holds what the chain's fold of
  contents gives it: the arguments what they held at launch, and the result buffer the fold's last contents at that
  buffer.  This is the launch theorem for a chain of regions applied to the program's segments, with the result buffer
  kept in the post beside the arguments.
-/
import proofs.«169258_j68762426409614_2_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting; the result buffer ends at the last contents of
    the fold through the chain, and the argument arrays end as launched. -/
theorem run_result : θ_run defs (onTc (τ := τ) (main (F := F))) ⟨m, fun _ => 0, ρ⟩ (fun r => ∀ c : Dev nD,
      r.2.mem ((c.tc : Thread nD τ).loc main_v153) = W47 m ρ c (Proc.devRef .tc main_v153)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W47 m ρ c b)
    (hfin := fun c s' => by
      iintro ⟨⟨Hh, -⟩, HSI⟩
      unfold StableHlo.held
      imodintro
      iapply (pointsTo_read_all (Pipeline.ucRefs τ sig) (fun b => (((c : Thread nD τ)).1, b)) (W47 m ρ c) s')
      isplitl [Hh] <;> iassumption)
    (hQ := fun s h c =>
      ⟨h c _ (mem_uc main_v153 (by decide)),
       (h c _ (mem_uc main_arg0 (by decide))).trans (W47_main_arg0 m ρ c),
       (h c _ (mem_uc main_arg1 (by decide))).trans (W47_main_arg1 m ρ c),
       (h c _ (mem_uc main_arg2 (by decide))).trans (W47_main_arg2 m ρ c),
       (h c _ (mem_uc main_arg3 (by decide))).trans (W47_main_arg3 m ρ c),
       (h c _ (mem_uc main_arg4 (by decide))).trans (W47_main_arg4 m ρ c),
       (h c _ (mem_uc main_arg5 (by decide))).trans (W47_main_arg5 m ρ c),
       (h c _ (mem_uc main_arg6 (by decide))).trans (W47_main_arg6 m ρ c),
       (h c _ (mem_uc main_arg7 (by decide))).trans (W47_main_arg7 m ρ c),
       (h c _ (mem_uc main_arg8 (by decide))).trans (W47_main_arg8 m ρ c),
       (h c _ (mem_uc main_arg9 (by decide))).trans (W47_main_arg9 m ρ c),
       (h c _ (mem_uc main_arg10 (by decide))).trans (W47_main_arg10 m ρ c),
       (h c _ (mem_uc main_arg11 (by decide))).trans (W47_main_arg11 m ρ c),
       (h c _ (mem_uc main_arg12 (by decide))).trans (W47_main_arg12 m ρ c),
       (h c _ (mem_uc main_arg13 (by decide))).trans (W47_main_arg13 m ρ c),
       (h c _ (mem_uc main_arg14 (by decide))).trans (W47_main_arg14 m ρ c),
       (h c _ (mem_uc main_arg15 (by decide))).trans (W47_main_arg15 m ρ c),
       (h c _ (mem_uc main_arg16 (by decide))).trans (W47_main_arg16 m ρ c),
       (h c _ (mem_uc main_arg17 (by decide))).trans (W47_main_arg17 m ρ c),
       (h c _ (mem_uc main_arg18 (by decide))).trans (W47_main_arg18 m ρ c),
       (h c _ (mem_uc main_arg19 (by decide))).trans (W47_main_arg19 m ρ c),
       (h c _ (mem_uc main_arg20 (by decide))).trans (W47_main_arg20 m ρ c),
       (h c _ (mem_uc main_arg21 (by decide))).trans (W47_main_arg21 m ρ c),
       (h c _ (mem_uc main_arg22 (by decide))).trans (W47_main_arg22 m ρ c),
       (h c _ (mem_uc main_arg23 (by decide))).trans (W47_main_arg23 m ρ c),
       (h c _ (mem_uc main_arg24 (by decide))).trans (W47_main_arg24 m ρ c),
       (h c _ (mem_uc main_arg25 (by decide))).trans (W47_main_arg25 m ρ c),
       (h c _ (mem_uc main_arg26 (by decide))).trans (W47_main_arg26 m ρ c),
       (h c _ (mem_uc main_arg27 (by decide))).trans (W47_main_arg27 m ρ c),
       (h c _ (mem_uc main_arg28 (by decide))).trans (W47_main_arg28 m ρ c)⟩)

end Cert.KernelIdeal.Run

end
-- ==== Proof.LibDot.lean ====
/-
  A plain matrix product read at an entry.  For dimension numbers that contract the left operand's axis 1 with the right
  operand's axis 0 and have no batch axis, both the matrix unit's product into a zero accumulator and the host's
  dot_general are, at the ideal reading, the textbook sum Σ_i lhs (p, i) · rhs (i, q): the contraction index is its one
  coordinate, and the operand indices at (p, q) and i are (p, i) and (i, q).
-/
import Idealize.ShloMosaic.PureOps.Ideal.Laws
import Idealize.ShloMosaic.Lib.ValueIdx

noncomputable section

namespace Cert.LibDot

open Idealize.ShloMosaic Idealize.ShloMosaic.ValueIdx
open scoped BigOperators

variable {a k b : ℕ} (D : DotDims ⟨2, ![a, k]⟩ ⟨2, ![k, b]⟩ ⟨2, ![a, b]⟩) (hr : D.contr.rank = 1)
  (hs : D.contr.size ⟨0, by omega⟩ = k)
  (hl0 : ∀ j q, (D.lhsIdx j q 0).val = (j 0).val) (hl1 : ∀ j q, (D.lhsIdx j q 1).val = (q ⟨0, by omega⟩).val)
  (hr0 : ∀ j q, (D.rhsIdx j q 0).val = (q ⟨0, by omega⟩).val) (hr1 : ∀ j q, (D.rhsIdx j q 1).val = (j 1).val)

include hr hs hl0 hl1 hr0 hr1

/-- The sum over the contraction index is the sum over its one coordinate, the operands read at (p, i) and (i, q). -/
theorem sum_plain (lhs : (⟨2, ![a, k]⟩ : Shape).Idx → EReal) (rhs : (⟨2, ![k, b]⟩ : Shape).Idx → EReal) (p : Fin a) (q : Fin b) :
    (∑ c : D.contr.Idx, lhs (D.lhsIdx (ix2 p q) c) * rhs (D.rhsIdx (ix2 p q) c)) = ∑ i : Fin k, lhs (ix2 p i) * rhs (ix2 i q) := by
  rw [← Equiv.sum_comp (contrEquiv1 D k hr hs).symm]
  refine Finset.sum_congr rfl fun i _ => ?_
  have hk := contrEquiv1_symm_val D k hr hs i
  have el : D.lhsIdx (ix2 p q) ((contrEquiv1 D k hr hs).symm i) = ix2 p i := funext fun ax => Fin.ext (by
    match ax with
    | ⟨0, _⟩ => exact hl0 _ _
    | ⟨1, _⟩ => exact (hl1 _ _).trans hk)
  have er : D.rhsIdx (ix2 p q) ((contrEquiv1 D k hr hs).symm i) = ix2 i q := funext fun ax => Fin.ext (by
    match ax with
    | ⟨0, _⟩ => exact (hr0 _ _).trans hk
    | ⟨1, _⟩ => exact hr1 _ _)
  rw [el, er]

/-- The matrix unit's product into a zero accumulator, at entry (p, q). -/
theorem matmul_zero_apply {φ₁ φ₂ : FTy} (prec : Option ContractPrecision) (lhs : FVec Ideal ⟨2, ![a, k]⟩ φ₁)
    (rhs : FVec Ideal ⟨2, ![k, b]⟩ φ₂) (p : Fin a) (q : Fin b) :
    FloatOps.matmul D prec lhs rhs (constant ⟨2, ![a, b]⟩ .f32 0x00000000#32) (ix2 p q) = ∑ i : Fin k, lhs (ix2 p i) * rhs (ix2 i q) :=
  (Ideal.matmul_constant_zero_apply D prec lhs rhs (ix2 p q)).trans (sum_plain D hr hs hl0 hl1 hr0 hr1 lhs rhs p q)

/-- The host's dot_general, at entry (p, q). -/
theorem dotGeneral_apply {φ₁ φ₂ : FTy} (prec : Option ContractPrecision) (sched : HostSchedule) (lhs : FVec Ideal ⟨2, ![a, k]⟩ φ₁)
    (rhs : FVec Ideal ⟨2, ![k, b]⟩ φ₂) (p : Fin a) (q : Fin b) :
    FloatOps.dotGeneral D prec sched lhs rhs (ix2 p q) = ∑ i : Fin k, lhs (ix2 p i) * rhs (ix2 i q) :=
  (Ideal.dotGeneral_apply D prec sched lhs rhs (ix2 p q)).trans (sum_plain D hr hs hl0 hl1 hr0 hr1 lhs rhs p q)

end Cert.LibDot

end
-- ==== Proof.LibRowwise.lean ====
/-
  Row-wise readings of a matrix `[n, c]`, at an entry given by its two coordinates.

  A row vector `[c]` laid under every row of an `[n, c]` matrix (cast to `[1, c]`, then broadcast down the rows) reads, at
  `(p, j)`, its entry `j`; a column `[n]` laid beside every column (cast to `[n, 1]`, then broadcast along the rows) reads,
  at `(p, j)`, its entry `p`; column `o` of an `[n, b]` matrix cut out as `[n, 1]` and broadcast along the rows reads, at
  `(p, j)`, the entry `(p, o)`. The host's reduce of an `[a, b]` matrix over its second axis by a commutative,
  associative body is, at row `r`, the fold of the body from the initial value over the entries `(r, k)`; its float sum
  is the initial value plus the row's sum.
  Library imports only.
-/
import Idealize.ShloMosaic.Lib.ValueIdx
import Idealize.ShloMosaic.Lib.ValueLayout
import Idealize.ShloMosaic.Lib.Pipeline.Value
import Idealize.ShloMosaic.PureOps.Ideal.Laws

noncomputable section

namespace Cert.LibRowwise

open Idealize.ShloMosaic Idealize.ShloMosaic.ValueIdx
open scoped BigOperators

variable {α : Type}

/-- A `[c]` array cast to `[1, c]` and broadcast down `n` rows reads, at `(p, j)`, the operand at `j`. -/
theorem rowUnder_apply {n c : ℕ} (b : (⟨1, ![c]⟩ : Shape).Idx → α) (hc : (⟨1, ![c]⟩ : Shape).ShapeCasts ⟨2, ![1, c]⟩)
    (hb : (⟨2, ![1, c]⟩ : Shape).Broadcasts ⟨2, ![n, c]⟩) (p : Fin n) (j : Fin c) :
    broadcastTo ⟨2, ![n, c]⟩ (shapeCast ⟨2, ![1, c]⟩ b hc) hb (ix2 p j) = b (ix1 j) := by
  refine (broadcastTo_apply (shapeCast ⟨2, ![1, c]⟩ b hc) hb (ix2 p j) (ix2 (0 : Fin 1) j) fun ax => ?_).trans ?_
  · match ax with
    | ⟨0, _⟩ => rfl
    | ⟨1, _⟩ =>
      show j.val = if c = 1 then 0 else j.val
      split
      · have := j.isLt; omega
      · rfl
  · exact shapeCast_apply b hc _ _ (by
      rw [Shape.rowMajor_val_two, Shape.rowMajor_val_one]
      show j.val = 0 * c + j.val
      omega)

/-- An `[n]` array cast to `[n, 1]` and broadcast along `c` columns reads, at `(p, j)`, the operand at `p`. -/
theorem columnBeside_apply {n c : ℕ} (v : (⟨1, ![n]⟩ : Shape).Idx → α) (hc : (⟨1, ![n]⟩ : Shape).ShapeCasts ⟨2, ![n, 1]⟩)
    (hb : (⟨2, ![n, 1]⟩ : Shape).Broadcasts ⟨2, ![n, c]⟩) (p : Fin n) (j : Fin c) :
    broadcastTo ⟨2, ![n, c]⟩ (shapeCast ⟨2, ![n, 1]⟩ v hc) hb (ix2 p j) = v (ix1 p) := by
  refine (broadcastTo_apply (shapeCast ⟨2, ![n, 1]⟩ v hc) hb (ix2 p j) (ix2 p (0 : Fin 1)) fun ax => ?_).trans ?_
  · match ax with
    | ⟨0, _⟩ =>
      show p.val = if n = 1 then 0 else p.val
      split
      · have := p.isLt; omega
      · rfl
    | ⟨1, _⟩ => rfl
  · exact shapeCast_apply v hc _ _ (by
      rw [Shape.rowMajor_val_two, Shape.rowMajor_val_one]
      show p.val = p.val * 1 + 0
      omega)

/-- Column `o` of an `[n, b]` matrix, cut out as `[n, 1]` and broadcast along `c` columns, reads at `(p, j)` the entry
    `(p, o)`. -/
theorem columnOf_apply {n b c : ℕ} (g : (⟨2, ![n, b]⟩ : Shape).Idx → α) (o : ℕ) (ho : o < b)
    (hs : (⟨2, ![n, b]⟩ : Shape).Slices ![0, o] ⟨2, ![n, 1]⟩)
    (hb : (⟨2, ![n, 1]⟩ : Shape).Broadcasts ⟨2, ![n, c]⟩) (p : Fin n) (j : Fin c) :
    broadcastTo ⟨2, ![n, c]⟩ (extractStridedSlice ⟨2, ![n, 1]⟩ ![0, o] g hs) hb (ix2 p j) = g (ix2 p (⟨o, ho⟩ : Fin b)) := by
  refine (broadcastTo_apply (extractStridedSlice ⟨2, ![n, 1]⟩ ![0, o] g hs) hb (ix2 p j) (ix2 p (0 : Fin 1)) fun ax => ?_).trans ?_
  · match ax with
    | ⟨0, _⟩ =>
      show p.val = if n = 1 then 0 else p.val
      split
      · have := p.isLt; omega
      · rfl
    | ⟨1, _⟩ => rfl
  · exact extractStridedSlice_apply ![0, o] g hs (ix2 p (0 : Fin 1)) (ix2 p (⟨o, ho⟩ : Fin b)) fun ax => by
      match ax with
      | ⟨0, _⟩ => show p.val = 0 + p.val; omega
      | ⟨1, _⟩ => show o = o + 0; omega

/-- Row `r` with the second coordinate `k` put back is the entry `(r, k)`. -/
theorem lift_second {a b : ℕ} (h : (⟨2, ![a, b]⟩ : Shape).Reduces [1] ⟨1, ![a]⟩) (r : Fin a) (k : Fin b) :
    h.lift (ix1 r) k = ix2 r k := by
  funext c; apply Fin.ext
  fin_cases c <;> rfl

/-- The host's reduce of a matrix over its second axis by a commutative, associative body, at row `r`: the fold from the
    initial value over the row's entries. -/
theorem hostReduce_row {a b : ℕ} {u : Shape} (f : α → α → α) [Std.Commutative f] [Std.Associative f]
    (x : (⟨2, ![a, b]⟩ : Shape).Idx → α) (init : u.Idx → α)
    (h' : (⟨2, ![a, b]⟩ : Shape).ReducesTo [1] ⟨1, ![a]⟩) (h : (⟨2, ![a, b]⟩ : Shape).Reduces [1] ⟨1, ![a]⟩)
    (hu : 0 < u.numel) (r : Fin a) :
    Host.reduce f x init h' hu (ix1 r)
      = (Finset.univ : Finset (Fin b)).fold f (init (Shape.Idx.first hu)) fun k => x (ix2 r k) :=
  (Host.reduce_eq_fold_single f x init h' h hu (ix1 r)).trans
    (congrArg (fun g => Finset.fold f (init (Shape.Idx.first hu)) g (Finset.univ : Finset (Fin b)))
      (funext fun k => congrArg x (lift_second h r k)))

end Cert.LibRowwise

end
-- ==== Proof.LibAffineLayer.lean ====
/-
  A dense layer of a feature matrix, read at an entry.

  For a feature matrix h of shape [n, d] and a weight matrix w of shape [d, e], entry (p, q) of the product h · w is
  Σ_k h (p, k) · w (k, q).  The affine layer h · w + b adds the bias row's entry q; the rectified two-branch layer
  max ((a · wl + b) + x · wr, z) — a node's aggregated neighbourhood a through wl, its own features x through wr —
  adds the second product and takes the maximum with a constant z.  These are stated once as arrays over any row
  count n, so that a block of rows and the whole matrix are read by the same formula.

  On a block of rows the matrix unit computes exactly these entries: a product into a zero accumulator is the
  textbook sum, a change of float format is the identity on extended reals, and the bias row cast to [1, e] and laid
  under every row reads its entry q.  All sums are finite sums on the extended reals; no finiteness of the data is
  used, since nothing is rearranged.
  Library imports and the two sibling lemma files LibDot, LibRowwise only.
-/
import Idealize.ShloMosaic.PureOps.Ideal.Laws
import Idealize.ShloMosaic.Lib.ValueIdx
import Idealize.ShloMosaic.Lib.ValueLayout
import Idealize.ShloMosaic.Lib.Pipeline.Value
import proofs.«169258_j68762426409614_2_alg».proof.Proof.LibDot
import proofs.«169258_j68762426409614_2_alg».proof.Proof.LibRowwise

noncomputable section

namespace Cert.LibAffineLayer

open Idealize.ShloMosaic Idealize.ShloMosaic.ValueIdx
open scoped BigOperators

variable {n d e : ℕ}

/-- Entry (p, q) of the product h · w: the sum over k of h (p, k) · w (k, q). -/
def prodAt (h : (⟨2, ![n, d]⟩ : Shape).Idx → EReal) (w : (⟨2, ![d, e]⟩ : Shape).Idx → EReal) (p : Fin n) (q : Fin e) : EReal :=
  ∑ k : Fin d, h (ix2 p k) * w (ix2 k q)

/-- The affine layer h · w + b, as an array of shape [n, e]. -/
def affine (h : (⟨2, ![n, d]⟩ : Shape).Idx → EReal) (w : (⟨2, ![d, e]⟩ : Shape).Idx → EReal)
    (b : (⟨1, ![e]⟩ : Shape).Idx → EReal) : (⟨2, ![n, e]⟩ : Shape).Idx → EReal :=
  fun i => prodAt h w (i 0) (i 1) + b (ix1 (i 1))

/-- The rectified two-branch layer max ((a · wl + b) + x · wr, z), as an array of shape [n, e]. -/
def twoBranch (z : EReal) (a x : (⟨2, ![n, d]⟩ : Shape).Idx → EReal) (wl wr : (⟨2, ![d, e]⟩ : Shape).Idx → EReal)
    (b : (⟨1, ![e]⟩ : Shape).Idx → EReal) : (⟨2, ![n, e]⟩ : Shape).Idx → EReal :=
  fun i => max ((prodAt a wl (i 0) (i 1) + b (ix1 (i 1))) + prodAt x wr (i 0) (i 1)) z

theorem affine_ix2 (h : (⟨2, ![n, d]⟩ : Shape).Idx → EReal) (w : (⟨2, ![d, e]⟩ : Shape).Idx → EReal)
    (b : (⟨1, ![e]⟩ : Shape).Idx → EReal) (p : Fin n) (q : Fin e) :
    affine h w b (ix2 p q) = prodAt h w p q + b (ix1 q) := rfl

theorem twoBranch_ix2 (z : EReal) (a x : (⟨2, ![n, d]⟩ : Shape).Idx → EReal) (wl wr : (⟨2, ![d, e]⟩ : Shape).Idx → EReal)
    (b : (⟨1, ![e]⟩ : Shape).Idx → EReal) (p : Fin n) (q : Fin e) :
    twoBranch z a x wl wr b (ix2 p q) = max ((prodAt a wl p q + b (ix1 q)) + prodAt x wr p q) z := rfl

/-- A change of float format is the identity on extended reals. -/
theorem truncf_eq {s : Shape} {φ ψ : FTy} (v : FVec Ideal s φ) (h : ψ.bits < φ.bits) :
    (truncf ψ v h : FVec Ideal s ψ) = v := rfl

section Unit

variable (D : DotDims ⟨2, ![n, d]⟩ ⟨2, ![d, e]⟩ ⟨2, ![n, e]⟩) (hr : D.contr.rank = 1)
  (hs : D.contr.size ⟨0, by omega⟩ = d)
  (hl0 : ∀ j q, (D.lhsIdx j q 0).val = (j 0).val) (hl1 : ∀ j q, (D.lhsIdx j q 1).val = (q ⟨0, by omega⟩).val)
  (hr0 : ∀ j q, (D.rhsIdx j q 0).val = (q ⟨0, by omega⟩).val) (hr1 : ∀ j q, (D.rhsIdx j q 1).val = (j 1).val)

include hr hs hl0 hl1 hr0 hr1

/-- The matrix unit's h · w into a zero accumulator plus the bias row laid under every row, at (p, q). -/
theorem unit_affine_apply {φ₁ φ₂ : FTy} (h : FVec Ideal ⟨2, ![n, d]⟩ φ₁) (w : FVec Ideal ⟨2, ![d, e]⟩ φ₂)
    (b : (⟨1, ![e]⟩ : Shape).Idx → EReal) (hc : (⟨1, ![e]⟩ : Shape).ShapeCasts ⟨2, ![1, e]⟩)
    (hb : (⟨2, ![1, e]⟩ : Shape).Broadcasts ⟨2, ![n, e]⟩) (p : Fin n) (q : Fin e) :
    FloatOps.matmul D none h w (constant ⟨2, ![n, e]⟩ .f32 0x00000000#32) (ix2 p q)
        + broadcastTo ⟨2, ![n, e]⟩ (shapeCast ⟨2, ![1, e]⟩ b hc) hb (ix2 p q)
      = prodAt h w p q + b (ix1 q) := by
  rw [LibDot.matmul_zero_apply D hr hs hl0 hl1 hr0 hr1, LibRowwise.rowUnder_apply]
  rfl

/-- The rectified two-branch layer as the matrix unit computes it on a block, at (p, q). -/
theorem unit_twoBranch_apply {φ₁ φ₂ : FTy} (z : EReal) (a x : FVec Ideal ⟨2, ![n, d]⟩ φ₁) (wl wr : FVec Ideal ⟨2, ![d, e]⟩ φ₂)
    (b : (⟨1, ![e]⟩ : Shape).Idx → EReal) (hc : (⟨1, ![e]⟩ : Shape).ShapeCasts ⟨2, ![1, e]⟩)
    (hb : (⟨2, ![1, e]⟩ : Shape).Broadcasts ⟨2, ![n, e]⟩) (p : Fin n) (q : Fin e) :
    max ((FloatOps.matmul D none a wl (constant ⟨2, ![n, e]⟩ .f32 0x00000000#32) (ix2 p q)
          + broadcastTo ⟨2, ![n, e]⟩ (shapeCast ⟨2, ![1, e]⟩ b hc) hb (ix2 p q))
        + FloatOps.matmul D none x wr (constant ⟨2, ![n, e]⟩ .f32 0x00000000#32) (ix2 p q)) z
      = max ((prodAt a wl p q + b (ix1 q)) + prodAt x wr p q) z := by
  rw [unit_affine_apply D hr hs hl0 hl1 hr0 hr1, LibDot.matmul_zero_apply D hr hs hl0 hl1 hr0 hr1]
  rfl

end Unit

end Cert.LibAffineLayer

end
-- ==== Proof.Spec.lean ====
/-
  The layers of the two-encoder graph network, as arrays read at an entry.

  A mean-aggregating layer takes, for every node p, the sum s (p, ·) of its in-neighbours' feature rows and their
  number cnt p, divides the sum by max (cnt p, 1) (an isolated node keeps the zero row), and returns
  max ((mean · wl + b) + x · wr, 0): the neighbourhood mean through wl, the node's own row x (p, ·) through wr.  An
  encoder ends with an affine map h · w + b.  The decoder scores an edge from the two end points' rows zu, zm as
  max ((zu · w1a + zm · w1b) + b1, 0) · w2 + b2.

  Every entry (p, q) of these arrays depends on row p of the row-indexed operands only; the lemmas below say so, for two
  arrays of different row counts holding the same row at p and p'.  That is what lets a block of rows, the zero-padded
  array and the array itself be read by one formula.  Nothing is rearranged, so no finiteness is used.
-/
import Idealize.ShloMosaic.PureOps.Ideal.Laws
import Idealize.ShloMosaic.Lib.ValueIdx
import proofs.«169258_j68762426409614_2_alg».proof.Proof.LibAffineLayer

noncomputable section

namespace Cert.Sage

open Idealize.ShloMosaic Idealize.ShloMosaic.ValueIdx Cert.LibAffineLayer
open scoped BigOperators

variable {n n' d e : ℕ}

/-- The word of 1.0: the least divisor a neighbourhood sum is divided by. -/
abbrev one : EReal := Ideal.ofBits .f32 0x3F800000#32
/-- The word of 0.0: the rectifier's floor. -/
abbrev zero : EReal := Ideal.ofBits .f32 0x00000000#32

/-- The neighbourhood mean: row p of the sums divided by max (cnt p, one). -/
def meanRows (one : EReal) (s : (⟨2, ![n, d]⟩ : Shape).Idx → EReal) (cnt : Fin n → EReal) :
    (⟨2, ![n, d]⟩ : Shape).Idx → EReal :=
  fun i => Ideal.div (s i) (max (cnt (i 0)) one)

theorem meanRows_ix2 (one : EReal) (s : (⟨2, ![n, d]⟩ : Shape).Idx → EReal) (cnt : Fin n → EReal) (p : Fin n) (k : Fin d) :
    meanRows one s cnt (ix2 p k) = Ideal.div (s (ix2 p k)) (max (cnt p) one) := rfl

/-- The mean-aggregating layer max ((mean · wl + b) + x · wr, zero). -/
def layer (one zero : EReal) (s x : (⟨2, ![n, d]⟩ : Shape).Idx → EReal) (cnt : Fin n → EReal)
    (wl wr : (⟨2, ![d, e]⟩ : Shape).Idx → EReal) (b : (⟨1, ![e]⟩ : Shape).Idx → EReal) : (⟨2, ![n, e]⟩ : Shape).Idx → EReal :=
  twoBranch zero (meanRows one s cnt) x wl wr b

/-- A product's entry (p, q) reads row p of its left factor only. -/
theorem prodAt_rows (h : (⟨2, ![n, d]⟩ : Shape).Idx → EReal) (h' : (⟨2, ![n', d]⟩ : Shape).Idx → EReal)
    (w : (⟨2, ![d, e]⟩ : Shape).Idx → EReal) (p : Fin n) (p' : Fin n') (q : Fin e)
    (hrow : ∀ k, h (ix2 p k) = h' (ix2 p' k)) : prodAt h w p q = prodAt h' w p' q := by
  unfold prodAt
  exact Finset.sum_congr rfl fun k _ => by rw [hrow k]

/-- A layer's entry (p, q) reads row p of the sums, of the node features and of the counts only. -/
theorem layer_rows (one zero : EReal) (s x : (⟨2, ![n, d]⟩ : Shape).Idx → EReal) (cnt : Fin n → EReal)
    (s' x' : (⟨2, ![n', d]⟩ : Shape).Idx → EReal) (cnt' : Fin n' → EReal)
    (wl wr : (⟨2, ![d, e]⟩ : Shape).Idx → EReal) (b : (⟨1, ![e]⟩ : Shape).Idx → EReal) (p : Fin n) (p' : Fin n') (q : Fin e)
    (hs : ∀ k, s (ix2 p k) = s' (ix2 p' k)) (hx : ∀ k, x (ix2 p k) = x' (ix2 p' k)) (hc : cnt p = cnt' p') :
    layer one zero s x cnt wl wr b (ix2 p q) = layer one zero s' x' cnt' wl wr b (ix2 p' q) := by
  unfold layer
  rw [twoBranch_ix2, twoBranch_ix2,
    prodAt_rows (meanRows one s cnt) (meanRows one s' cnt') wl p p' q (fun k => by rw [meanRows_ix2, meanRows_ix2, hs k, hc]),
    prodAt_rows x x' wr p p' q hx]

/-- An affine map's entry (p, q) reads row p of its argument only. -/
theorem affine_rows (h : (⟨2, ![n, d]⟩ : Shape).Idx → EReal) (h' : (⟨2, ![n', d]⟩ : Shape).Idx → EReal)
    (w : (⟨2, ![d, e]⟩ : Shape).Idx → EReal) (b : (⟨1, ![e]⟩ : Shape).Idx → EReal) (p : Fin n) (p' : Fin n') (q : Fin e)
    (hrow : ∀ k, h (ix2 p k) = h' (ix2 p' k)) : affine h w b (ix2 p q) = affine h' w b (ix2 p' q) := by
  rw [affine_ix2, affine_ix2, prodAt_rows h h' w p p' q hrow]

/-- The decoder's hidden row: max ((zu · w1a + zm · w1b) + b1, zero). -/
def hidden (zero : EReal) (zu zm : (⟨2, ![n, d]⟩ : Shape).Idx → EReal) (w1a w1b : (⟨2, ![d, e]⟩ : Shape).Idx → EReal)
    (b1 : (⟨1, ![e]⟩ : Shape).Idx → EReal) : (⟨2, ![n, e]⟩ : Shape).Idx → EReal :=
  fun i => max ((prodAt zu w1a (i 0) (i 1) + prodAt zm w1b (i 0) (i 1)) + b1 (ix1 (i 1))) zero

theorem hidden_ix2 (zero : EReal) (zu zm : (⟨2, ![n, d]⟩ : Shape).Idx → EReal) (w1a w1b : (⟨2, ![d, e]⟩ : Shape).Idx → EReal)
    (b1 : (⟨1, ![e]⟩ : Shape).Idx → EReal) (p : Fin n) (q : Fin e) :
    hidden zero zu zm w1a w1b b1 (ix2 p q) = max ((prodAt zu w1a p q + prodAt zm w1b p q) + b1 (ix1 q)) zero := rfl

theorem hidden_rows (zero : EReal) (zu zm : (⟨2, ![n, d]⟩ : Shape).Idx → EReal) (zu' zm' : (⟨2, ![n', d]⟩ : Shape).Idx → EReal)
    (w1a w1b : (⟨2, ![d, e]⟩ : Shape).Idx → EReal) (b1 : (⟨1, ![e]⟩ : Shape).Idx → EReal) (p : Fin n) (p' : Fin n') (q : Fin e)
    (hu : ∀ k, zu (ix2 p k) = zu' (ix2 p' k)) (hm : ∀ k, zm (ix2 p k) = zm' (ix2 p' k)) :
    hidden zero zu zm w1a w1b b1 (ix2 p q) = hidden zero zu' zm' w1a w1b b1 (ix2 p' q) := by
  rw [hidden_ix2, hidden_ix2, prodAt_rows zu zu' w1a p p' q hu, prodAt_rows zm zm' w1b p p' q hm]

/-- The left half of the first decoder matrix [64, 128], transposed: entry (k, j) is w1 (j, k). -/
def w1Left (w1 : (⟨2, ![64, 128]⟩ : Shape).Idx → EReal) : (⟨2, ![64, 64]⟩ : Shape).Idx → EReal :=
  fun j => w1 (ix2 (j 1) (⟨(j 0).val, Nat.lt_of_lt_of_le (j 0).isLt (by decide)⟩ : Fin 128))

/-- Its right half, transposed: entry (k, j) is w1 (j, 64 + k). -/
def w1Right (w1 : (⟨2, ![64, 128]⟩ : Shape).Idx → EReal) : (⟨2, ![64, 64]⟩ : Shape).Idx → EReal :=
  fun j => w1 (ix2 (j 1) (⟨64 + (j 0).val, Nat.add_lt_add_left (j 0).isLt 64⟩ : Fin 128))

/-- The second decoder matrix [1, 64] as a column: entry (k, 0) is w2 (0, k). -/
def w2Col (w2 : (⟨2, ![1, 64]⟩ : Shape).Idx → EReal) : (⟨2, ![64, 1]⟩ : Shape).Idx → EReal :=
  fun j => w2 (ix2 (0 : Fin 1) (j 0))

/-- The decoder's score of edge p: hidden (p, ·) · w2 + b2, one column. -/
def score (zero : EReal) (zu zm : (⟨2, ![n, d]⟩ : Shape).Idx → EReal) (w1a w1b : (⟨2, ![d, e]⟩ : Shape).Idx → EReal)
    (b1 : (⟨1, ![e]⟩ : Shape).Idx → EReal) (w2 : (⟨2, ![e, 1]⟩ : Shape).Idx → EReal) (b2 : EReal) (p : Fin n) : EReal :=
  prodAt (hidden zero zu zm w1a w1b b1) w2 p (0 : Fin 1) + b2

theorem score_rows (zero : EReal) (zu zm : (⟨2, ![n, d]⟩ : Shape).Idx → EReal) (zu' zm' : (⟨2, ![n', d]⟩ : Shape).Idx → EReal)
    (w1a w1b : (⟨2, ![d, e]⟩ : Shape).Idx → EReal) (b1 : (⟨1, ![e]⟩ : Shape).Idx → EReal)
    (w2 : (⟨2, ![e, 1]⟩ : Shape).Idx → EReal) (b2 : EReal) (p : Fin n) (p' : Fin n')
    (hu : ∀ k, zu (ix2 p k) = zu' (ix2 p' k)) (hm : ∀ k, zm (ix2 p k) = zm' (ix2 p' k)) :
    score zero zu zm w1a w1b b1 w2 b2 p = score zero zu' zm' w1a w1b b1 w2 b2 p' := by
  unfold score
  rw [prodAt_rows _ (hidden zero zu' zm' w1a w1b b1) w2 p p' 0 fun k => hidden_rows zero zu zm zu' zm' w1a w1b b1 p p' k hu hm]

end Cert.Sage

end
-- ==== Proof.LibColumnLayout.lean ====
/-
  Two layout operations on a column, read at an index: the forms a row sum kept as a column goes through before it meets a
  full matrix. (The library has the row forms `[a] → [1, a]` and `[1, b] → [a, b]`; these are their column counterparts.)
  Library imports only.
-/
import Idealize.ShloMosaic.Lib.ValueIdx
import Idealize.ShloMosaic.Lib.ValueLayout
import Idealize.ShloMosaic.Lib.Pipeline.Value

namespace Cert.LibColumnLayout

open Idealize.ShloMosaic Idealize.ShloMosaic.ValueIdx

/-- An `[a]` array cast to `[a, 1]` reads, at `(i, u)`, the operand at `i`, whatever the unit coordinate `u`: both indices
    have row-major position `i`. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one column at `p`, whatever `c`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumnLayout
-- ==== Proof.Blocks.lean ====
/-
  What the three kernel bodies compute on one block of rows, read at an entry.

  A block of a mean-aggregating layer holds 4096 rows: the body divides the block of neighbourhood sums by the block of
  counts clamped from below by 1, multiplies by the left weights on the matrix unit, adds the bias row, adds the block of
  node features times the right weights, and rectifies.  On the extended reals a change of float format is the
  identity and a product into a zero accumulator is the textbook sum, so entry (p, q) of the stored block is the
  layer's entry (p, q) on the block's rows.  The second body applies the encoder's closing affine map to that; the third
  scores 8192 edges from the two gathered blocks of end-point rows.
-/
import proofs.«169258_j68762426409614_2_alg».proof.Proof.Gen.KernelIdeal.Skeleton
import proofs.«169258_j68762426409614_2_alg».proof.Proof.Spec
import proofs.«169258_j68762426409614_2_alg».proof.Proof.LibColumnLayout
import Idealize.ShloMosaic.Lib.Pipeline.Value
import Idealize.ShloMosaic.Lib.ValueLayout

noncomputable section

namespace Cert.KernelIdeal.Blocks

open Cert.KernelIdeal Cert.KernelIdeal.Gen Idealize.ShloMosaic Idealize.ShloMosaic.ValueIdx Cert.Sage Cert.LibAffineLayer
open scoped BigOperators

/-- The bias of a block: the one row of a [1, 64] block, as a row of 64 entries. -/
abbrev biasOf (b : S1x64.Idx → EReal) : (⟨1, ![64]⟩ : Shape).Idx → EReal := fun i => b (ix2 (0 : Fin 1) (i 0))

/-- The counts of a block: the one column of a [n, 1] block, as a function of the row. -/
abbrev countsOf {n : ℕ} (c : (⟨2, ![n, 1]⟩ : Shape).Idx → EReal) : Fin n → EReal := fun r => c (ix2 r (0 : Fin 1))

/-! ## The 4096-row block's product -/

/-- The dimension record of a [4096, 64] by [64, 64] product. -/
abbrev D0 := dot_S4096x64_S64x64_S4096x64_1_0_0_1_n_n

theorem d0_l0 (j : S4096x64.Idx) (q : D0.contr.Idx) : (D0.lhsIdx j q 0).val = (j 0).val := by
  unfold DotDims.lhsIdx
  rw [dif_neg (show ¬(0 : Fin S4096x64.rank) ∈ D0.lhsBatch by decide), dif_pos (show (0 : Fin S4096x64.rank) ∈ D0.lhsNonContracting by decide)]
  rfl
theorem d0_l1 (j : S4096x64.Idx) (q : D0.contr.Idx) : (D0.lhsIdx j q 1).val = (q ⟨0, by decide⟩).val :=
  D0.lhsIdx_val_of_single rfl j q
theorem d0_r0 (j : S4096x64.Idx) (q : D0.contr.Idx) : (D0.rhsIdx j q 0).val = (q ⟨0, by decide⟩).val :=
  D0.rhsIdx_val_of_single rfl j q
theorem d0_r1 (j : S4096x64.Idx) (q : D0.contr.Idx) : (D0.rhsIdx j q 1).val = (j 1).val := by
  unfold DotDims.rhsIdx
  rw [dif_neg (show ¬(1 : Fin S64x64.rank) ∈ D0.rhsBatch by decide), dif_pos (show (1 : Fin S64x64.rank) ∈ D0.rhsNonContracting by decide)]
  rfl

/-- The product of a block with a weight matrix into a zero accumulator, both operands cut to the short float
    format first, at (p, q): the textbook sum, a change of format being the identity on extended reals. -/
theorem mm0 (lhs : FVec Ideal S4096x64 .f32) (rhs : FVec Ideal S64x64 .f32) (p : Fin 4096) (q : Fin 64) :
    matmul D0 none (truncf .bf16 lhs bitsLt_bf16_f32) (truncf .bf16 rhs bitsLt_bf16_f32) (constant S4096x64 .f32 0x00000000#32) (ix2 p q)
      = prodAt lhs rhs p q :=
  Cert.LibDot.matmul_zero_apply D0 rfl rfl d0_l0 d0_l1 d0_r0 d0_r1 none (truncf .bf16 lhs bitsLt_bf16_f32) (truncf .bf16 rhs bitsLt_bf16_f32) p q

/-- A [1, c] block laid under n rows reads, at (p, j), its entry (0, j). -/
theorem rowBlock_apply {α : Type} {n c : ℕ} (b : (⟨2, ![1, c]⟩ : Shape).Idx → α)
    (hb : (⟨2, ![1, c]⟩ : Shape).Broadcasts ⟨2, ![n, c]⟩) (p : Fin n) (j : Fin c) :
    broadcastTo ⟨2, ![n, c]⟩ b hb (ix2 p j) = b (ix2 (0 : Fin 1) j) := by
  refine broadcastTo_apply b hb (ix2 p j) (ix2 (0 : Fin 1) j) fun ax => ?_
  match ax with
  | ⟨0, _⟩ => rfl
  | ⟨1, _⟩ =>
    show j.val = if c = 1 then 0 else j.val
    split
    · have := j.isLt; omega
    · rfl

/-- The block of sums divided by the block of counts clamped from below by 1 and laid beside every column. -/
abbrev meanBlock (cntB : FVec Ideal S4096x1 .f32) (sB : FVec Ideal S4096x64 .f32) : FVec Ideal S4096x64 .f32 :=
  divf sB (broadcastTo S4096x64 (maximumf cntB (broadcast S4096x1 (FloatOps.ofBits .f32 0x3F800000#32))) broadcasts_S4096x1_S4096x64)

/-- It is, at (p, k), the neighbourhood mean. -/
theorem mean_at (cntB : Vec Ideal S4096x1 .f32) (sB : Vec Ideal S4096x64 .f32) (p : Fin 4096) (k : Fin 64) :
    meanBlock cntB sB (ix2 p k) = meanRows one sB (countsOf cntB) (ix2 p k) := by
  show Ideal.div (sB (ix2 p k)) (broadcastTo S4096x64 (maximumf (F := Ideal) cntB (broadcast S4096x1 (FloatOps.ofBits .f32 0x3F800000#32))) broadcasts_S4096x1_S4096x64 (ix2 p k)) = _
  rw [Cert.LibColumnLayout.broadcastTo_a1_ab_apply]
  rfl

/-- The two-branch layer of the mean block is the mean-aggregating layer of the sums and the counts. -/
theorem twoBranch_mean (cntB : Vec Ideal S4096x1 .f32) (sB xB : Vec Ideal S4096x64 .f32) (wl wr : Vec Ideal S64x64 .f32)
    (b : (⟨1, ![64]⟩ : Shape).Idx → EReal) (p : Fin 4096) (q : Fin 64) :
    twoBranch zero (meanBlock cntB sB) xB wl wr b (ix2 p q) = layer one zero sB xB (countsOf cntB) wl wr b (ix2 p q) := by
  unfold layer
  rw [twoBranch_ix2, twoBranch_ix2, prodAt_rows (meanBlock cntB sB) (meanRows one sB (countsOf cntB)) wl p p q (mean_at cntB sB p)]

/-- The layer body over any aggregated block a and bias block: two products, the bias row, the rectifier. -/
theorem body_at (a xB : FVec Ideal S4096x64 .f32) (wl wr : FVec Ideal S64x64 .f32) (blB : FVec Ideal S1x64 .f32)
    (p : Fin 4096) (q : Fin 64) :
    maximumf
        (addf
          (addf (matmul D0 none (truncf .bf16 a bitsLt_bf16_f32) (truncf .bf16 wl bitsLt_bf16_f32) (constant S4096x64 .f32 0x00000000#32))
            (broadcastTo S4096x64 blB broadcasts_S1x64_S4096x64))
          (matmul D0 none (truncf .bf16 xB bitsLt_bf16_f32) (truncf .bf16 wr bitsLt_bf16_f32) (constant S4096x64 .f32 0x00000000#32)))
        (broadcast S4096x64 (FloatOps.ofBits .f32 0x00000000#32)) (ix2 p q)
      = twoBranch zero a xB wl wr (biasOf blB) (ix2 p q) := by
  show max ((matmul D0 none (truncf .bf16 a bitsLt_bf16_f32) (truncf .bf16 wl bitsLt_bf16_f32) (constant S4096x64 .f32 0x00000000#32) (ix2 p q)
        + broadcastTo S4096x64 blB broadcasts_S1x64_S4096x64 (ix2 p q))
      + matmul D0 none (truncf .bf16 xB bitsLt_bf16_f32) (truncf .bf16 wr bitsLt_bf16_f32) (constant S4096x64 .f32 0x00000000#32) (ix2 p q)) zero = _
  rw [mm0, mm0, rowBlock_apply]
  rfl

/-- The closing affine map over any block h and bias block: one product and the bias row. -/
theorem lin_at (h : FVec Ideal S4096x64 .f32) (w : FVec Ideal S64x64 .f32) (bB : FVec Ideal S1x64 .f32) (p : Fin 4096) (q : Fin 64) :
    addf (matmul D0 none (truncf .bf16 h bitsLt_bf16_f32) (truncf .bf16 w bitsLt_bf16_f32) (constant S4096x64 .f32 0x00000000#32))
        (broadcastTo S4096x64 bB broadcasts_S1x64_S4096x64) (ix2 p q)
      = affine h w (biasOf bB) (ix2 p q) := by
  show matmul D0 none (truncf .bf16 h bitsLt_bf16_f32) (truncf .bf16 w bitsLt_bf16_f32) (constant S4096x64 .f32 0x00000000#32) (ix2 p q)
      + broadcastTo S4096x64 bB broadcasts_S1x64_S4096x64 (ix2 p q) = _
  rw [mm0, rowBlock_apply]
  rfl

/-- The layer body's stored block at (p, q). -/
theorem combine_at (cntB : Vec Ideal S4096x1 .f32) (sB xB : Vec Ideal S4096x64 .f32) (wl wr : Vec Ideal S64x64 .f32)
    (blB : Vec Ideal S1x64 .f32) (p : Fin 4096) (q : Fin 64) :
    k0_pay1 (F := Ideal) cntB sB xB wl wr blB (ix2 p q)
      = layer (n := 4096) (d := 64) (e := 64) one zero sB xB (countsOf cntB) wl wr (biasOf blB) (ix2 p q) := by
  unfold k0_pay1
  rw [shapeCast_self, shapeCast_self, shapeCast_self, shapeCast_self, shapeCast_self, shapeCast_self]
  exact (body_at (meanBlock cntB sB) xB wl wr blB p q).trans (twoBranch_mean cntB sB xB wl wr (biasOf blB) p q)

theorem k1_eq : @k1_pay1 Ideal _ = @k0_pay1 Ideal _ := rfl
theorem k3_eq : @k3_pay1 Ideal _ = @k0_pay1 Ideal _ := rfl

/-- The layer-then-affine body's stored block at (p, q). -/
theorem combineLin_at (cntB : Vec Ideal S4096x1 .f32) (sB xB : Vec Ideal S4096x64 .f32) (wl wr : Vec Ideal S64x64 .f32)
    (blB : Vec Ideal S1x64 .f32) (wlin : Vec Ideal S64x64 .f32) (blinB : Vec Ideal S1x64 .f32) (p : Fin 4096) (q : Fin 64) :
    k2_pay1 (F := Ideal) cntB sB xB wl wr blB wlin blinB (ix2 p q)
      = affine (n := 4096) (d := 64) (e := 64)
          (layer (n := 4096) (d := 64) (e := 64) one zero sB xB (countsOf cntB) wl wr (biasOf blB)) wlin (biasOf blinB) (ix2 p q) := by
  unfold k2_pay1
  rw [shapeCast_self, shapeCast_self, shapeCast_self, shapeCast_self, shapeCast_self, shapeCast_self, shapeCast_self,
    shapeCast_self]
  refine (lin_at _ wlin blinB p q).trans ?_
  exact affine_rows _ _ wlin (biasOf blinB) p p q fun k =>
    (body_at (meanBlock cntB sB) xB wl wr blB p k).trans (twoBranch_mean cntB sB xB wl wr (biasOf blB) p k)

theorem k4_eq : @k4_pay1 Ideal _ = @k2_pay1 Ideal _ := rfl

/-! ## The 8192-row block's products -/

/-- The dimension record of a [8192, 64] by [64, 64] product. -/
abbrev D1 := dot_S8192x64_S64x64_S8192x64_1_0_0_1_n_n

theorem d1_l0 (j : S8192x64.Idx) (q : D1.contr.Idx) : (D1.lhsIdx j q 0).val = (j 0).val := by
  unfold DotDims.lhsIdx
  rw [dif_neg (show ¬(0 : Fin S8192x64.rank) ∈ D1.lhsBatch by decide), dif_pos (show (0 : Fin S8192x64.rank) ∈ D1.lhsNonContracting by decide)]
  rfl
theorem d1_l1 (j : S8192x64.Idx) (q : D1.contr.Idx) : (D1.lhsIdx j q 1).val = (q ⟨0, by decide⟩).val :=
  D1.lhsIdx_val_of_single rfl j q
theorem d1_r0 (j : S8192x64.Idx) (q : D1.contr.Idx) : (D1.rhsIdx j q 0).val = (q ⟨0, by decide⟩).val :=
  D1.rhsIdx_val_of_single rfl j q
theorem d1_r1 (j : S8192x64.Idx) (q : D1.contr.Idx) : (D1.rhsIdx j q 1).val = (j 1).val := by
  unfold DotDims.rhsIdx
  rw [dif_neg (show ¬(1 : Fin S64x64.rank) ∈ D1.rhsBatch by decide), dif_pos (show (1 : Fin S64x64.rank) ∈ D1.rhsNonContracting by decide)]
  rfl

theorem mm1 (lhs : FVec Ideal S8192x64 .f32) (rhs : FVec Ideal S64x64 .f32) (p : Fin 8192) (q : Fin 64) :
    matmul D1 none (truncf .bf16 lhs bitsLt_bf16_f32) (truncf .bf16 rhs bitsLt_bf16_f32) (constant S8192x64 .f32 0x00000000#32) (ix2 p q)
      = prodAt lhs rhs p q :=
  Cert.LibDot.matmul_zero_apply D1 rfl rfl d1_l0 d1_l1 d1_r0 d1_r1 none (truncf .bf16 lhs bitsLt_bf16_f32) (truncf .bf16 rhs bitsLt_bf16_f32) p q

/-- The dimension record of a [8192, 64] by [64, 1] product. -/
abbrev D2 := dot_S8192x64_S64x1_S8192x1_1_0_0_1_n_n

theorem d2_l0 (j : S8192x1.Idx) (q : D2.contr.Idx) : (D2.lhsIdx j q 0).val = (j 0).val := by
  unfold DotDims.lhsIdx
  rw [dif_neg (show ¬(0 : Fin S8192x64.rank) ∈ D2.lhsBatch by decide), dif_pos (show (0 : Fin S8192x64.rank) ∈ D2.lhsNonContracting by decide)]
  rfl
theorem d2_l1 (j : S8192x1.Idx) (q : D2.contr.Idx) : (D2.lhsIdx j q 1).val = (q ⟨0, by decide⟩).val :=
  D2.lhsIdx_val_of_single rfl j q
theorem d2_r0 (j : S8192x1.Idx) (q : D2.contr.Idx) : (D2.rhsIdx j q 0).val = (q ⟨0, by decide⟩).val :=
  D2.rhsIdx_val_of_single rfl j q
theorem d2_r1 (j : S8192x1.Idx) (q : D2.contr.Idx) : (D2.rhsIdx j q 1).val = (j 1).val := by
  unfold DotDims.rhsIdx
  rw [dif_neg (show ¬(1 : Fin S64x1.rank) ∈ D2.rhsBatch by decide), dif_pos (show (1 : Fin S64x1.rank) ∈ D2.rhsNonContracting by decide)]
  rfl

theorem mm2 (lhs : FVec Ideal S8192x64 .f32) (rhs : FVec Ideal S64x1 .f32) (p : Fin 8192) (u : Fin 1) :
    matmul D2 none (truncf .bf16 lhs bitsLt_bf16_f32) (truncf .bf16 rhs bitsLt_bf16_f32) (constant S8192x1 .f32 0x00000000#32) (ix2 p u)
      = prodAt lhs rhs p u :=
  Cert.LibDot.matmul_zero_apply D2 rfl rfl d2_l0 d2_l1 d2_r0 d2_r1 none (truncf .bf16 lhs bitsLt_bf16_f32) (truncf .bf16 rhs bitsLt_bf16_f32) p u

/-- The decoder's hidden block: the two products of the end-point blocks, the bias row, the rectifier. -/
theorem hidden_at (zuB zmB : FVec Ideal S8192x64 .f32) (w1a w1b : FVec Ideal S64x64 .f32) (b1B : FVec Ideal S1x64 .f32)
    (p : Fin 8192) (q : Fin 64) :
    maximumf
        (addf
          (addf (matmul D1 none (truncf .bf16 zuB bitsLt_bf16_f32) (truncf .bf16 w1a bitsLt_bf16_f32) (constant S8192x64 .f32 0x00000000#32))
            (matmul D1 none (truncf .bf16 zmB bitsLt_bf16_f32) (truncf .bf16 w1b bitsLt_bf16_f32) (constant S8192x64 .f32 0x00000000#32)))
          (broadcastTo S8192x64 b1B broadcasts_S1x64_S8192x64))
        (broadcast S8192x64 (FloatOps.ofBits .f32 0x00000000#32)) (ix2 p q)
      = hidden zero zuB zmB w1a w1b (biasOf b1B) (ix2 p q) := by
  show max ((matmul D1 none (truncf .bf16 zuB bitsLt_bf16_f32) (truncf .bf16 w1a bitsLt_bf16_f32) (constant S8192x64 .f32 0x00000000#32) (ix2 p q)
        + matmul D1 none (truncf .bf16 zmB bitsLt_bf16_f32) (truncf .bf16 w1b bitsLt_bf16_f32) (constant S8192x64 .f32 0x00000000#32) (ix2 p q))
      + broadcastTo S8192x64 b1B broadcasts_S1x64_S8192x64 (ix2 p q)) zero = _
  rw [mm1, mm1, rowBlock_apply]
  rfl

/-- The decoder body's stored block at (p, 0). -/
theorem decoder_at (zuB zmB : Vec Ideal S8192x64 .f32) (w1a w1b : Vec Ideal S64x64 .f32) (b1B : Vec Ideal S1x64 .f32)
    (w2 : Vec Ideal S64x1 .f32) (b2B : Vec Ideal S1x1 .f32) (p : Fin 8192) (u : Fin 1) :
    k5_pay1 (F := Ideal) zuB zmB w1a w1b b1B w2 b2B (ix2 p u)
      = score (n := 8192) (d := 64) (e := 64) zero zuB zmB w1a w1b (biasOf b1B) w2 (b2B (ix2 (0 : Fin 1) (0 : Fin 1))) p := by
  obtain rfl : u = 0 := Subsingleton.elim u 0
  unfold k5_pay1
  rw [shapeCast_self, shapeCast_self, shapeCast_self, shapeCast_self, shapeCast_self, shapeCast_self, shapeCast_self]
  refine (congrArg₂ (· + ·) (mm2 _ w2 p 0) (rowBlock_apply b2B broadcasts_S1x1_S8192x1 p 0)).trans ?_
  unfold score
  rw [prodAt_rows _ (hidden zero zuB zmB w1a w1b (biasOf b1B)) w2 p p 0 fun k => hidden_at zuB zmB w1a w1b b1B p k]

end Cert.KernelIdeal.Blocks

end
-- ==== Proof.Region0.lean ====
/-
  The array region 0 leaves: a mean-aggregating layer over the 53248 rows of the zero-padded operands.

  The grid has 13 points; point t stages rows 4096·t … 4096·t + 4095 of the row-indexed operands and the whole of the weight
  and bias arrays, runs the body on them and writes its 4096 output rows back to the same rows of the output array.  The
  body's block at (p, q) is the layer's entry on the block's rows; an entry of a layer reads one row of its operands; so
  block t of the output is rows 4096·t … of the layer over the whole padded arrays.  The 13 blocks tile the output
  (row r lies in block r / 4096), so after the last point the output array is that layer, whatever it held before.
-/
import proofs.«169258_j68762426409614_2_alg».proof.Proof.Gen.KernelIdeal.Frame
import proofs.«169258_j68762426409614_2_alg».proof.Proof.Blocks

set_option maxRecDepth 16384

noncomputable section

namespace Cert.KernelIdeal.Region0

open Cert.KernelIdeal Cert.KernelIdeal.Gen Cert.KernelIdeal.Blocks Idealize.ShloMosaic Idealize.ShloMosaic.TcCoe Idealize.ShloMosaic.ValueIdx Cert.Sage
open Cert.LibAffineLayer Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- What the region's output array holds after the last point, as one function of the arrays the region finds. -/
def out (c : Dev nD) : S53248x64.Idx → EReal :=
  layer (n := 53248) (d := 64) (e := 64) one zero (V c main_v35) (V c main_v38) (countsOf (V c main_v37)) (V c main_v33) (V c main_v34) (biasOf (V c main_v39))

/-- The windows' index maps over the grid: the row-indexed windows move with the point, the others stay. -/
theorem idx_facts : ∀ t : Fin cfg0.N,
    win0_0.index t (0 : Fin 2) = t.val
    ∧ win0_0.index t (1 : Fin 2) = 0
    ∧ win0_1.index t (0 : Fin 2) = t.val
    ∧ win0_1.index t (1 : Fin 2) = 0
    ∧ win0_2.index t (0 : Fin 2) = t.val
    ∧ win0_2.index t (1 : Fin 2) = 0
    ∧ win0_3.index t (0 : Fin 2) = 0
    ∧ win0_3.index t (1 : Fin 2) = 0
    ∧ win0_4.index t (0 : Fin 2) = 0
    ∧ win0_4.index t (1 : Fin 2) = 0
    ∧ win0_5.index t (0 : Fin 2) = 0
    ∧ win0_5.index t (1 : Fin 2) = 0
    ∧ win0_6.index t (0 : Fin 2) = t.val
    ∧ win0_6.index t (1 : Fin 2) = 0 :=
  (by decide +kernel : ∀ t : Fin grid0.N, _)

/-- What point t writes back is block t of the array `out`. -/
theorem flushed_eq (c : Dev nD) (t : Fin cfg0.N) :
    (dat0 (F := Ideal) V c).flushed 6 t = ((cfg0.win 6).blk t).view.read (Elt Ideal) (out V c) := by
  show (cfg0.win 6).cut (grid0.coords t) ((dat0 (F := Ideal) V c).after 6 t) = _
  rw [after0_6]
  unfold out0_6
  rw [View.canon_unit_zero hz]
  simp only [View.ld_unit_zero (S := S4096x64) hz, View.ld_unit_zero (S := S4096x1) hz, View.ld_unit_zero (S := S64x64) hz, View.ld_unit_zero (S := S1x64) hz]
  obtain ⟨e00, e01, e10, e11, e20, e21, e30, e31, e40, e41, e50, e51, e60, e61⟩ := idx_facts t
  have ht : t.val < 13 := lt_of_lt_of_eq t.isLt N_0
  funext j
  obtain ⟨p, q, rfl⟩ : ∃ (p : Fin 4096) (q : Fin 64), j = ix2 p q := ⟨j 0, j 1, eq_ix2 j⟩
  have hp : p.val < 4096 := p.isLt
  have hq : q.val < 64 := q.isLt
  show k0_pay1 (F := Ideal) (iblk0 V c 1 t) (iblk0 V c 0 t) (iblk0 V c 2 t) (iblk0 V c 3 t) (iblk0 V c 5 t) (iblk0 V c 4 t) (ix2 p q) = out V c (((cfg0.win 6).blk t).view.emb (ix2 p q))
  refine ((combine_at (iblk0 V c 1 t) (iblk0 V c 0 t) (iblk0 V c 2 t) (iblk0 V c 3 t) (iblk0 V c 5 t) (iblk0 V c 4 t) p q)).trans ?_
  have he : ((cfg0.win 6).blk t).view.emb (ix2 p q) = ix2 (⟨t.val * 4096 + p.val, by omega⟩ : Fin 53248) q := funext fun a => Fin.ext (by
    match a with
    | ⟨0, _⟩ => show win0_6.index t (0 : Fin 2) * 4096 + 1 * p.val = t.val * 4096 + p.val; omega
    | ⟨1, _⟩ => show win0_6.index t (1 : Fin 2) * 64 + 1 * q.val = q.val; omega)
  rw [he]
  have c3 : ((iblk0 V c 3 t) : S64x64.Idx → EReal) = (V c main_v33) := funext fun y => congrArg (V c main_v33) (funext fun a => Fin.ext (by
    match a with
    | ⟨0, _⟩ => show win0_3.index t (0 : Fin 2) * 64 + 1 * (y 0).val = (y 0).val; omega
    | ⟨1, _⟩ => show win0_3.index t (1 : Fin 2) * 64 + 1 * (y 1).val = (y 1).val; omega))
  have c4 : ((iblk0 V c 4 t) : S1x64.Idx → EReal) = (V c main_v39) := funext fun y => congrArg (V c main_v39) (funext fun a => Fin.ext (by
    match a with
    | ⟨0, _⟩ => show win0_4.index t (0 : Fin 2) * 1 + 1 * (y 0).val = (y 0).val; omega
    | ⟨1, _⟩ => show win0_4.index t (1 : Fin 2) * 64 + 1 * (y 1).val = (y 1).val; omega))
  have c5 : ((iblk0 V c 5 t) : S64x64.Idx → EReal) = (V c main_v34) := funext fun y => congrArg (V c main_v34) (funext fun a => Fin.ext (by
    match a with
    | ⟨0, _⟩ => show win0_5.index t (0 : Fin 2) * 64 + 1 * (y 0).val = (y 0).val; omega
    | ⟨1, _⟩ => show win0_5.index t (1 : Fin 2) * 64 + 1 * (y 1).val = (y 1).val; omega))
  unfold out
  rw [c3, c4, c5]
  exact layer_rows one zero _ _ _ (V c main_v35) (V c main_v38) (countsOf (V c main_v37)) _ _ _ p (⟨t.val * 4096 + p.val, by omega⟩ : Fin 53248) q
    (fun k => congrArg (V c main_v35) (funext fun a => Fin.ext (by
      match a with
      | ⟨0, _⟩ => show win0_0.index t (0 : Fin 2) * 4096 + 1 * p.val = t.val * 4096 + p.val; omega
      | ⟨1, _⟩ => show win0_0.index t (1 : Fin 2) * 64 + 1 * k.val = k.val; omega)))
    (fun k => congrArg (V c main_v38) (funext fun a => Fin.ext (by
      match a with
      | ⟨0, _⟩ => show win0_2.index t (0 : Fin 2) * 4096 + 1 * p.val = t.val * 4096 + p.val; omega
      | ⟨1, _⟩ => show win0_2.index t (1 : Fin 2) * 64 + 1 * k.val = k.val; omega)))
    (congrArg (V c main_v37) (funext fun a => Fin.ext (by
      match a with
      | ⟨0, _⟩ => show win0_1.index t (0 : Fin 2) * 4096 + 1 * p.val = t.val * 4096 + p.val; omega
      | ⟨1, _⟩ => show win0_1.index t (1 : Fin 2) * 1 + 1 * 0 = 0; omega)))

/-- An index of the output array lies in point t's block iff each coordinate lies in the block's range. -/
theorem mem_blk (t : Fin cfg0.N) (i : S53248x64.Idx) :
    i ∈ ((cfg0.win 6).blk t).view.set ↔ ∀ a : Fin 2, win0_6.index t a * S4096x64.size a ≤ (i a).val ∧ (i a).val < win0_6.index t a * S4096x64.size a + S4096x64.size a := by
  show i ∈ ((View.whole main_v40).slice (win0_6.rect t)).set ↔ _
  rw [View.set_slice_whole, Rect.mem_set_unit]
  exact Iff.rfl

/-- Every index of the output array lies in some point's block: row r in block r / 4096. -/
theorem cover (i : S53248x64.Idx) :
    ∃ t : Fin cfg0.N, (cfg0.win 6).flush t = true ∧ i ∈ ((cfg0.win 6).blk t).view.set := by
  have hi0 : (i 0).val < 53248 := (i 0).isLt
  have hi1 : (i 1).val < 64 := (i 1).isLt
  have hN : (i 0).val / 4096 < cfg0.N := by
    show (i 0).val / 4096 < grid0.N
    rw [N_0]; omega
  refine ⟨⟨(i 0).val / 4096, hN⟩, flush0_6 _, ?_⟩
  have hf := idx_facts ⟨(i 0).val / 4096, hN⟩
  have f0 : win0_6.index ⟨(i 0).val / 4096, hN⟩ (0 : Fin 2) = (i 0).val / 4096 := hf.2.2.2.2.2.2.2.2.2.2.2.2.1
  have f1 : win0_6.index ⟨(i 0).val / 4096, hN⟩ (1 : Fin 2) = 0 := hf.2.2.2.2.2.2.2.2.2.2.2.2.2
  rw [mem_blk]
  intro a
  match a with
  | ⟨0, _⟩ =>
    show win0_6.index ⟨(i 0).val / 4096, hN⟩ (0 : Fin 2) * 4096 ≤ (i 0).val ∧ (i 0).val < win0_6.index ⟨(i 0).val / 4096, hN⟩ (0 : Fin 2) * 4096 + 4096
    rw [f0]; omega
  | ⟨1, _⟩ =>
    show win0_6.index ⟨(i 0).val / 4096, hN⟩ (1 : Fin 2) * 64 ≤ (i 1).val ∧ (i 1).val < win0_6.index ⟨(i 0).val / 4096, hN⟩ (1 : Fin 2) * 64 + 64
    rw [f1]; omega

/-- The output array after the region's last point. -/
theorem arr (c : Dev nD) : (dat0 (F := Ideal) V c).arrAt 6 cfg0.N = out V c :=
  (dat0 (F := Ideal) V c).arrAt_eq_of_cover 6 (out V c) (fun t _ => flushed_eq V c t) cover

end Cert.KernelIdeal.Region0

end
-- ==== Proof.LibSliceRows.lean ====
/-
  A block of consecutive rows cut out of a taller matrix, read at an entry.

  For an [r, c] matrix A, the slice of b rows starting at row o (all c columns, unit strides) reads, at (i, j), the
  entry (o + i, j) of A.  What a host program's split of a stacked weight matrix into its row blocks needs: the product
  of a concatenated row with the stacked matrix is the sum of the products of the parts with these blocks.
  Library imports only.
-/
import Idealize.ShloMosaic.Lib.Pipeline.Value
import Idealize.ShloMosaic.Lib.ValueIdx

namespace Cert.LibSliceRows

open Idealize.ShloMosaic Idealize.ShloMosaic.ValueIdx

/-- Rows o … o + b - 1 of an [r, c] matrix, at (i, j): the matrix at (o + i, j). -/
theorem rows_apply {α : Type} {r b c : ℕ} (o : ℕ) (A : (⟨2, ![r, c]⟩ : Shape).Idx → α)
    (hs : (⟨2, ![r, c]⟩ : Shape).Slices ![o, 0] ⟨2, ![b, c]⟩) (i : Fin b) (j : Fin c) (ho : o + i.val < r) :
    extractStridedSlice ⟨2, ![b, c]⟩ ![o, 0] A hs (ix2 i j) = A (ix2 (⟨o + i.val, ho⟩ : Fin r) j) := by
  refine extractStridedSlice_apply ![o, 0] A hs (ix2 i j) (ix2 (⟨o + i.val, ho⟩ : Fin r) j) fun ax => ?_
  match ax with
  | ⟨0, _⟩ => rfl
  | ⟨1, _⟩ => show j.val = 0 + j.val; omega

end Cert.LibSliceRows
-- ==== Proof.Glue.lean ====
/-
  Padding the rows and cutting them off again.

  The kernel program pads every row-indexed operand of a layer with zero rows up to a multiple of the block height, runs
  the layer over the padded arrays, and keeps the first n rows of the result.  Row p < n of a padded array is row p of the
  operand, and entry (p, q) of a layer reads row p of its operands only; so the first n rows of the layer over the padded
  arrays are the layer over the operands themselves.  The padding rows' entries are never read.  The counts reach the
  kernel as a column [n, 1] (the vector cast, then padded) and the bias as a row [1, 64] (the vector cast): both read
  back the vector's entries.
-/
import Idealize.ShloMosaic.Lib.KernelVsHost
import Idealize.ShloMosaic.Lib.Pipeline.Value
import Idealize.ShloMosaic.Lib.ValueLayout
import proofs.«169258_j68762426409614_2_alg».proof.Proof.Spec
import proofs.«169258_j68762426409614_2_alg».proof.Proof.LibSliceRows
import proofs.«169258_j68762426409614_2_alg».proof.Proof.LibColumnLayout

noncomputable section

namespace Cert.Sage.Glue

open Idealize.ShloMosaic Idealize.ShloMosaic.ValueIdx Cert.Sage Cert.LibAffineLayer
open scoped BigOperators

variable {n R d : ℕ}

/-- Row p' of an array padded with extra rows at the end, for p' = p below the operand's row count, is the operand's
    row p. -/
theorem pad_rows_apply (x : (⟨2, ![n, d]⟩ : Shape).Idx → EReal) {u : Shape} (v : u.Idx → EReal) (hi : Fin 2 → ℕ)
    (h : (⟨2, ![n, d]⟩ : Shape).Pads ![0, 0] hi ![0, 0] ⟨2, ![R, d]⟩) (hu : 0 < u.numel) (p : Fin n) (p' : Fin R)
    (hp : p'.val = p.val) (k : Fin d) :
    pad ⟨2, ![R, d]⟩ ![0, 0] hi ![0, 0] x v h hu (ix2 p' k) = x (ix2 p k) :=
  pad_apply_of_inside ![0, 0] hi ![0, 0] x v h hu (ix2 p' k) (ix2 p k) (fun a => by
    match a with
    | ⟨0, _⟩ => show p'.val = 0 + p.val * (0 + 1); omega
    | ⟨1, _⟩ => show k.val = 0 + k.val * (0 + 1); omega)

/-- A vector of 64 entries cast to a [1, 64] row reads its entry q at (0, q). -/
theorem rowCast_apply (B : (⟨1, ![d]⟩ : Shape).Idx → EReal) (hc : (⟨1, ![d]⟩ : Shape).ShapeCasts ⟨2, ![1, d]⟩) :
    (fun i : (⟨1, ![d]⟩ : Shape).Idx => shapeCast ⟨2, ![1, d]⟩ B hc (ix2 (0 : Fin 1) (i 0))) = B :=
  funext fun i => (shapeCast_apply B hc (ix2 (0 : Fin 1) (i 0)) i (by
    rw [Shape.rowMajor_val_two, Shape.rowMajor_val_one]
    show (i 0).val = 0 * d + (i 0).val
    omega))

section Layer

variable (S X : (⟨2, ![n, d]⟩ : Shape).Idx → EReal) (C : (⟨1, ![n]⟩ : Shape).Idx → EReal)
  (WL WR : (⟨2, ![d, 64]⟩ : Shape).Idx → EReal) (B : (⟨1, ![64]⟩ : Shape).Idx → EReal)
  {u : Shape} (z : u.Idx → EReal) (hu : 0 < u.numel) (hiS hiC : Fin 2 → ℕ)
  (hpS : (⟨2, ![n, d]⟩ : Shape).Pads ![0, 0] hiS ![0, 0] ⟨2, ![R, d]⟩)
  (hpC : (⟨2, ![n, 1]⟩ : Shape).Pads ![0, 0] hiC ![0, 0] ⟨2, ![R, 1]⟩)
  (hcC : (⟨1, ![n]⟩ : Shape).ShapeCasts ⟨2, ![n, 1]⟩) (hcB : (⟨1, ![64]⟩ : Shape).ShapeCasts ⟨2, ![1, 64]⟩)

/-- The layer over the padded operands, as the kernel program feeds it. -/
def padded : (⟨2, ![R, 64]⟩ : Shape).Idx → EReal :=
  layer (n := R) (d := d) (e := 64) one zero (pad ⟨2, ![R, d]⟩ ![0, 0] hiS ![0, 0] S z hpS hu) (pad ⟨2, ![R, d]⟩ ![0, 0] hiS ![0, 0] X z hpS hu)
    (fun r => pad ⟨2, ![R, 1]⟩ ![0, 0] hiC ![0, 0] (shapeCast ⟨2, ![n, 1]⟩ C hcC) z hpC hu (ix2 r (0 : Fin 1))) WL WR
    (fun i => shapeCast ⟨2, ![1, 64]⟩ B hcB (ix2 (0 : Fin 1) (i 0)))

/-- Entry (p', q) of the padded layer, for p' = p below n, is entry (p, q) of the layer over the operands. -/
theorem padded_apply (p : Fin n) (p' : Fin R) (hp : p'.val = p.val) (q : Fin 64) :
    padded S X C WL WR B z hu hiS hiC hpS hpC hcC hcB (ix2 p' q)
      = layer (n := n) (d := d) (e := 64) one zero S X (fun r => C (ix1 r)) WL WR B (ix2 p q) := by
  unfold padded
  rw [rowCast_apply B hcB]
  exact layer_rows one zero _ _ _ S X (fun r => C (ix1 r)) WL WR B p' p q
    (fun k => pad_rows_apply S z hiS hpS hu p p' hp k)
    (fun k => pad_rows_apply X z hiS hpS hu p p' hp k)
    ((pad_rows_apply (shapeCast ⟨2, ![n, 1]⟩ C hcC) z hiC hpC hu p p' hp (0 : Fin 1)).trans
      (LibColumnLayout.shapeCast_a_a1_apply C hcC p (0 : Fin 1)))

/-- The first n rows of the padded layer are the layer over the operands. -/
theorem slice_padded (hs : (⟨2, ![R, 64]⟩ : Shape).Slices ![0, 0] ⟨2, ![n, 64]⟩) (hnR : n ≤ R) :
    extractStridedSlice ⟨2, ![n, 64]⟩ ![0, 0] (padded S X C WL WR B z hu hiS hiC hpS hpC hcC hcB) hs
      = layer (n := n) (d := d) (e := 64) one zero S X (fun r => C (ix1 r)) WL WR B := by
  funext i
  obtain ⟨p, q, rfl⟩ : ∃ (p : Fin n) (q : Fin 64), i = ix2 p q := ⟨i 0, i 1, eq_ix2 i⟩
  have hp : 0 + p.val < R := by have := p.isLt; omega
  rw [LibSliceRows.rows_apply 0 _ hs p q hp]
  exact padded_apply S X C WL WR B z hu hiS hiC hpS hpC hcC hcB p ⟨0 + p.val, hp⟩ (by show 0 + p.val = p.val; omega) q

/-- The same under the encoder's closing affine map, its bias a vector cast to a [1, 64] row. -/
theorem slice_affine_padded (W : (⟨2, ![64, 64]⟩ : Shape).Idx → EReal) (B2 : (⟨1, ![64]⟩ : Shape).Idx → EReal)
    (hs : (⟨2, ![R, 64]⟩ : Shape).Slices ![0, 0] ⟨2, ![n, 64]⟩) (hnR : n ≤ R) :
    extractStridedSlice ⟨2, ![n, 64]⟩ ![0, 0]
        (affine (n := R) (d := 64) (e := 64) (padded S X C WL WR B z hu hiS hiC hpS hpC hcC hcB) W
          (fun i => shapeCast ⟨2, ![1, 64]⟩ B2 hcB (ix2 (0 : Fin 1) (i 0)))) hs
      = affine (n := n) (d := 64) (e := 64) (layer (n := n) (d := d) (e := 64) one zero S X (fun r => C (ix1 r)) WL WR B) W B2 := by
  funext i
  obtain ⟨p, q, rfl⟩ : ∃ (p : Fin n) (q : Fin 64), i = ix2 p q := ⟨i 0, i 1, eq_ix2 i⟩
  have hp : 0 + p.val < R := by have := p.isLt; omega
  rw [LibSliceRows.rows_apply 0 _ hs p q hp, rowCast_apply B2 hcB]
  exact affine_rows _ _ W B2 ⟨0 + p.val, hp⟩ p q fun k =>
    padded_apply S X C WL WR B z hu hiS hiC hpS hpC hcC hcB p ⟨0 + p.val, hp⟩ (by show 0 + p.val = p.val; omega) k

end Layer

end Cert.Sage.Glue

end
-- ==== Proof.LibBcastIn.lean ====
/-
  The host's broadcast_in_dim in the forms a row-wise layer meets, read at an entry.

  A scalar broadcast to any shape reads the scalar everywhere.  A vector [c] sent to [1, c] along axis 1 and then to
  [n, c] reads, at (p, q), its entry q: a bias row laid under every row.  A vector [n] sent to [n, 1] along axis 0
  reads, at (p, u), its entry p, and sent on to [n, c] reads, at (p, q), its entry p: one factor per row laid beside
  every column.  Library imports only.
-/
import Idealize.ShloMosaic.Lib.ValueIdx
import Idealize.ShloMosaic.Lib.Pipeline.Value

namespace Cert.LibBcastIn

open Idealize.ShloMosaic Idealize.ShloMosaic.ValueIdx

variable {α : Type}

/-- A scalar broadcast to a shape reads the scalar at every index. -/
theorem scalar_apply {t : Shape} (dims : Fin (⟨0, ![]⟩ : Shape).rank → Fin t.rank) (h : (⟨0, ![]⟩ : Shape).BroadcastsInDim t dims)
    (x : (⟨0, ![]⟩ : Shape).Idx → α) (j : t.Idx) : broadcastInDim t dims h x j = x ix0 :=
  broadcastInDim_apply dims h x j ix0 (fun a => a.elim0)

/-- [c] → [1, c] along axis 1, at (u, q): entry q. -/
theorem row1_apply {c : ℕ} (dims : Fin (⟨1, ![c]⟩ : Shape).rank → Fin (⟨2, ![1, c]⟩ : Shape).rank) (hd : dims 0 = 1)
    (h : (⟨1, ![c]⟩ : Shape).BroadcastsInDim ⟨2, ![1, c]⟩ dims) (b : (⟨1, ![c]⟩ : Shape).Idx → α) (u : Fin 1) (q : Fin c) :
    broadcastInDim ⟨2, ![1, c]⟩ dims h b (ix2 u q) = b (ix1 q) :=
  broadcastInDim_apply dims h b (ix2 u q) (ix1 q) (fun a => by
    match a with
    | ⟨0, _⟩ =>
      show q.val = if c = 1 then 0 else ((ix2 u q) (dims 0)).val
      rw [hd]
      split
      · have := q.isLt; omega
      · rfl)

/-- [1, c] → [n, c] along axes 0 and 1, at (p, q): entry (0, q). -/
theorem rows_apply {n c : ℕ} (dims : Fin (⟨2, ![1, c]⟩ : Shape).rank → Fin (⟨2, ![n, c]⟩ : Shape).rank) (hd0 : dims 0 = 0) (hd1 : dims 1 = 1)
    (h : (⟨2, ![1, c]⟩ : Shape).BroadcastsInDim ⟨2, ![n, c]⟩ dims) (b : (⟨2, ![1, c]⟩ : Shape).Idx → α) (p : Fin n) (q : Fin c) :
    broadcastInDim ⟨2, ![n, c]⟩ dims h b (ix2 p q) = b (ix2 (0 : Fin 1) q) :=
  broadcastInDim_apply dims h b (ix2 p q) (ix2 (0 : Fin 1) q) (fun a => by
    match a with
    | ⟨0, _⟩ =>
      show (0 : ℕ) = if (1 : ℕ) = 1 then 0 else ((ix2 p q) (dims 0)).val
      rw [if_pos rfl]
    | ⟨1, _⟩ =>
      show q.val = if c = 1 then 0 else ((ix2 p q) (dims 1)).val
      rw [hd1]
      split
      · have := q.isLt; omega
      · rfl)

/-- A bias row laid under every row: [c] → [1, c] → [n, c], at (p, q): entry q. -/
theorem biasRow_apply {n c : ℕ} (d1 : Fin (⟨1, ![c]⟩ : Shape).rank → Fin (⟨2, ![1, c]⟩ : Shape).rank) (hd : d1 0 = 1)
    (h1 : (⟨1, ![c]⟩ : Shape).BroadcastsInDim ⟨2, ![1, c]⟩ d1)
    (d2 : Fin (⟨2, ![1, c]⟩ : Shape).rank → Fin (⟨2, ![n, c]⟩ : Shape).rank) (hd0 : d2 0 = 0) (hd1 : d2 1 = 1)
    (h2 : (⟨2, ![1, c]⟩ : Shape).BroadcastsInDim ⟨2, ![n, c]⟩ d2) (b : (⟨1, ![c]⟩ : Shape).Idx → α) (p : Fin n) (q : Fin c) :
    broadcastInDim ⟨2, ![n, c]⟩ d2 h2 (broadcastInDim ⟨2, ![1, c]⟩ d1 h1 b) (ix2 p q) = b (ix1 q) :=
  (rows_apply d2 hd0 hd1 h2 _ p q).trans (row1_apply d1 hd h1 b 0 q)

/-- [n] → [n, 1] along axis 0, at (p, u): entry p. -/
theorem col1_apply {n : ℕ} (dims : Fin (⟨1, ![n]⟩ : Shape).rank → Fin (⟨2, ![n, 1]⟩ : Shape).rank) (hd : dims 0 = 0)
    (h : (⟨1, ![n]⟩ : Shape).BroadcastsInDim ⟨2, ![n, 1]⟩ dims) (v : (⟨1, ![n]⟩ : Shape).Idx → α) (p : Fin n) (u : Fin 1) :
    broadcastInDim ⟨2, ![n, 1]⟩ dims h v (ix2 p u) = v (ix1 p) :=
  broadcastInDim_apply dims h v (ix2 p u) (ix1 p) (fun a => by
    match a with
    | ⟨0, _⟩ =>
      show p.val = if n = 1 then 0 else ((ix2 p u) (dims 0)).val
      rw [hd]
      split
      · have := p.isLt; omega
      · rfl)

/-- [n, 1] → [n, c] along axes 0 and 1, at (p, q): entry (p, 0). -/
theorem cols_apply {n c : ℕ} (dims : Fin (⟨2, ![n, 1]⟩ : Shape).rank → Fin (⟨2, ![n, c]⟩ : Shape).rank) (hd0 : dims 0 = 0) (hd1 : dims 1 = 1)
    (h : (⟨2, ![n, 1]⟩ : Shape).BroadcastsInDim ⟨2, ![n, c]⟩ dims) (v : (⟨2, ![n, 1]⟩ : Shape).Idx → α) (p : Fin n) (q : Fin c) :
    broadcastInDim ⟨2, ![n, c]⟩ dims h v (ix2 p q) = v (ix2 p (0 : Fin 1)) :=
  broadcastInDim_apply dims h v (ix2 p q) (ix2 p (0 : Fin 1)) (fun a => by
    match a with
    | ⟨0, _⟩ =>
      show p.val = if n = 1 then 0 else ((ix2 p q) (dims 0)).val
      rw [hd0]
      split
      · have := p.isLt; omega
      · rfl
    | ⟨1, _⟩ =>
      show (0 : ℕ) = if (1 : ℕ) = 1 then 0 else ((ix2 p q) (dims 1)).val
      rw [if_pos rfl])

end Cert.LibBcastIn
-- ==== Proof.LibConcatPair.lean ====
/-
  Two arrays laid side by side along one axis, read at an entry.

  Two matrices [n, a] and [n, b] concatenated along their columns give [n, c], with c = a + b by the concatenation's own
  side condition: column q < a is column q of the first, column a + j is column j of the second. The same for two
  vectors of a and b entries concatenated into one of c. Library imports only.
-/
import Idealize.ShloMosaic.Lib.Pipeline.Value
import Idealize.ShloMosaic.Lib.ValueIdx

noncomputable section

namespace Cert.LibConcatPair

open Idealize.ShloMosaic Idealize.ShloMosaic.ValueIdx

variable {α : Type}

/-- A column of the left matrix: entry (k, q) of the pair, for q = j below the first extent, is entry (k, j) of the
    first. -/
theorem cols_left {n a b c : ℕ} (x : (⟨2, ![n, a]⟩ : Shape).Idx → α) (y : (⟨2, ![n, b]⟩ : Shape).Idx → α)
    (hc : Shape.Concatenates [(⟨2, ![n, a]⟩ : Shape), ⟨2, ![n, b]⟩] ⟨2, ![n, c]⟩ 1)
    (k : Fin n) (j : Fin a) (q : Fin c) (hq : q.val = j.val) :
    concatenate ⟨2, ![n, c]⟩ 1 [⟨⟨2, ![n, a]⟩, x⟩, ⟨⟨2, ![n, b]⟩, y⟩] hc (ix2 k q) = x (ix2 k j) :=
  concatenate_pair_apply_left 1 x y hc (ix2 k q) rfl (ix2 k j) (fun d => by
    match d with
    | ⟨0, _⟩ => rfl
    | ⟨1, _⟩ => exact hq.symm)

/-- A column of the right matrix: entry (k, q) of the pair, for q = a + j, is entry (k, j) of the second. -/
theorem cols_right {n a b c : ℕ} (x : (⟨2, ![n, a]⟩ : Shape).Idx → α) (y : (⟨2, ![n, b]⟩ : Shape).Idx → α)
    (hc : Shape.Concatenates [(⟨2, ![n, a]⟩ : Shape), ⟨2, ![n, b]⟩] ⟨2, ![n, c]⟩ 1)
    (k : Fin n) (j : Fin b) (q : Fin c) (hq : q.val = a + j.val) :
    concatenate ⟨2, ![n, c]⟩ 1 [⟨⟨2, ![n, a]⟩, x⟩, ⟨⟨2, ![n, b]⟩, y⟩] hc (ix2 k q) = y (ix2 k j) :=
  concatenate_pair_apply_right 1 x y hc (ix2 k q) rfl rfl (ix2 k j) (fun d hd => by
    match d, hd with
    | ⟨0, _⟩, _ => rfl
    | ⟨1, _⟩, hd => exact (hd (Fin.ext rfl)).elim) (by show j.val + a = q.val; omega)

/-- An entry of the left vector. -/
theorem vec_left {a b c : ℕ} (x : (⟨1, ![a]⟩ : Shape).Idx → α) (y : (⟨1, ![b]⟩ : Shape).Idx → α)
    (hc : Shape.Concatenates [(⟨1, ![a]⟩ : Shape), ⟨1, ![b]⟩] ⟨1, ![c]⟩ 0)
    (j : Fin a) (q : Fin c) (hq : q.val = j.val) :
    concatenate ⟨1, ![c]⟩ 0 [⟨⟨1, ![a]⟩, x⟩, ⟨⟨1, ![b]⟩, y⟩] hc (ix1 q) = x (ix1 j) :=
  concatenate_pair_apply_left 0 x y hc (ix1 q) rfl (ix1 j) (fun d => by
    match d with
    | ⟨0, _⟩ => exact hq.symm)

/-- An entry of the right vector. -/
theorem vec_right {a b c : ℕ} (x : (⟨1, ![a]⟩ : Shape).Idx → α) (y : (⟨1, ![b]⟩ : Shape).Idx → α)
    (hc : Shape.Concatenates [(⟨1, ![a]⟩ : Shape), ⟨1, ![b]⟩] ⟨1, ![c]⟩ 0)
    (j : Fin b) (q : Fin c) (hq : q.val = a + j.val) :
    concatenate ⟨1, ![c]⟩ 0 [⟨⟨1, ![a]⟩, x⟩, ⟨⟨1, ![b]⟩, y⟩] hc (ix1 q) = y (ix1 j) :=
  concatenate_pair_apply_right 0 x y hc (ix1 q) rfl rfl (ix1 j) (fun d hd => by
    match d, hd with
    | ⟨0, _⟩, hd => exact (hd (Fin.ext rfl)).elim) (by show j.val + a = q.val; omega)

end Cert.LibConcatPair

end
-- ==== Proof.RefLayers.lean ====
/-
  The reference's layers, read as the arrays of the specification.

  Each stage of the reference that closes a mean-aggregating layer — the rectified sum of the neighbourhood mean through
  the left weights, the bias row, and the node's own features through the right weights — is the layer of the
  specification applied to the stages that feed it: the neighbourhood sums, the counts, the node features, the two
  transposed weight matrices and the bias.  The host's dot_general is the textbook sum at every entry, its divide is the
  division of extended reals, and each broadcast reads the entry it repeats.  The two encoders' closing stages are affine
  maps; the last stage scores each edge, the product of the joined row [zu | zm] with the transposed first decoder
  matrix splitting into the products of zu and zm with its left and right halves (a finite sum over 128 = 64 + 64 terms,
  in order).
-/
import proofs.«169258_j68762426409614_2_alg».proof.Proof.Gen.ReferenceIdeal.Read
import proofs.«169258_j68762426409614_2_alg».proof.Proof.Spec
import proofs.«169258_j68762426409614_2_alg».proof.Proof.LibBcastIn
import proofs.«169258_j68762426409614_2_alg».proof.Proof.LibConcatPair

noncomputable section

namespace Cert.ReferenceIdeal.Layers

open Cert.ReferenceIdeal Cert.ReferenceIdeal.Read Idealize.ShloMosaic Idealize.ShloMosaic.ValueIdx Cert.Sage Cert.LibAffineLayer
open scoped BigOperators

/-! ### The three shapes of stage, over arbitrary operands

The row count N and every operand are variables: the stages that feed a layer enter as arrays about which nothing is
known, so each lemma is plain index arithmetic. -/

section Stages

variable {N : ℕ}

section OneProduct

variable (D : DotDims ⟨2, ![N, 64]⟩ ⟨2, ![64, 64]⟩ ⟨2, ![N, 64]⟩) (hr : D.contr.rank = 1)
  (hs : D.contr.size ⟨0, by omega⟩ = 64)
  (hl0 : ∀ j q, (D.lhsIdx j q 0).val = (j 0).val) (hl1 : ∀ j q, (D.lhsIdx j q 1).val = (q ⟨0, by omega⟩).val)
  (hr0 : ∀ j q, (D.rhsIdx j q 0).val = (q ⟨0, by omega⟩).val) (hr1 : ∀ j q, (D.rhsIdx j q 1).val = (j 1).val)

include hr hs hl0 hl1 hr0 hr1

/-- The rectified sum of the neighbourhood mean through wl, the bias row, and the node's own row through wr, with the
    mean's divisor max (count, 1) laid beside every column, is the layer of the specification. -/
theorem layer_stage (s x : FVec Ideal ⟨2, ![N, 64]⟩ .f32) (cnt : FVec Ideal ⟨1, ![N]⟩ .f32)
    (wl wr : FVec Ideal ⟨2, ![64, 64]⟩ .f32) (b : FVec Ideal ⟨1, ![64]⟩ .f32)
    (h25 : (⟨0, ![]⟩ : Shape).BroadcastsInDim ⟨1, ![N]⟩ (![] : Fin 0 → Fin 1))
    (h27 : (⟨1, ![N]⟩ : Shape).BroadcastsInDim ⟨2, ![N, 1]⟩ (![0] : Fin 1 → Fin 2))
    (h28 : (⟨2, ![N, 1]⟩ : Shape).BroadcastsInDim ⟨2, ![N, 64]⟩ (![0, 1] : Fin 2 → Fin 2))
    (h32 : (⟨1, ![64]⟩ : Shape).BroadcastsInDim ⟨2, ![1, 64]⟩ (![1] : Fin 1 → Fin 2))
    (h33 : (⟨2, ![1, 64]⟩ : Shape).BroadcastsInDim ⟨2, ![N, 64]⟩ (![0, 1] : Fin 2 → Fin 2))
    (hz : (⟨0, ![]⟩ : Shape).BroadcastsInDim ⟨2, ![N, 64]⟩ (![] : Fin 0 → Fin 2)) :
    maximumf
        (addf
          (addf
            (Host.dotGeneral (F := Ideal) D none
              (Host.divf (F := Ideal) s
                (broadcastInDim ⟨2, ![N, 64]⟩ ![0, 1] h28
                  (broadcastInDim ⟨2, ![N, 1]⟩ ![0] h27
                    (maximumf cnt (broadcastInDim ⟨1, ![N]⟩ ![] h25 (constant (F := Ideal) ⟨0, ![]⟩ .f32 0x3F800000#32))))))
              wl)
            (broadcastInDim ⟨2, ![N, 64]⟩ ![0, 1] h33 (broadcastInDim ⟨2, ![1, 64]⟩ ![1] h32 b)))
          (Host.dotGeneral (F := Ideal) D none x wr))
        (broadcastInDim ⟨2, ![N, 64]⟩ ![] hz (constant (F := Ideal) ⟨0, ![]⟩ .f32 0x00000000#32))
      = layer (n := N) (d := 64) (e := 64) one zero s x (fun p => cnt (ix1 p)) wl wr b := by
  funext i
  obtain ⟨p, q, rfl⟩ : ∃ (p : Fin N) (q : Fin 64), i = ix2 p q := ⟨i 0, i 1, eq_ix2 i⟩
  -- the divisor at (p, k) is the count of node p, at least one
  have hdiv : ∀ k : Fin 64,
      broadcastInDim ⟨2, ![N, 64]⟩ ![0, 1] h28
          (broadcastInDim ⟨2, ![N, 1]⟩ ![0] h27
            (maximumf cnt (broadcastInDim ⟨1, ![N]⟩ ![] h25 (constant (F := Ideal) ⟨0, ![]⟩ .f32 0x3F800000#32)))) (ix2 p k)
        = max (cnt (ix1 p)) one := fun k => by
    refine (Cert.LibBcastIn.cols_apply (n := N) (c := 64) ![0, 1] rfl rfl h28 _ p k).trans ?_
    refine (Cert.LibBcastIn.col1_apply (n := N) ![0] rfl h27 _ p 0).trans ?_
    show max (cnt (ix1 p)) (broadcastInDim ⟨1, ![N]⟩ ![] h25 (constant (F := Ideal) ⟨0, ![]⟩ .f32 0x3F800000#32) (ix1 p)) = _
    exact congrArg (max (cnt (ix1 p))) (Cert.LibBcastIn.scalar_apply _ h25 _ _)
  -- the product of the neighbourhood mean with the left weights
  have hl : Host.dotGeneral (F := Ideal) D none
        (Host.divf (F := Ideal) s
          (broadcastInDim ⟨2, ![N, 64]⟩ ![0, 1] h28
            (broadcastInDim ⟨2, ![N, 1]⟩ ![0] h27
              (maximumf cnt (broadcastInDim ⟨1, ![N]⟩ ![] h25 (constant (F := Ideal) ⟨0, ![]⟩ .f32 0x3F800000#32))))))
        wl (ix2 p q)
      = prodAt (meanRows one s (fun p => cnt (ix1 p))) wl p q := by
    refine (Cert.LibDot.dotGeneral_apply D hr hs hl0 hl1 hr0 hr1 none _ _ wl p q).trans ?_
    unfold prodAt
    refine Finset.sum_congr rfl fun k _ => congrArg (· * wl (ix2 k q)) ?_
    rw [meanRows_ix2]
    exact congrArg (Ideal.div (s (ix2 p k))) (hdiv k)
  -- the bias row laid under every row
  have hb : broadcastInDim ⟨2, ![N, 64]⟩ ![0, 1] h33 (broadcastInDim ⟨2, ![1, 64]⟩ ![1] h32 b) (ix2 p q) = b (ix1 q) :=
    Cert.LibBcastIn.biasRow_apply (n := N) (c := 64) ![1] rfl h32 ![0, 1] rfl rfl h33 b p q
  -- the product of the node's own row with the right weights
  have hx : Host.dotGeneral (F := Ideal) D none x wr (ix2 p q) = prodAt x wr p q :=
    Cert.LibDot.dotGeneral_apply D hr hs hl0 hl1 hr0 hr1 none _ x wr p q
  -- the rectifier's floor
  have hf : broadcastInDim ⟨2, ![N, 64]⟩ ![] hz (constant (F := Ideal) ⟨0, ![]⟩ .f32 0x00000000#32) (ix2 p q) = zero :=
    Cert.LibBcastIn.scalar_apply _ hz _ _
  unfold layer
  rw [twoBranch_ix2, ← hl, ← hb, ← hx, ← hf]
  rfl

/-- A product with the weights plus the bias row laid under every row is the affine map of the specification. -/
theorem affine_stage (h : FVec Ideal ⟨2, ![N, 64]⟩ .f32) (w : FVec Ideal ⟨2, ![64, 64]⟩ .f32) (b : FVec Ideal ⟨1, ![64]⟩ .f32)
    (h32 : (⟨1, ![64]⟩ : Shape).BroadcastsInDim ⟨2, ![1, 64]⟩ (![1] : Fin 1 → Fin 2))
    (h33 : (⟨2, ![1, 64]⟩ : Shape).BroadcastsInDim ⟨2, ![N, 64]⟩ (![0, 1] : Fin 2 → Fin 2)) :
    addf (Host.dotGeneral (F := Ideal) D none h w)
        (broadcastInDim ⟨2, ![N, 64]⟩ ![0, 1] h33 (broadcastInDim ⟨2, ![1, 64]⟩ ![1] h32 b))
      = affine (n := N) (d := 64) (e := 64) h w b := by
  funext i
  obtain ⟨p, q, rfl⟩ : ∃ (p : Fin N) (q : Fin 64), i = ix2 p q := ⟨i 0, i 1, eq_ix2 i⟩
  have hp : Host.dotGeneral (F := Ideal) D none h w (ix2 p q) = prodAt h w p q :=
    Cert.LibDot.dotGeneral_apply D hr hs hl0 hl1 hr0 hr1 none _ h w p q
  have hb : broadcastInDim ⟨2, ![N, 64]⟩ ![0, 1] h33 (broadcastInDim ⟨2, ![1, 64]⟩ ![1] h32 b) (ix2 p q) = b (ix1 q) :=
    Cert.LibBcastIn.biasRow_apply (n := N) (c := 64) ![1] rfl h32 ![0, 1] rfl rfl h33 b p q
  rw [affine_ix2, ← hp, ← hb]
  rfl

end OneProduct

section JoinedProduct

variable (D1 : DotDims ⟨2, ![N, 128]⟩ ⟨2, ![128, 64]⟩ ⟨2, ![N, 64]⟩) (h1r : D1.contr.rank = 1)
  (h1s : D1.contr.size ⟨0, by omega⟩ = 128)
  (h1l0 : ∀ j q, (D1.lhsIdx j q 0).val = (j 0).val) (h1l1 : ∀ j q, (D1.lhsIdx j q 1).val = (q ⟨0, by omega⟩).val)
  (h1r0 : ∀ j q, (D1.rhsIdx j q 0).val = (q ⟨0, by omega⟩).val) (h1r1 : ∀ j q, (D1.rhsIdx j q 1).val = (j 1).val)

include h1r h1s h1l0 h1l1 h1r0 h1r1

/-- The joined row [zu | zm] through the transposed first matrix: a sum over 128 = 64 + 64 columns, in order, the
    first 64 reading zu and the left half of the matrix, the last 64 reading zm and the right half. -/
theorem joined_stage (zu zm : FVec Ideal ⟨2, ![N, 64]⟩ .f32) (w1 : FVec Ideal ⟨2, ![64, 128]⟩ .f32)
    (hcat : Shape.Concatenates [(⟨2, ![N, 64]⟩ : Shape), ⟨2, ![N, 64]⟩] ⟨2, ![N, 128]⟩ 1)
    (ht1 : (⟨2, ![64, 128]⟩ : Shape).Transposes [1, 0] ⟨2, ![128, 64]⟩) (p : Fin N) (k : Fin 64) :
    (Host.dotGeneral (F := Ideal) D1 none (concatenate ⟨2, ![N, 128]⟩ 1 [⟨⟨2, ![N, 64]⟩, zu⟩, ⟨⟨2, ![N, 64]⟩, zm⟩] hcat) (transpose ⟨2, ![128, 64]⟩ [1, 0] w1 ht1)) (ix2 p k) = prodAt zu (w1Left w1) p k + prodAt zm (w1Right w1) p k := by
  refine (Cert.LibDot.dotGeneral_apply D1 h1r h1s h1l0 h1l1 h1r0 h1r1 none _ (concatenate ⟨2, ![N, 128]⟩ 1 [⟨⟨2, ![N, 64]⟩, zu⟩, ⟨⟨2, ![N, 64]⟩, zm⟩] hcat) (transpose ⟨2, ![128, 64]⟩ [1, 0] w1 ht1) p k).trans ?_
  refine (Fin.sum_univ_add (a := 64) (b := 64) (fun j => (concatenate ⟨2, ![N, 128]⟩ 1 [⟨⟨2, ![N, 64]⟩, zu⟩, ⟨⟨2, ![N, 64]⟩, zm⟩] hcat) (ix2 p j) * (transpose ⟨2, ![128, 64]⟩ [1, 0] w1 ht1) (ix2 j k))).trans ?_
  unfold prodAt
  refine congrArg₂ (· + ·) (Finset.sum_congr rfl fun a _ => congrArg₂ (· * ·) ?_ ?_) (Finset.sum_congr rfl fun c _ => congrArg₂ (· * ·) ?_ ?_)
  · exact Cert.LibConcatPair.cols_left zu zm hcat p a (Fin.castAdd 64 a) rfl
  · exact transpose_apply [1, 0] w1 ht1 (ix2 (Fin.castAdd 64 a) k) (ix2 k (Fin.castAdd 64 a)) (fun u => match u with
      | ⟨0, _⟩ => rfl
      | ⟨1, _⟩ => rfl)
  · exact Cert.LibConcatPair.cols_right zu zm hcat p c (Fin.natAdd 64 c) rfl
  · exact transpose_apply [1, 0] w1 ht1 (ix2 (Fin.natAdd 64 c) k) (ix2 k (Fin.natAdd 64 c)) (fun u => match u with
      | ⟨0, _⟩ => rfl
      | ⟨1, _⟩ => rfl)

/-- With the bias row and the rectifier: the decoder's hidden rows. -/
theorem hidden_stage (zu zm : FVec Ideal ⟨2, ![N, 64]⟩ .f32) (w1 : FVec Ideal ⟨2, ![64, 128]⟩ .f32) (b1 : FVec Ideal ⟨1, ![64]⟩ .f32)
    (hcat : Shape.Concatenates [(⟨2, ![N, 64]⟩ : Shape), ⟨2, ![N, 64]⟩] ⟨2, ![N, 128]⟩ 1)
    (ht1 : (⟨2, ![64, 128]⟩ : Shape).Transposes [1, 0] ⟨2, ![128, 64]⟩)
    (h32 : (⟨1, ![64]⟩ : Shape).BroadcastsInDim ⟨2, ![1, 64]⟩ (![1] : Fin 1 → Fin 2))
    (h33 : (⟨2, ![1, 64]⟩ : Shape).BroadcastsInDim ⟨2, ![N, 64]⟩ (![0, 1] : Fin 2 → Fin 2))
    (hz : (⟨0, ![]⟩ : Shape).BroadcastsInDim ⟨2, ![N, 64]⟩ (![] : Fin 0 → Fin 2)) :
    maximumf (addf (Host.dotGeneral (F := Ideal) D1 none (concatenate ⟨2, ![N, 128]⟩ 1 [⟨⟨2, ![N, 64]⟩, zu⟩, ⟨⟨2, ![N, 64]⟩, zm⟩] hcat) (transpose ⟨2, ![128, 64]⟩ [1, 0] w1 ht1)) (broadcastInDim ⟨2, ![N, 64]⟩ ![0, 1] h33 (broadcastInDim ⟨2, ![1, 64]⟩ ![1] h32 b1))) (broadcastInDim ⟨2, ![N, 64]⟩ ![] hz (constant (F := Ideal) ⟨0, ![]⟩ .f32 0x00000000#32))
      = hidden (n := N) (d := 64) (e := 64) zero zu zm (w1Left w1) (w1Right w1) b1 := by
  funext i
  obtain ⟨p, k, rfl⟩ : ∃ (p : Fin N) (k : Fin 64), i = ix2 p k := ⟨i 0, i 1, eq_ix2 i⟩
  have hd := joined_stage D1 h1r h1s h1l0 h1l1 h1r0 h1r1 zu zm w1 hcat ht1 p k
  have hb : (broadcastInDim ⟨2, ![N, 64]⟩ ![0, 1] h33 (broadcastInDim ⟨2, ![1, 64]⟩ ![1] h32 b1)) (ix2 p k) = b1 (ix1 k) :=
    Cert.LibBcastIn.biasRow_apply (n := N) (c := 64) ![1] rfl h32 ![0, 1] rfl rfl h33 b1 p k
  have hf : (broadcastInDim ⟨2, ![N, 64]⟩ ![] hz (constant (F := Ideal) ⟨0, ![]⟩ .f32 0x00000000#32)) (ix2 p k) = zero := Cert.LibBcastIn.scalar_apply _ hz _ _
  rw [hidden_ix2, ← hd, ← hb, ← hf]
  rfl

end JoinedProduct

section ColumnProduct

variable (D2 : DotDims ⟨2, ![N, 64]⟩ ⟨2, ![64, 1]⟩ ⟨2, ![N, 1]⟩) (h2r : D2.contr.rank = 1)
  (h2s : D2.contr.size ⟨0, by omega⟩ = 64)
  (h2l0 : ∀ j q, (D2.lhsIdx j q 0).val = (j 0).val) (h2l1 : ∀ j q, (D2.lhsIdx j q 1).val = (q ⟨0, by omega⟩).val)
  (h2r0 : ∀ j q, (D2.rhsIdx j q 0).val = (q ⟨0, by omega⟩).val) (h2r1 : ∀ j q, (D2.rhsIdx j q 1).val = (j 1).val)

include h2r h2s h2l0 h2l1 h2r0 h2r1

/-- The hidden rows through the second matrix as a column, the last bias, and the reshape to one axis: the score of
    every edge. -/
theorem score_tail (zu zm : (⟨2, ![N, 64]⟩ : Shape).Idx → EReal) (w1a w1b : (⟨2, ![64, 64]⟩ : Shape).Idx → EReal)
    (b1 : (⟨1, ![64]⟩ : Shape).Idx → EReal) (w2 : FVec Ideal ⟨2, ![1, 64]⟩ .f32) (b2 : FVec Ideal ⟨1, ![1]⟩ .f32)
    (ht2 : (⟨2, ![1, 64]⟩ : Shape).Transposes [1, 0] ⟨2, ![64, 1]⟩)
    (h42 : (⟨1, ![1]⟩ : Shape).BroadcastsInDim ⟨2, ![1, 1]⟩ (![1] : Fin 1 → Fin 2))
    (h43 : (⟨2, ![1, 1]⟩ : Shape).BroadcastsInDim ⟨2, ![N, 1]⟩ (![0, 1] : Fin 2 → Fin 2))
    (hsc : (⟨2, ![N, 1]⟩ : Shape).ShapeCasts ⟨1, ![N]⟩) :
    shapeCast ⟨1, ![N]⟩ (addf (Host.dotGeneral (F := Ideal) (φ₁ := .f32) D2 none (hidden (n := N) (d := 64) (e := 64) zero zu zm w1a w1b b1) (transpose ⟨2, ![64, 1]⟩ [1, 0] w2 ht2)) (broadcastInDim ⟨2, ![N, 1]⟩ ![0, 1] h43 (broadcastInDim ⟨2, ![1, 1]⟩ ![1] h42 b2))) hsc
      = fun i => score (n := N) (d := 64) (e := 64) zero zu zm w1a w1b b1 (w2Col w2) (b2 (ix1 (0 : Fin 1))) (i 0) := by
  funext i
  obtain ⟨p, rfl⟩ : ∃ p : Fin N, i = ix1 p := ⟨i 0, eq_ix1 i⟩
  -- the reshape to one axis reads column 0 of row p
  refine (shapeCast_apply _ hsc (ix1 p) (ix2 p (0 : Fin 1))
    (by rewrite [Shape.rowMajor_val_two, Shape.rowMajor_val_one]; show p.val * 1 + 0 = p.val; omega)).trans ?_
  show _ = score (n := N) (d := 64) (e := 64) zero zu zm w1a w1b b1 (w2Col w2) (b2 (ix1 (0 : Fin 1))) p
  have hs : Host.dotGeneral (F := Ideal) (φ₁ := .f32) D2 none (hidden (n := N) (d := 64) (e := 64) zero zu zm w1a w1b b1) (transpose ⟨2, ![64, 1]⟩ [1, 0] w2 ht2) (ix2 p (0 : Fin 1)) = prodAt (hidden (n := N) (d := 64) (e := 64) zero zu zm w1a w1b b1) (w2Col w2) p (0 : Fin 1) := by
    refine (Cert.LibDot.dotGeneral_apply D2 h2r h2s h2l0 h2l1 h2r0 h2r1 none _ (φ₁ := .f32) (hidden (n := N) (d := 64) (e := 64) zero zu zm w1a w1b b1) (transpose ⟨2, ![64, 1]⟩ [1, 0] w2 ht2) p (0 : Fin 1)).trans ?_
    unfold prodAt
    refine Finset.sum_congr rfl fun k _ => congrArg ((hidden (n := N) (d := 64) (e := 64) zero zu zm w1a w1b b1) (ix2 p k) * ·) ?_
    exact transpose_apply [1, 0] w2 ht2 (ix2 k (0 : Fin 1)) (ix2 (0 : Fin 1) k) (fun u => match u with
      | ⟨0, _⟩ => rfl
      | ⟨1, _⟩ => rfl)
  have hb2 : (broadcastInDim ⟨2, ![N, 1]⟩ ![0, 1] h43 (broadcastInDim ⟨2, ![1, 1]⟩ ![1] h42 b2)) (ix2 p (0 : Fin 1)) = b2 (ix1 (0 : Fin 1)) :=
    Cert.LibBcastIn.biasRow_apply (n := N) (c := 1) ![1] rfl h42 ![0, 1] rfl rfl h43 b2 p (0 : Fin 1)
  unfold score
  rw [← hs, ← hb2]
  rfl

end ColumnProduct

end Stages

/-- Stage 38 is the layer over 50000 nodes of the stages that feed it. -/
theorem layer_v38 (x0 : (⟨S50000x64, .f32⟩ : BufTy).Contents (Elt Ideal)) (x2 : (⟨S2x2000000, .i32⟩ : BufTy).Contents (Elt Ideal)) (x6 : (⟨S64x64, .f32⟩ : BufTy).Contents (Elt Ideal)) (x7 : (⟨S64, .f32⟩ : BufTy).Contents (Elt Ideal)) (x8 : (⟨S64x64, .f32⟩ : BufTy).Contents (Elt Ideal)) :
    val_main_v38 (F := Ideal) x0 x2 x6 x7 x8
      = layer (n := 50000) (d := 64) (e := 64) one zero (val_main_v20 (F := Ideal) x0 x2) x0 (fun p => val_main_v24 (F := Ideal) x2 (ix1 p))
          (val_main_v30 (F := Ideal) x6) (val_main_v35 (F := Ideal) x8) x7 := by
  unfold val_main_v38 val_main_v37 val_main_v34 val_main_v31 val_main_v29 val_main_v28 val_main_v27 val_main_v26 val_main_v25 val_main_cst_5 val_main_v33 val_main_v32 val_main_v36 val_main_call0_v0 val_main_call0_cst
  exact layer_stage dot_S50000x64_S64x64_S50000x64_1_0_0_1_n_n rfl rfl lhs_main_v31_0 lhs_main_v31_1 rhs_main_v31_0 rhs_main_v31_1
    (val_main_v20 (F := Ideal) x0 x2) (x0) (val_main_v24 (F := Ideal) x2) (val_main_v30 (F := Ideal) x6) (val_main_v35 (F := Ideal) x8) x7
    Gen.bcast_S_S50000 Gen.bcast_S50000_S50000x1_0 Gen.bcast_S50000x1_S50000x64_0_1 Gen.bcast_S64_S1x64_1 Gen.bcast_S1x64_S50000x64_0_1 Gen.bcast_S_S50000x64

/-- Stage 70 is the layer over 100000 nodes of the stages that feed it. -/
theorem layer_v70 (x0 : (⟨S50000x64, .f32⟩ : BufTy).Contents (Elt Ideal)) (x1 : (⟨S100000, .i32⟩ : BufTy).Contents (Elt Ideal)) (x3 : (⟨S2x2000000, .i32⟩ : BufTy).Contents (Elt Ideal)) (x5 : (⟨S100000x64, .f32⟩ : BufTy).Contents (Elt Ideal)) (x9 : (⟨S64x64, .f32⟩ : BufTy).Contents (Elt Ideal)) (x10 : (⟨S64, .f32⟩ : BufTy).Contents (Elt Ideal)) (x11 : (⟨S64x64, .f32⟩ : BufTy).Contents (Elt Ideal)) :
    val_main_v70 (F := Ideal) x0 x1 x3 x5 x9 x10 x11
      = layer (n := 100000) (d := 64) (e := 64) one zero (val_main_v52 (F := Ideal) x0 x3) (val_main_v6 (F := Ideal) x1 x5) (fun p => val_main_v56 (F := Ideal) x3 (ix1 p))
          (val_main_v62 (F := Ideal) x9) (val_main_v67 (F := Ideal) x11) x10 := by
  unfold val_main_v70 val_main_v69 val_main_v66 val_main_v63 val_main_v61 val_main_v60 val_main_v59 val_main_v58 val_main_v57 val_main_cst_11 val_main_v65 val_main_v64 val_main_v68 val_main_call1_v0 val_main_call1_cst
  exact layer_stage dot_S100000x64_S64x64_S100000x64_1_0_0_1_n_n rfl rfl lhs_main_v63_0 lhs_main_v63_1 rhs_main_v63_0 rhs_main_v63_1
    (val_main_v52 (F := Ideal) x0 x3) (val_main_v6 (F := Ideal) x1 x5) (val_main_v56 (F := Ideal) x3) (val_main_v62 (F := Ideal) x9) (val_main_v67 (F := Ideal) x11) x10
    Gen.bcast_S_S100000 Gen.bcast_S100000_S100000x1_0 Gen.bcast_S100000x1_S100000x64_0_1 Gen.bcast_S64_S1x64_1 Gen.bcast_S1x64_S100000x64_0_1 Gen.bcast_S_S100000x64

/-- Stage 102 is the layer over 100000 nodes of the stages that feed it. -/
theorem layer_v102 (x0 : (⟨S50000x64, .f32⟩ : BufTy).Contents (Elt Ideal)) (x1 : (⟨S100000, .i32⟩ : BufTy).Contents (Elt Ideal)) (x2 x3 : (⟨S2x2000000, .i32⟩ : BufTy).Contents (Elt Ideal)) (x5 : (⟨S100000x64, .f32⟩ : BufTy).Contents (Elt Ideal)) (x6 : (⟨S64x64, .f32⟩ : BufTy).Contents (Elt Ideal)) (x7 : (⟨S64, .f32⟩ : BufTy).Contents (Elt Ideal)) (x8 x9 : (⟨S64x64, .f32⟩ : BufTy).Contents (Elt Ideal)) (x10 : (⟨S64, .f32⟩ : BufTy).Contents (Elt Ideal)) (x11 x12 : (⟨S64x64, .f32⟩ : BufTy).Contents (Elt Ideal)) (x13 : (⟨S64, .f32⟩ : BufTy).Contents (Elt Ideal)) (x14 : (⟨S64x64, .f32⟩ : BufTy).Contents (Elt Ideal)) :
    val_main_v102 (F := Ideal) x0 x1 x2 x3 x5 x6 x7 x8 x9 x10 x11 x12 x13 x14
      = layer (n := 100000) (d := 64) (e := 64) one zero (val_main_v84 (F := Ideal) x0 x2 x3 x6 x7 x8) (val_main_v70 (F := Ideal) x0 x1 x3 x5 x9 x10 x11) (fun p => val_main_v88 (F := Ideal) x3 (ix1 p))
          (val_main_v94 (F := Ideal) x12) (val_main_v99 (F := Ideal) x14) x13 := by
  unfold val_main_v102 val_main_v101 val_main_v98 val_main_v95 val_main_v93 val_main_v92 val_main_v91 val_main_v90 val_main_v89 val_main_cst_17 val_main_v97 val_main_v96 val_main_v100 val_main_call2_v0 val_main_call2_cst
  exact layer_stage dot_S100000x64_S64x64_S100000x64_1_0_0_1_n_n rfl rfl lhs_main_v95_0 lhs_main_v95_1 rhs_main_v95_0 rhs_main_v95_1
    (val_main_v84 (F := Ideal) x0 x2 x3 x6 x7 x8) (val_main_v70 (F := Ideal) x0 x1 x3 x5 x9 x10 x11) (val_main_v88 (F := Ideal) x3) (val_main_v94 (F := Ideal) x12) (val_main_v99 (F := Ideal) x14) x13
    Gen.bcast_S_S100000 Gen.bcast_S100000_S100000x1_0 Gen.bcast_S100000x1_S100000x64_0_1 Gen.bcast_S64_S1x64_1 Gen.bcast_S1x64_S100000x64_0_1 Gen.bcast_S_S100000x64

/-- Stage 139 is the layer over 50000 nodes of the stages that feed it. -/
theorem layer_v139 (x0 : (⟨S50000x64, .f32⟩ : BufTy).Contents (Elt Ideal)) (x2 : (⟨S2x2000000, .i32⟩ : BufTy).Contents (Elt Ideal)) (x17 : (⟨S64x64, .f32⟩ : BufTy).Contents (Elt Ideal)) (x18 : (⟨S64, .f32⟩ : BufTy).Contents (Elt Ideal)) (x19 : (⟨S64x64, .f32⟩ : BufTy).Contents (Elt Ideal)) :
    val_main_v139 (F := Ideal) x0 x2 x17 x18 x19
      = layer (n := 50000) (d := 64) (e := 64) one zero (val_main_v121 (F := Ideal) x0 x2) x0 (fun p => val_main_v125 (F := Ideal) x2 (ix1 p))
          (val_main_v131 (F := Ideal) x17) (val_main_v136 (F := Ideal) x19) x18 := by
  unfold val_main_v139 val_main_v138 val_main_v135 val_main_v132 val_main_v130 val_main_v129 val_main_v128 val_main_v127 val_main_v126 val_main_cst_23 val_main_v134 val_main_v133 val_main_v137 val_main_call3_v0 val_main_call3_cst
  exact layer_stage dot_S50000x64_S64x64_S50000x64_1_0_0_1_n_n rfl rfl lhs_main_v132_0 lhs_main_v132_1 rhs_main_v132_0 rhs_main_v132_1
    (val_main_v121 (F := Ideal) x0 x2) (x0) (val_main_v125 (F := Ideal) x2) (val_main_v131 (F := Ideal) x17) (val_main_v136 (F := Ideal) x19) x18
    Gen.bcast_S_S50000 Gen.bcast_S50000_S50000x1_0 Gen.bcast_S50000x1_S50000x64_0_1 Gen.bcast_S64_S1x64_1 Gen.bcast_S1x64_S50000x64_0_1 Gen.bcast_S_S50000x64

/-- Stage 171 is the layer over 50000 nodes of the stages that feed it. -/
theorem layer_v171 (x0 : (⟨S50000x64, .f32⟩ : BufTy).Contents (Elt Ideal)) (x2 : (⟨S2x2000000, .i32⟩ : BufTy).Contents (Elt Ideal)) (x17 : (⟨S64x64, .f32⟩ : BufTy).Contents (Elt Ideal)) (x18 : (⟨S64, .f32⟩ : BufTy).Contents (Elt Ideal)) (x19 x20 : (⟨S64x64, .f32⟩ : BufTy).Contents (Elt Ideal)) (x21 : (⟨S64, .f32⟩ : BufTy).Contents (Elt Ideal)) (x22 : (⟨S64x64, .f32⟩ : BufTy).Contents (Elt Ideal)) :
    val_main_v171 (F := Ideal) x0 x2 x17 x18 x19 x20 x21 x22
      = layer (n := 50000) (d := 64) (e := 64) one zero (val_main_v153 (F := Ideal) x0 x2 x17 x18 x19) (val_main_v139 (F := Ideal) x0 x2 x17 x18 x19) (fun p => val_main_v157 (F := Ideal) x2 (ix1 p))
          (val_main_v163 (F := Ideal) x20) (val_main_v168 (F := Ideal) x22) x21 := by
  unfold val_main_v171 val_main_v170 val_main_v167 val_main_v164 val_main_v162 val_main_v161 val_main_v160 val_main_v159 val_main_v158 val_main_cst_29 val_main_v166 val_main_v165 val_main_v169 val_main_call4_v0 val_main_call4_cst
  exact layer_stage dot_S50000x64_S64x64_S50000x64_1_0_0_1_n_n rfl rfl lhs_main_v164_0 lhs_main_v164_1 rhs_main_v164_0 rhs_main_v164_1
    (val_main_v153 (F := Ideal) x0 x2 x17 x18 x19) (val_main_v139 (F := Ideal) x0 x2 x17 x18 x19) (val_main_v157 (F := Ideal) x2) (val_main_v163 (F := Ideal) x20) (val_main_v168 (F := Ideal) x22) x21
    Gen.bcast_S_S50000 Gen.bcast_S50000_S50000x1_0 Gen.bcast_S50000x1_S50000x64_0_1 Gen.bcast_S64_S1x64_1 Gen.bcast_S1x64_S50000x64_0_1 Gen.bcast_S_S50000x64

/-- Stage 107 is the affine map of stage 102. -/
theorem affine_v107 (x0 : (⟨S50000x64, .f32⟩ : BufTy).Contents (Elt Ideal)) (x1 : (⟨S100000, .i32⟩ : BufTy).Contents (Elt Ideal)) (x2 x3 : (⟨S2x2000000, .i32⟩ : BufTy).Contents (Elt Ideal)) (x5 : (⟨S100000x64, .f32⟩ : BufTy).Contents (Elt Ideal)) (x6 : (⟨S64x64, .f32⟩ : BufTy).Contents (Elt Ideal)) (x7 : (⟨S64, .f32⟩ : BufTy).Contents (Elt Ideal)) (x8 x9 : (⟨S64x64, .f32⟩ : BufTy).Contents (Elt Ideal)) (x10 : (⟨S64, .f32⟩ : BufTy).Contents (Elt Ideal)) (x11 x12 : (⟨S64x64, .f32⟩ : BufTy).Contents (Elt Ideal)) (x13 : (⟨S64, .f32⟩ : BufTy).Contents (Elt Ideal)) (x14 x15 : (⟨S64x64, .f32⟩ : BufTy).Contents (Elt Ideal)) (x16 : (⟨S64, .f32⟩ : BufTy).Contents (Elt Ideal)) :
    val_main_v107 (F := Ideal) x0 x1 x2 x3 x5 x6 x7 x8 x9 x10 x11 x12 x13 x14 x15 x16 = affine (n := 100000) (d := 64) (e := 64) (val_main_v102 (F := Ideal) x0 x1 x2 x3 x5 x6 x7 x8 x9 x10 x11 x12 x13 x14) (val_main_v103 (F := Ideal) x15) x16 := by
  unfold val_main_v107 val_main_v104 val_main_v106 val_main_v105
  exact affine_stage dot_S100000x64_S64x64_S100000x64_1_0_0_1_n_n rfl rfl lhs_main_v104_0 lhs_main_v104_1 rhs_main_v104_0 rhs_main_v104_1
    (val_main_v102 (F := Ideal) x0 x1 x2 x3 x5 x6 x7 x8 x9 x10 x11 x12 x13 x14) (val_main_v103 (F := Ideal) x15) x16 Gen.bcast_S64_S1x64_1 Gen.bcast_S1x64_S100000x64_0_1

/-- Stage 176 is the affine map of stage 171. -/
theorem affine_v176 (x0 : (⟨S50000x64, .f32⟩ : BufTy).Contents (Elt Ideal)) (x2 : (⟨S2x2000000, .i32⟩ : BufTy).Contents (Elt Ideal)) (x17 : (⟨S64x64, .f32⟩ : BufTy).Contents (Elt Ideal)) (x18 : (⟨S64, .f32⟩ : BufTy).Contents (Elt Ideal)) (x19 x20 : (⟨S64x64, .f32⟩ : BufTy).Contents (Elt Ideal)) (x21 : (⟨S64, .f32⟩ : BufTy).Contents (Elt Ideal)) (x22 x23 : (⟨S64x64, .f32⟩ : BufTy).Contents (Elt Ideal)) (x24 : (⟨S64, .f32⟩ : BufTy).Contents (Elt Ideal)) :
    val_main_v176 (F := Ideal) x0 x2 x17 x18 x19 x20 x21 x22 x23 x24 = affine (n := 50000) (d := 64) (e := 64) (val_main_v171 (F := Ideal) x0 x2 x17 x18 x19 x20 x21 x22) (val_main_v172 (F := Ideal) x23) x24 := by
  unfold val_main_v176 val_main_v173 val_main_v175 val_main_v174
  exact affine_stage dot_S50000x64_S64x64_S50000x64_1_0_0_1_n_n rfl rfl lhs_main_v173_0 lhs_main_v173_1 rhs_main_v173_0 rhs_main_v173_1
    (val_main_v171 (F := Ideal) x0 x2 x17 x18 x19 x20 x21 x22) (val_main_v172 (F := Ideal) x23) x24 Gen.bcast_S64_S1x64_1 Gen.bcast_S1x64_S50000x64_0_1

/-- The result: the score of every edge from the two gathered arrays of end-point rows. -/
theorem score_v207 (x0 : (⟨S50000x64, .f32⟩ : BufTy).Contents (Elt Ideal)) (x1 : (⟨S100000, .i32⟩ : BufTy).Contents (Elt Ideal)) (x2 x3 : (⟨S2x2000000, .i32⟩ : BufTy).Contents (Elt Ideal)) (x4 : (⟨S2x1000000, .i32⟩ : BufTy).Contents (Elt Ideal)) (x5 : (⟨S100000x64, .f32⟩ : BufTy).Contents (Elt Ideal)) (x6 : (⟨S64x64, .f32⟩ : BufTy).Contents (Elt Ideal)) (x7 : (⟨S64, .f32⟩ : BufTy).Contents (Elt Ideal)) (x8 x9 : (⟨S64x64, .f32⟩ : BufTy).Contents (Elt Ideal)) (x10 : (⟨S64, .f32⟩ : BufTy).Contents (Elt Ideal)) (x11 x12 : (⟨S64x64, .f32⟩ : BufTy).Contents (Elt Ideal)) (x13 : (⟨S64, .f32⟩ : BufTy).Contents (Elt Ideal)) (x14 x15 : (⟨S64x64, .f32⟩ : BufTy).Contents (Elt Ideal)) (x16 : (⟨S64, .f32⟩ : BufTy).Contents (Elt Ideal)) (x17 : (⟨S64x64, .f32⟩ : BufTy).Contents (Elt Ideal)) (x18 : (⟨S64, .f32⟩ : BufTy).Contents (Elt Ideal)) (x19 x20 : (⟨S64x64, .f32⟩ : BufTy).Contents (Elt Ideal)) (x21 : (⟨S64, .f32⟩ : BufTy).Contents (Elt Ideal)) (x22 x23 : (⟨S64x64, .f32⟩ : BufTy).Contents (Elt Ideal)) (x24 : (⟨S64, .f32⟩ : BufTy).Contents (Elt Ideal)) (x25 : (⟨S64x128, .f32⟩ : BufTy).Contents (Elt Ideal)) (x26 : (⟨S64, .f32⟩ : BufTy).Contents (Elt Ideal)) (x27 : (⟨S1x64, .f32⟩ : BufTy).Contents (Elt Ideal)) (x28 : (⟨S1, .f32⟩ : BufTy).Contents (Elt Ideal)) :
    val_main_v207 (F := Ideal) x0 x1 x2 x3 x4 x5 x6 x7 x8 x9 x10 x11 x12 x13 x14 x15 x16 x17 x18 x19 x20 x21 x22 x23 x24 x25 x26 x27 x28
      = fun i => score (n := 1000000) (d := 64) (e := 64) zero (val_main_v187 (F := Ideal) x0 x1 x2 x3 x4 x5 x6 x7 x8 x9 x10 x11 x12 x13 x14 x15 x16) (val_main_v194 (F := Ideal) x0 x2 x4 x17 x18 x19 x20 x21 x22 x23 x24)
          (w1Left x25) (w1Right x25) x26 (w2Col x27) (x28 (ix1 (0 : Fin 1))) (i 0) := by
  -- the hidden rows
  have hh : val_main_v201 (F := Ideal) x0 x1 x2 x3 x4 x5 x6 x7 x8 x9 x10 x11 x12 x13 x14 x15 x16 x17 x18 x19 x20 x21 x22 x23 x24 x25 x26 = hidden (n := 1000000) (d := 64) (e := 64) zero (val_main_v187 (F := Ideal) x0 x1 x2 x3 x4 x5 x6 x7 x8 x9 x10 x11 x12 x13 x14 x15 x16) (val_main_v194 (F := Ideal) x0 x2 x4 x17 x18 x19 x20 x21 x22 x23 x24) (w1Left x25) (w1Right x25) x26 := by
    unfold val_main_v201 val_main_v200 val_main_v197 val_main_v195 val_main_v196 val_main_v199 val_main_v198 val_main_call5_v0 val_main_call5_cst
    exact hidden_stage dot_S1000000x128_S128x64_S1000000x64_1_0_0_1_n_n rfl rfl lhs_main_v197_0 lhs_main_v197_1 rhs_main_v197_0 rhs_main_v197_1
      (val_main_v187 (F := Ideal) x0 x1 x2 x3 x4 x5 x6 x7 x8 x9 x10 x11 x12 x13 x14 x15 x16) (val_main_v194 (F := Ideal) x0 x2 x4 x17 x18 x19 x20 x21 x22 x23 x24) x25 x26
      Gen.concatenates_S1000000x64_S1000000x64_S1000000x128_d1 Gen.transposes_S64x128_S128x64_1_0 Gen.bcast_S64_S1x64_1 Gen.bcast_S1x64_S1000000x64_0_1 Gen.bcast_S_S1000000x64
  unfold val_main_v207 val_main_v206 val_main_v203 val_main_v202 val_main_v205 val_main_v204
  rw [hh]
  exact score_tail dot_S1000000x64_S64x1_S1000000x1_1_0_0_1_n_n rfl rfl lhs_main_v203_0 lhs_main_v203_1 rhs_main_v203_0 rhs_main_v203_1
    (val_main_v187 (F := Ideal) x0 x1 x2 x3 x4 x5 x6 x7 x8 x9 x10 x11 x12 x13 x14 x15 x16) (val_main_v194 (F := Ideal) x0 x2 x4 x17 x18 x19 x20 x21 x22 x23 x24) (w1Left x25) (w1Right x25) x26 x27 x28
    Gen.transposes_S1x64_S64x1_1_0 Gen.bcast_S1_S1x1_1 Gen.bcast_S1x1_S1000000x1_0_1 Gen.shapeCasts_S1000000x1_S1000000

end Cert.ReferenceIdeal.Layers

end
-- ==== Proof.Chase0.lean ====
/-
  The kernel program's first layer, read through its host operations.

  The contents of a buffer at a point of @main are read back through the chain: a host operation's result buffer holds
  its function of its operands' contents, every other buffer keeps what it held, and a region changes its own arrays
  only.  Read this way, the six arrays region 0 is entered with are: the neighbourhood sums of the movie features over
  the movie-to-movie edges, padded with zero rows; the in-degree counts, as a padded column; the movie features, padded;
  the two weight matrices transposed; the bias as a row.  These are the operands of the specification's layer over
  padded rows, so the region's output, cut back to 50000 rows, is the reference's first layer stage.
-/
import proofs.«169258_j68762426409614_2_alg».proof.Proof.Gen.KernelIdeal.Frame
import proofs.«169258_j68762426409614_2_alg».proof.Proof.Region0
import proofs.«169258_j68762426409614_2_alg».proof.Proof.Glue
import proofs.«169258_j68762426409614_2_alg».proof.Proof.RefLayers
import Idealize.ShloMosaic.Lib.StableHlo.Run
import Idealize.ShloMosaic.PureOps.Ideal

set_option maxRecDepth 16384

noncomputable section

namespace Cert.KernelIdeal.Chase

open Cert.KernelIdeal Cert.KernelIdeal.Gen Idealize.ShloMosaic Idealize.ShloMosaic.TcCoe Idealize.SL.Sem Idealize.ShloMosaic.StableHlo
open Idealize.ShloMosaic.ValueIdx Cert.Sage Cert.LibAffineLayer Cert.KernelIdeal.Blocks
open Cert.ReferenceIdeal.Read

section
variable {F : FTy → Type} [FloatOps F]
variable (m : (ℓ : Loc nD τ sig) → Buf (Elt F) ℓ) (ρ : Dev nD → PrngReg)
theorem W8_of_ne' (c : Dev nD) (b : Ref sig .tc) (hb : ∀ w, Pipeline.arrRef spec0 w ≠ b) :
    W8 (F := F) m ρ c (no_index (Proc.devRef .tc b)) = W7 m ρ c (Proc.devRef .tc b) := W8_of_ne m ρ c b hb
theorem W16_of_ne' (c : Dev nD) (b : Ref sig .tc) (hb : ∀ w, Pipeline.arrRef spec1 w ≠ b) :
    W16 (F := F) m ρ c (no_index (Proc.devRef .tc b)) = W15 m ρ c (Proc.devRef .tc b) := W16_of_ne m ρ c b hb
theorem W24_of_ne' (c : Dev nD) (b : Ref sig .tc) (hb : ∀ w, Pipeline.arrRef spec2 w ≠ b) :
    W24 (F := F) m ρ c (no_index (Proc.devRef .tc b)) = W23 m ρ c (Proc.devRef .tc b) := W24_of_ne m ρ c b hb
theorem W32_of_ne' (c : Dev nD) (b : Ref sig .tc) (hb : ∀ w, Pipeline.arrRef spec3 w ≠ b) :
    W32 (F := F) m ρ c (no_index (Proc.devRef .tc b)) = W31 m ρ c (Proc.devRef .tc b) := W32_of_ne m ρ c b hb
theorem W40_of_ne' (c : Dev nD) (b : Ref sig .tc) (hb : ∀ w, Pipeline.arrRef spec4 w ≠ b) :
    W40 (F := F) m ρ c (no_index (Proc.devRef .tc b)) = W39 m ρ c (Proc.devRef .tc b) := W40_of_ne m ρ c b hb
theorem W46_of_ne' (c : Dev nD) (b : Ref sig .tc) (hb : ∀ w, Pipeline.arrRef spec5 w ≠ b) :
    W46 (F := F) m ρ c (no_index (Proc.devRef .tc b)) = W45 m ρ c (Proc.devRef .tc b) := W46_of_ne m ρ c b hb
end

variable (m : (ℓ : Loc nD τ sig) → Buf (Elt Ideal) ℓ) (ρ : Dev nD → PrngReg)

/-- An argument array's launch contents. -/
abbrev arg (b : Ref sig .tc) (c : Dev nD) : Buf (Elt Ideal) ((c : Thread nD τ).loc b) := m ((c : Thread nD τ).loc b)

/-- The value a padding fills with: the integer 0 converted. -/
abbrev zf : FVec Ideal S_ .f32 := sitofp .f32 (constantI S_ 32 0#32)

/-- Reads a buffer through the chain of host stretches and regions: each operation's result at its own buffer is its
    function of its operands' contents, any other buffer keeps its contents, and a region leaves every buffer that is not
    one of its arrays as it found it. What is left are the launch contents and the regions' output arrays. -/
macro "chase" : tactic =>
  `(tactic| (simp (disch := decide) only [W1, W2, W3, W4, W5, W6, W7, W9, W10, W11, W12, W13, W14, W15, W17, W18, W19, W20, W21, W22, W23, W25, W26, W27, W28, W29, W30, W31, W33, W34, W35, W36, W37, W38, W39, W41, W42, W43, W44, W45, W47, V7, V15, V23, V31, V39, V45,
      hostOps0, hostOps0_1, hostOps0_2, hostOps0_3, hostOps0_4, hostOps0_5, hostOps0_6, hostOps1, hostOps1_1, hostOps1_2, hostOps1_3, hostOps1_4, hostOps1_5, hostOps1_6, hostOps2, hostOps2_1, hostOps2_2, hostOps2_3, hostOps2_4, hostOps2_5, hostOps2_6, hostOps3, hostOps3_1, hostOps3_2, hostOps3_3, hostOps3_4, hostOps3_5, hostOps3_6, hostOps4, hostOps4_1, hostOps4_2, hostOps4_3, hostOps4_4, hostOps4_5, hostOps4_6, hostOps5, hostOps5_1, hostOps5_2, hostOps5_3, hostOps5_4, hostOps6,
      StableHlo.after_cons, StableHlo.after_nil,
      StableHlo.nullary_result', StableHlo.unary_result', StableHlo.binary_result', StableHlo.ternary_result', StableHlo.quaternary_result', StableHlo.reshape_result',
      StableHlo.nullary_result_ne', StableHlo.unary_result_ne', StableHlo.binary_result_ne', StableHlo.ternary_result_ne', StableHlo.quaternary_result_ne', StableHlo.reshape_result_ne',
      W8_of_ne', W16_of_ne', W24_of_ne', W32_of_ne', W40_of_ne', W46_of_ne']))

/-! ## Region 0's operands -/

theorem in0_s (c : Dev nD) : V7 m ρ c main_v35
    = pad S53248x64 ![0, 0] ![3248, 0] ![0, 0] (val_main_v20 (F := Ideal) (arg m main_arg0 c) (arg m main_arg2 c)) zf pads_S50000x64_S53248x64_032480_000 h_S_ := by
  chase
  refine congrArg (fun X => pad S53248x64 ![0, 0] ![3248, 0] ![0, 0] X zf pads_S50000x64_S53248x64_032480_000 h_S_)
    (?_ : _ = val_main_v20 (F := Ideal) (arg m main_arg0 c) (arg m main_arg2 c))
  rfl

theorem in0_cnt (c : Dev nD) : V7 m ρ c main_v37
    = pad S53248x1 ![0, 0] ![3248, 0] ![0, 0] (shapeCast S50000x1 (val_main_v24 (F := Ideal) (arg m main_arg2 c)) shapeCasts_S50000_S50000x1) zf pads_S50000x1_S53248x1_032480_000 h_S_ := by
  chase
  refine congrArg (fun Y => pad S53248x1 ![0, 0] ![3248, 0] ![0, 0] Y zf pads_S50000x1_S53248x1_032480_000 h_S_)
    (?_ : _ = shapeCast S50000x1 (val_main_v24 (F := Ideal) (arg m main_arg2 c)) shapeCasts_S50000_S50000x1)
  refine congrArg (fun X => shapeCast S50000x1 X shapeCasts_S50000_S50000x1) (?_ : _ = val_main_v24 (F := Ideal) (arg m main_arg2 c))
  rfl

theorem in0_x (c : Dev nD) : V7 m ρ c main_v38
    = pad S53248x64 ![0, 0] ![3248, 0] ![0, 0] (arg m main_arg0 c) zf pads_S50000x64_S53248x64_032480_000 h_S_ := by
  chase; rfl

theorem in0_wl (c : Dev nD) : V7 m ρ c main_v33 = val_main_v30 (F := Ideal) (arg m main_arg6 c) := by
  chase; rfl

theorem in0_wr (c : Dev nD) : V7 m ρ c main_v34 = val_main_v35 (F := Ideal) (arg m main_arg8 c) := by
  chase; rfl

theorem in0_b (c : Dev nD) : V7 m ρ c main_v39 = shapeCast S1x64 (arg m main_arg7 c) shapeCasts_S64_S1x64 := by
  chase; rfl

/-! ## Its output, cut back to the 50000 movies -/

/-- The first layer of the user encoder: the movies' hidden rows. -/
theorem layer0 (c : Dev nD) :
    extractStridedSlice S50000x64 ![0, 0] (W8 m ρ c (Proc.devRef .tc main_v40)) slices_S53248x64_S50000x64_0_0
      = val_main_v38 (F := Ideal) (arg m main_arg0 c) (arg m main_arg2 c) (arg m main_arg6 c) (arg m main_arg7 c) (arg m main_arg8 c) := by
  rw [show W8 m ρ c (Proc.devRef .tc main_v40) = Region0.out (V7 m ρ) c from (W8_arr m ρ c 6).trans (Region0.arr (V7 m ρ) c)]
  unfold Region0.out
  rw [in0_s, in0_cnt, in0_x, in0_wl, in0_wr, in0_b]
  exact (Glue.slice_padded (n := 50000) (R := 53248) (d := 64) _ _ _ _ _ _ (zf) h_S_ _ _ pads_S50000x64_S53248x64_032480_000
    pads_S50000x1_S53248x1_032480_000 shapeCasts_S50000_S50000x1 shapeCasts_S64_S1x64 slices_S53248x64_S50000x64_0_0 (by decide)).trans
    (Cert.ReferenceIdeal.Layers.layer_v38 _ _ _ _ _).symm

end Cert.KernelIdeal.Chase

end
-- ==== Proof.Region1.lean ====
/-
  The array region 1 leaves: a mean-aggregating layer over the 102400 rows of the zero-padded operands.

  The grid has 25 points; point t stages rows 4096·t … 4096·t + 4095 of the row-indexed operands and the whole of the weight
  and bias arrays, runs the body on them and writes its 4096 output rows back to the same rows of the output array.  The
  body's block at (p, q) is the layer's entry on the block's rows; an entry of a layer reads one row of its operands; so
  block t of the output is rows 4096·t … of the layer over the whole padded arrays.  The 25 blocks tile the output
  (row r lies in block r / 4096), so after the last point the output array is that layer, whatever it held before.
-/
import proofs.«169258_j68762426409614_2_alg».proof.Proof.Gen.KernelIdeal.Frame
import proofs.«169258_j68762426409614_2_alg».proof.Proof.Blocks

set_option maxRecDepth 16384

noncomputable section

namespace Cert.KernelIdeal.Region1

open Cert.KernelIdeal Cert.KernelIdeal.Gen Cert.KernelIdeal.Blocks Idealize.ShloMosaic Idealize.ShloMosaic.TcCoe Idealize.ShloMosaic.ValueIdx Cert.Sage
open Cert.LibAffineLayer Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- What the region's output array holds after the last point, as one function of the arrays the region finds. -/
def out (c : Dev nD) : S102400x64.Idx → EReal :=
  layer (n := 102400) (d := 64) (e := 64) one zero (V c main_v58) (V c main_v61) (countsOf (V c main_v60)) (V c main_v56) (V c main_v57) (biasOf (V c main_v62))

/-- The windows' index maps over the grid: the row-indexed windows move with the point, the others stay. -/
theorem idx_facts : ∀ t : Fin cfg1.N,
    win1_0.index t (0 : Fin 2) = t.val
    ∧ win1_0.index t (1 : Fin 2) = 0
    ∧ win1_1.index t (0 : Fin 2) = t.val
    ∧ win1_1.index t (1 : Fin 2) = 0
    ∧ win1_2.index t (0 : Fin 2) = t.val
    ∧ win1_2.index t (1 : Fin 2) = 0
    ∧ win1_3.index t (0 : Fin 2) = 0
    ∧ win1_3.index t (1 : Fin 2) = 0
    ∧ win1_4.index t (0 : Fin 2) = 0
    ∧ win1_4.index t (1 : Fin 2) = 0
    ∧ win1_5.index t (0 : Fin 2) = 0
    ∧ win1_5.index t (1 : Fin 2) = 0
    ∧ win1_6.index t (0 : Fin 2) = t.val
    ∧ win1_6.index t (1 : Fin 2) = 0 :=
  (by decide +kernel : ∀ t : Fin grid1.N, _)

/-- What point t writes back is block t of the array `out`. -/
theorem flushed_eq (c : Dev nD) (t : Fin cfg1.N) :
    (dat1 (F := Ideal) V c).flushed 6 t = ((cfg1.win 6).blk t).view.read (Elt Ideal) (out V c) := by
  show (cfg1.win 6).cut (grid1.coords t) ((dat1 (F := Ideal) V c).after 6 t) = _
  rw [after1_6]
  unfold out1_6
  rw [View.canon_unit_zero hz]
  simp only [View.ld_unit_zero (S := S4096x64) hz, View.ld_unit_zero (S := S4096x1) hz, View.ld_unit_zero (S := S64x64) hz, View.ld_unit_zero (S := S1x64) hz]
  obtain ⟨e00, e01, e10, e11, e20, e21, e30, e31, e40, e41, e50, e51, e60, e61⟩ := idx_facts t
  have ht : t.val < 25 := lt_of_lt_of_eq t.isLt N_1
  funext j
  obtain ⟨p, q, rfl⟩ : ∃ (p : Fin 4096) (q : Fin 64), j = ix2 p q := ⟨j 0, j 1, eq_ix2 j⟩
  have hp : p.val < 4096 := p.isLt
  have hq : q.val < 64 := q.isLt
  show k1_pay1 (F := Ideal) (iblk1 V c 1 t) (iblk1 V c 0 t) (iblk1 V c 2 t) (iblk1 V c 3 t) (iblk1 V c 5 t) (iblk1 V c 4 t) (ix2 p q) = out V c (((cfg1.win 6).blk t).view.emb (ix2 p q))
  refine ((congrFun (congrFun (congrFun (congrFun (congrFun (congrFun (congrFun k1_eq _) _) _) _) _) _) _).trans (combine_at (iblk1 V c 1 t) (iblk1 V c 0 t) (iblk1 V c 2 t) (iblk1 V c 3 t) (iblk1 V c 5 t) (iblk1 V c 4 t) p q)).trans ?_
  have he : ((cfg1.win 6).blk t).view.emb (ix2 p q) = ix2 (⟨t.val * 4096 + p.val, by omega⟩ : Fin 102400) q := funext fun a => Fin.ext (by
    match a with
    | ⟨0, _⟩ => show win1_6.index t (0 : Fin 2) * 4096 + 1 * p.val = t.val * 4096 + p.val; omega
    | ⟨1, _⟩ => show win1_6.index t (1 : Fin 2) * 64 + 1 * q.val = q.val; omega)
  rw [he]
  have c3 : ((iblk1 V c 3 t) : S64x64.Idx → EReal) = (V c main_v56) := funext fun y => congrArg (V c main_v56) (funext fun a => Fin.ext (by
    match a with
    | ⟨0, _⟩ => show win1_3.index t (0 : Fin 2) * 64 + 1 * (y 0).val = (y 0).val; omega
    | ⟨1, _⟩ => show win1_3.index t (1 : Fin 2) * 64 + 1 * (y 1).val = (y 1).val; omega))
  have c4 : ((iblk1 V c 4 t) : S1x64.Idx → EReal) = (V c main_v62) := funext fun y => congrArg (V c main_v62) (funext fun a => Fin.ext (by
    match a with
    | ⟨0, _⟩ => show win1_4.index t (0 : Fin 2) * 1 + 1 * (y 0).val = (y 0).val; omega
    | ⟨1, _⟩ => show win1_4.index t (1 : Fin 2) * 64 + 1 * (y 1).val = (y 1).val; omega))
  have c5 : ((iblk1 V c 5 t) : S64x64.Idx → EReal) = (V c main_v57) := funext fun y => congrArg (V c main_v57) (funext fun a => Fin.ext (by
    match a with
    | ⟨0, _⟩ => show win1_5.index t (0 : Fin 2) * 64 + 1 * (y 0).val = (y 0).val; omega
    | ⟨1, _⟩ => show win1_5.index t (1 : Fin 2) * 64 + 1 * (y 1).val = (y 1).val; omega))
  unfold out
  rw [c3, c4, c5]
  exact layer_rows one zero _ _ _ (V c main_v58) (V c main_v61) (countsOf (V c main_v60)) _ _ _ p (⟨t.val * 4096 + p.val, by omega⟩ : Fin 102400) q
    (fun k => congrArg (V c main_v58) (funext fun a => Fin.ext (by
      match a with
      | ⟨0, _⟩ => show win1_0.index t (0 : Fin 2) * 4096 + 1 * p.val = t.val * 4096 + p.val; omega
      | ⟨1, _⟩ => show win1_0.index t (1 : Fin 2) * 64 + 1 * k.val = k.val; omega)))
    (fun k => congrArg (V c main_v61) (funext fun a => Fin.ext (by
      match a with
      | ⟨0, _⟩ => show win1_2.index t (0 : Fin 2) * 4096 + 1 * p.val = t.val * 4096 + p.val; omega
      | ⟨1, _⟩ => show win1_2.index t (1 : Fin 2) * 64 + 1 * k.val = k.val; omega)))
    (congrArg (V c main_v60) (funext fun a => Fin.ext (by
      match a with
      | ⟨0, _⟩ => show win1_1.index t (0 : Fin 2) * 4096 + 1 * p.val = t.val * 4096 + p.val; omega
      | ⟨1, _⟩ => show win1_1.index t (1 : Fin 2) * 1 + 1 * 0 = 0; omega)))

/-- An index of the output array lies in point t's block iff each coordinate lies in the block's range. -/
theorem mem_blk (t : Fin cfg1.N) (i : S102400x64.Idx) :
    i ∈ ((cfg1.win 6).blk t).view.set ↔ ∀ a : Fin 2, win1_6.index t a * S4096x64.size a ≤ (i a).val ∧ (i a).val < win1_6.index t a * S4096x64.size a + S4096x64.size a := by
  show i ∈ ((View.whole main_v63).slice (win1_6.rect t)).set ↔ _
  rw [View.set_slice_whole, Rect.mem_set_unit]
  exact Iff.rfl

/-- Every index of the output array lies in some point's block: row r in block r / 4096. -/
theorem cover (i : S102400x64.Idx) :
    ∃ t : Fin cfg1.N, (cfg1.win 6).flush t = true ∧ i ∈ ((cfg1.win 6).blk t).view.set := by
  have hi0 : (i 0).val < 102400 := (i 0).isLt
  have hi1 : (i 1).val < 64 := (i 1).isLt
  have hN : (i 0).val / 4096 < cfg1.N := by
    show (i 0).val / 4096 < grid1.N
    rw [N_1]; omega
  refine ⟨⟨(i 0).val / 4096, hN⟩, flush1_6 _, ?_⟩
  have hf := idx_facts ⟨(i 0).val / 4096, hN⟩
  have f0 : win1_6.index ⟨(i 0).val / 4096, hN⟩ (0 : Fin 2) = (i 0).val / 4096 := hf.2.2.2.2.2.2.2.2.2.2.2.2.1
  have f1 : win1_6.index ⟨(i 0).val / 4096, hN⟩ (1 : Fin 2) = 0 := hf.2.2.2.2.2.2.2.2.2.2.2.2.2
  rw [mem_blk]
  intro a
  match a with
  | ⟨0, _⟩ =>
    show win1_6.index ⟨(i 0).val / 4096, hN⟩ (0 : Fin 2) * 4096 ≤ (i 0).val ∧ (i 0).val < win1_6.index ⟨(i 0).val / 4096, hN⟩ (0 : Fin 2) * 4096 + 4096
    rw [f0]; omega
  | ⟨1, _⟩ =>
    show win1_6.index ⟨(i 0).val / 4096, hN⟩ (1 : Fin 2) * 64 ≤ (i 1).val ∧ (i 1).val < win1_6.index ⟨(i 0).val / 4096, hN⟩ (1 : Fin 2) * 64 + 64
    rw [f1]; omega

/-- The output array after the region's last point. -/
theorem arr (c : Dev nD) : (dat1 (F := Ideal) V c).arrAt 6 cfg1.N = out V c :=
  (dat1 (F := Ideal) V c).arrAt_eq_of_cover 6 (out V c) (fun t _ => flushed_eq V c t) cover

end Cert.KernelIdeal.Region1

end
-- ==== Proof.Chase1.lean ====
/-
  The kernel program's second layer: the users' first hidden rows.

  Region 1 is entered with the neighbourhood sums of the movie features over the movie-to-user edges, the users'
  in-degree counts, the users' embedding rows looked up by their ids, and the second layer's weights and bias — each
  padded or laid out as the region's windows want it.  Its output, cut back to 100000 rows, is the reference's stage for
  the users' first hidden rows.
-/
import proofs.«169258_j68762426409614_2_alg».proof.Proof.Chase0
import proofs.«169258_j68762426409614_2_alg».proof.Proof.Region1
import Idealize.ShloMosaic.Lib.StableHlo.Run
import Idealize.ShloMosaic.PureOps.Ideal

set_option maxRecDepth 16384

noncomputable section

namespace Cert.KernelIdeal.Chase

open Cert.KernelIdeal Cert.KernelIdeal.Gen Idealize.ShloMosaic Idealize.ShloMosaic.TcCoe Idealize.SL.Sem Idealize.ShloMosaic.StableHlo
open Idealize.ShloMosaic.ValueIdx Cert.Sage Cert.LibAffineLayer Cert.KernelIdeal.Blocks
open Cert.ReferenceIdeal.Read

variable (m : (ℓ : Loc nD τ sig) → Buf (Elt Ideal) ℓ) (ρ : Dev nD → PrngReg)

/-! ## Region 1's operands -/

theorem in1_s (c : Dev nD) : V15 m ρ c main_v58
    = pad S102400x64 ![0, 0] ![2400, 0] ![0, 0] (val_main_v52 (F := Ideal) (arg m main_arg0 c) (arg m main_arg3 c)) zf pads_S100000x64_S102400x64_024000_000 h_S_ := by
  chase
  refine congrArg (fun X => pad S102400x64 ![0, 0] ![2400, 0] ![0, 0] X zf pads_S100000x64_S102400x64_024000_000 h_S_)
    (?_ : _ = val_main_v52 (F := Ideal) (arg m main_arg0 c) (arg m main_arg3 c))
  rfl

theorem in1_cnt (c : Dev nD) : V15 m ρ c main_v60
    = pad S102400x1 ![0, 0] ![2400, 0] ![0, 0] (shapeCast S100000x1 (val_main_v56 (F := Ideal) (arg m main_arg3 c)) shapeCasts_S100000_S100000x1) zf pads_S100000x1_S102400x1_024000_000 h_S_ := by
  chase
  refine congrArg (fun Y => pad S102400x1 ![0, 0] ![2400, 0] ![0, 0] Y zf pads_S100000x1_S102400x1_024000_000 h_S_)
    (?_ : _ = shapeCast S100000x1 (val_main_v56 (F := Ideal) (arg m main_arg3 c)) shapeCasts_S100000_S100000x1)
  refine congrArg (fun X => shapeCast S100000x1 X shapeCasts_S100000_S100000x1) (?_ : _ = val_main_v56 (F := Ideal) (arg m main_arg3 c))
  rfl

theorem in1_x (c : Dev nD) : V15 m ρ c main_v61
    = pad S102400x64 ![0, 0] ![2400, 0] ![0, 0] (val_main_v6 (F := Ideal) (arg m main_arg1 c) (arg m main_arg5 c)) zf pads_S100000x64_S102400x64_024000_000 h_S_ := by
  chase
  refine congrArg (fun X => pad S102400x64 ![0, 0] ![2400, 0] ![0, 0] X zf pads_S100000x64_S102400x64_024000_000 h_S_)
    (?_ : _ = val_main_v6 (F := Ideal) (arg m main_arg1 c) (arg m main_arg5 c))
  rfl

theorem in1_wl (c : Dev nD) : V15 m ρ c main_v56 = val_main_v62 (F := Ideal) (arg m main_arg9 c) := by
  chase; rfl

theorem in1_wr (c : Dev nD) : V15 m ρ c main_v57 = val_main_v67 (F := Ideal) (arg m main_arg11 c) := by
  chase; rfl

theorem in1_b (c : Dev nD) : V15 m ρ c main_v62 = shapeCast S1x64 (arg m main_arg10 c) shapeCasts_S64_S1x64 := by
  chase; rfl

/-! ## Its output, cut back to the 100000 rows -/

/-- The users' first hidden rows. -/
theorem layer1 (c : Dev nD) :
    extractStridedSlice S100000x64 ![0, 0] (W16 m ρ c (Proc.devRef .tc main_v63)) slices_S102400x64_S100000x64_0_0
      = val_main_v70 (F := Ideal) (arg m main_arg0 c) (arg m main_arg1 c) (arg m main_arg3 c) (arg m main_arg5 c) (arg m main_arg9 c) (arg m main_arg10 c) (arg m main_arg11 c) := by
  rw [show W16 m ρ c (Proc.devRef .tc main_v63) = Region1.out (V15 m ρ) c from (W16_arr m ρ c 6).trans (Region1.arr (V15 m ρ) c)]
  unfold Region1.out
  rw [in1_s, in1_cnt, in1_x, in1_wl, in1_wr, in1_b]
  exact (Glue.slice_padded (n := 100000) (R := 102400) (d := 64) _ _ _ _ _ _ (zf) h_S_ _ _ pads_S100000x64_S102400x64_024000_000
    pads_S100000x1_S102400x1_024000_000 shapeCasts_S100000_S100000x1 shapeCasts_S64_S1x64 slices_S102400x64_S100000x64_0_0 (by decide)).trans
    (Cert.ReferenceIdeal.Layers.layer_v70 (arg m main_arg0 c) (arg m main_arg1 c) (arg m main_arg3 c) (arg m main_arg5 c) (arg m main_arg9 c) (arg m main_arg10 c) (arg m main_arg11 c)).symm

end Cert.KernelIdeal.Chase

end
-- ==== Proof.Region2.lean ====
/-
  The array region 2 leaves: a mean-aggregating layer followed by the encoder's closing affine map over the 102400 rows of the zero-padded operands.

  The grid has 25 points; point t stages rows 4096·t … 4096·t + 4095 of the row-indexed operands and the whole of the weight
  and bias arrays, runs the body on them and writes its 4096 output rows back to the same rows of the output array.  The
  body's block at (p, q) is the layer's entry on the block's rows; an entry of a layer reads one row of its operands; so
  block t of the output is rows 4096·t … of the layer over the whole padded arrays.  The 25 blocks tile the output
  (row r lies in block r / 4096), so after the last point the output array is that layer, whatever it held before.
-/
import proofs.«169258_j68762426409614_2_alg».proof.Proof.Gen.KernelIdeal.Frame
import proofs.«169258_j68762426409614_2_alg».proof.Proof.Blocks

set_option maxRecDepth 16384

noncomputable section

namespace Cert.KernelIdeal.Region2

open Cert.KernelIdeal Cert.KernelIdeal.Gen Cert.KernelIdeal.Blocks Idealize.ShloMosaic Idealize.ShloMosaic.TcCoe Idealize.ShloMosaic.ValueIdx Cert.Sage
open Cert.LibAffineLayer Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- What the region's output array holds after the last point, as one function of the arrays the region finds. -/
def out (c : Dev nD) : S102400x64.Idx → EReal :=
  affine (n := 102400) (d := 64) (e := 64) (layer (n := 102400) (d := 64) (e := 64) one zero (V c main_v82) (V c main_v85) (countsOf (V c main_v84)) (V c main_v79) (V c main_v80) (biasOf (V c main_v86))) (V c main_v81) (biasOf (V c main_v87))

/-- The windows' index maps over the grid: the row-indexed windows move with the point, the others stay. -/
theorem idx_facts : ∀ t : Fin cfg2.N,
    win2_0.index t (0 : Fin 2) = t.val
    ∧ win2_0.index t (1 : Fin 2) = 0
    ∧ win2_1.index t (0 : Fin 2) = t.val
    ∧ win2_1.index t (1 : Fin 2) = 0
    ∧ win2_2.index t (0 : Fin 2) = t.val
    ∧ win2_2.index t (1 : Fin 2) = 0
    ∧ win2_3.index t (0 : Fin 2) = 0
    ∧ win2_3.index t (1 : Fin 2) = 0
    ∧ win2_4.index t (0 : Fin 2) = 0
    ∧ win2_4.index t (1 : Fin 2) = 0
    ∧ win2_5.index t (0 : Fin 2) = 0
    ∧ win2_5.index t (1 : Fin 2) = 0
    ∧ win2_6.index t (0 : Fin 2) = 0
    ∧ win2_6.index t (1 : Fin 2) = 0
    ∧ win2_7.index t (0 : Fin 2) = 0
    ∧ win2_7.index t (1 : Fin 2) = 0
    ∧ win2_8.index t (0 : Fin 2) = t.val
    ∧ win2_8.index t (1 : Fin 2) = 0 :=
  (by decide +kernel : ∀ t : Fin grid2.N, _)

/-- What point t writes back is block t of the array `out`. -/
theorem flushed_eq (c : Dev nD) (t : Fin cfg2.N) :
    (dat2 (F := Ideal) V c).flushed 8 t = ((cfg2.win 8).blk t).view.read (Elt Ideal) (out V c) := by
  show (cfg2.win 8).cut (grid2.coords t) ((dat2 (F := Ideal) V c).after 8 t) = _
  rw [after2_8]
  unfold out2_8
  rw [View.canon_unit_zero hz]
  simp only [View.ld_unit_zero (S := S4096x64) hz, View.ld_unit_zero (S := S4096x1) hz, View.ld_unit_zero (S := S64x64) hz, View.ld_unit_zero (S := S1x64) hz]
  obtain ⟨e00, e01, e10, e11, e20, e21, e30, e31, e40, e41, e50, e51, e60, e61, e70, e71, e80, e81⟩ := idx_facts t
  have ht : t.val < 25 := lt_of_lt_of_eq t.isLt N_2
  funext j
  obtain ⟨p, q, rfl⟩ : ∃ (p : Fin 4096) (q : Fin 64), j = ix2 p q := ⟨j 0, j 1, eq_ix2 j⟩
  have hp : p.val < 4096 := p.isLt
  have hq : q.val < 64 := q.isLt
  show k2_pay1 (F := Ideal) (iblk2 V c 1 t) (iblk2 V c 0 t) (iblk2 V c 2 t) (iblk2 V c 3 t) (iblk2 V c 5 t) (iblk2 V c 4 t) (iblk2 V c 6 t) (iblk2 V c 7 t) (ix2 p q) = out V c (((cfg2.win 8).blk t).view.emb (ix2 p q))
  refine ((combineLin_at (iblk2 V c 1 t) (iblk2 V c 0 t) (iblk2 V c 2 t) (iblk2 V c 3 t) (iblk2 V c 5 t) (iblk2 V c 4 t) (iblk2 V c 6 t) (iblk2 V c 7 t) p q)).trans ?_
  have he : ((cfg2.win 8).blk t).view.emb (ix2 p q) = ix2 (⟨t.val * 4096 + p.val, by omega⟩ : Fin 102400) q := funext fun a => Fin.ext (by
    match a with
    | ⟨0, _⟩ => show win2_8.index t (0 : Fin 2) * 4096 + 1 * p.val = t.val * 4096 + p.val; omega
    | ⟨1, _⟩ => show win2_8.index t (1 : Fin 2) * 64 + 1 * q.val = q.val; omega)
  rw [he]
  have c3 : ((iblk2 V c 3 t) : S64x64.Idx → EReal) = (V c main_v79) := funext fun y => congrArg (V c main_v79) (funext fun a => Fin.ext (by
    match a with
    | ⟨0, _⟩ => show win2_3.index t (0 : Fin 2) * 64 + 1 * (y 0).val = (y 0).val; omega
    | ⟨1, _⟩ => show win2_3.index t (1 : Fin 2) * 64 + 1 * (y 1).val = (y 1).val; omega))
  have c4 : ((iblk2 V c 4 t) : S1x64.Idx → EReal) = (V c main_v86) := funext fun y => congrArg (V c main_v86) (funext fun a => Fin.ext (by
    match a with
    | ⟨0, _⟩ => show win2_4.index t (0 : Fin 2) * 1 + 1 * (y 0).val = (y 0).val; omega
    | ⟨1, _⟩ => show win2_4.index t (1 : Fin 2) * 64 + 1 * (y 1).val = (y 1).val; omega))
  have c5 : ((iblk2 V c 5 t) : S64x64.Idx → EReal) = (V c main_v80) := funext fun y => congrArg (V c main_v80) (funext fun a => Fin.ext (by
    match a with
    | ⟨0, _⟩ => show win2_5.index t (0 : Fin 2) * 64 + 1 * (y 0).val = (y 0).val; omega
    | ⟨1, _⟩ => show win2_5.index t (1 : Fin 2) * 64 + 1 * (y 1).val = (y 1).val; omega))
  have c6 : ((iblk2 V c 6 t) : S64x64.Idx → EReal) = (V c main_v81) := funext fun y => congrArg (V c main_v81) (funext fun a => Fin.ext (by
    match a with
    | ⟨0, _⟩ => show win2_6.index t (0 : Fin 2) * 64 + 1 * (y 0).val = (y 0).val; omega
    | ⟨1, _⟩ => show win2_6.index t (1 : Fin 2) * 64 + 1 * (y 1).val = (y 1).val; omega))
  have c7 : ((iblk2 V c 7 t) : S1x64.Idx → EReal) = (V c main_v87) := funext fun y => congrArg (V c main_v87) (funext fun a => Fin.ext (by
    match a with
    | ⟨0, _⟩ => show win2_7.index t (0 : Fin 2) * 1 + 1 * (y 0).val = (y 0).val; omega
    | ⟨1, _⟩ => show win2_7.index t (1 : Fin 2) * 64 + 1 * (y 1).val = (y 1).val; omega))
  unfold out
  rw [c3, c4, c5, c6, c7]
  exact affine_rows _ _ _ _ p (⟨t.val * 4096 + p.val, by omega⟩ : Fin 102400) q fun k' =>
    layer_rows one zero _ _ _ (V c main_v82) (V c main_v85) (countsOf (V c main_v84)) _ _ _ p (⟨t.val * 4096 + p.val, by omega⟩ : Fin 102400) k'
      (fun k => congrArg (V c main_v82) (funext fun a => Fin.ext (by
      match a with
      | ⟨0, _⟩ => show win2_0.index t (0 : Fin 2) * 4096 + 1 * p.val = t.val * 4096 + p.val; omega
      | ⟨1, _⟩ => show win2_0.index t (1 : Fin 2) * 64 + 1 * k.val = k.val; omega)))
      (fun k => congrArg (V c main_v85) (funext fun a => Fin.ext (by
      match a with
      | ⟨0, _⟩ => show win2_2.index t (0 : Fin 2) * 4096 + 1 * p.val = t.val * 4096 + p.val; omega
      | ⟨1, _⟩ => show win2_2.index t (1 : Fin 2) * 64 + 1 * k.val = k.val; omega)))
      (congrArg (V c main_v84) (funext fun a => Fin.ext (by
      match a with
      | ⟨0, _⟩ => show win2_1.index t (0 : Fin 2) * 4096 + 1 * p.val = t.val * 4096 + p.val; omega
      | ⟨1, _⟩ => show win2_1.index t (1 : Fin 2) * 1 + 1 * 0 = 0; omega)))

/-- An index of the output array lies in point t's block iff each coordinate lies in the block's range. -/
theorem mem_blk (t : Fin cfg2.N) (i : S102400x64.Idx) :
    i ∈ ((cfg2.win 8).blk t).view.set ↔ ∀ a : Fin 2, win2_8.index t a * S4096x64.size a ≤ (i a).val ∧ (i a).val < win2_8.index t a * S4096x64.size a + S4096x64.size a := by
  show i ∈ ((View.whole main_v88).slice (win2_8.rect t)).set ↔ _
  rw [View.set_slice_whole, Rect.mem_set_unit]
  exact Iff.rfl

/-- Every index of the output array lies in some point's block: row r in block r / 4096. -/
theorem cover (i : S102400x64.Idx) :
    ∃ t : Fin cfg2.N, (cfg2.win 8).flush t = true ∧ i ∈ ((cfg2.win 8).blk t).view.set := by
  have hi0 : (i 0).val < 102400 := (i 0).isLt
  have hi1 : (i 1).val < 64 := (i 1).isLt
  have hN : (i 0).val / 4096 < cfg2.N := by
    show (i 0).val / 4096 < grid2.N
    rw [N_2]; omega
  refine ⟨⟨(i 0).val / 4096, hN⟩, flush2_8 _, ?_⟩
  have hf := idx_facts ⟨(i 0).val / 4096, hN⟩
  have f0 : win2_8.index ⟨(i 0).val / 4096, hN⟩ (0 : Fin 2) = (i 0).val / 4096 := hf.2.2.2.2.2.2.2.2.2.2.2.2.2.2.2.2.1
  have f1 : win2_8.index ⟨(i 0).val / 4096, hN⟩ (1 : Fin 2) = 0 := hf.2.2.2.2.2.2.2.2.2.2.2.2.2.2.2.2.2
  rw [mem_blk]
  intro a
  match a with
  | ⟨0, _⟩ =>
    show win2_8.index ⟨(i 0).val / 4096, hN⟩ (0 : Fin 2) * 4096 ≤ (i 0).val ∧ (i 0).val < win2_8.index ⟨(i 0).val / 4096, hN⟩ (0 : Fin 2) * 4096 + 4096
    rw [f0]; omega
  | ⟨1, _⟩ =>
    show win2_8.index ⟨(i 0).val / 4096, hN⟩ (1 : Fin 2) * 64 ≤ (i 1).val ∧ (i 1).val < win2_8.index ⟨(i 0).val / 4096, hN⟩ (1 : Fin 2) * 64 + 64
    rw [f1]; omega

/-- The output array after the region's last point. -/
theorem arr (c : Dev nD) : (dat2 (F := Ideal) V c).arrAt 8 cfg2.N = out V c :=
  (dat2 (F := Ideal) V c).arrAt_eq_of_cover 8 (out V c) (fun t _ => flushed_eq V c t) cover

end Cert.KernelIdeal.Region2

end
-- ==== Proof.Chase2.lean ====
/-
  The kernel program's third layer and the user encoder's closing map.

  Region 2 is entered with the neighbourhood sums, over the movie-to-user edges, of the movies' hidden rows that region 0
  left; the users' in-degree counts; the users' first hidden rows that region 1 left; and the weights and biases of the
  third layer and of the closing affine map.  Its output, cut back to 100000 rows, is the reference's user embedding.
-/
import proofs.«169258_j68762426409614_2_alg».proof.Proof.Chase1
import proofs.«169258_j68762426409614_2_alg».proof.Proof.Region2
import Idealize.ShloMosaic.Lib.StableHlo.Run
import Idealize.ShloMosaic.PureOps.Ideal

set_option maxRecDepth 16384

noncomputable section

namespace Cert.KernelIdeal.Chase

open Cert.KernelIdeal Cert.KernelIdeal.Gen Idealize.ShloMosaic Idealize.ShloMosaic.TcCoe Idealize.SL.Sem Idealize.ShloMosaic.StableHlo
open Idealize.ShloMosaic.ValueIdx Cert.Sage Cert.LibAffineLayer Cert.KernelIdeal.Blocks
open Cert.ReferenceIdeal.Read

variable (m : (ℓ : Loc nD τ sig) → Buf (Elt Ideal) ℓ) (ρ : Dev nD → PrngReg)

/-! ## Region 2's operands -/

theorem in2_s (c : Dev nD) : V23 m ρ c main_v82
    = pad S102400x64 ![0, 0] ![2400, 0] ![0, 0] (val_main_v84 (F := Ideal) (arg m main_arg0 c) (arg m main_arg2 c) (arg m main_arg3 c) (arg m main_arg6 c) (arg m main_arg7 c) (arg m main_arg8 c)) zf pads_S100000x64_S102400x64_024000_000 h_S_ := by
  chase
  simp only [layer0 m ρ c, layer1 m ρ c]
  refine congrArg (fun X => pad S102400x64 ![0, 0] ![2400, 0] ![0, 0] X zf pads_S100000x64_S102400x64_024000_000 h_S_)
    (?_ : _ = val_main_v84 (F := Ideal) (arg m main_arg0 c) (arg m main_arg2 c) (arg m main_arg3 c) (arg m main_arg6 c) (arg m main_arg7 c) (arg m main_arg8 c))
  rfl

theorem in2_cnt (c : Dev nD) : V23 m ρ c main_v84
    = pad S102400x1 ![0, 0] ![2400, 0] ![0, 0] (shapeCast S100000x1 (val_main_v88 (F := Ideal) (arg m main_arg3 c)) shapeCasts_S100000_S100000x1) zf pads_S100000x1_S102400x1_024000_000 h_S_ := by
  chase
  refine congrArg (fun Y => pad S102400x1 ![0, 0] ![2400, 0] ![0, 0] Y zf pads_S100000x1_S102400x1_024000_000 h_S_)
    (?_ : _ = shapeCast S100000x1 (val_main_v88 (F := Ideal) (arg m main_arg3 c)) shapeCasts_S100000_S100000x1)
  refine congrArg (fun X => shapeCast S100000x1 X shapeCasts_S100000_S100000x1) (?_ : _ = val_main_v88 (F := Ideal) (arg m main_arg3 c))
  rfl

theorem in2_x (c : Dev nD) : V23 m ρ c main_v85
    = pad S102400x64 ![0, 0] ![2400, 0] ![0, 0] (val_main_v70 (F := Ideal) (arg m main_arg0 c) (arg m main_arg1 c) (arg m main_arg3 c) (arg m main_arg5 c) (arg m main_arg9 c) (arg m main_arg10 c) (arg m main_arg11 c)) zf pads_S100000x64_S102400x64_024000_000 h_S_ := by
  chase
  simp only [layer0 m ρ c, layer1 m ρ c]
  refine congrArg (fun X => pad S102400x64 ![0, 0] ![2400, 0] ![0, 0] X zf pads_S100000x64_S102400x64_024000_000 h_S_)
    (?_ : _ = val_main_v70 (F := Ideal) (arg m main_arg0 c) (arg m main_arg1 c) (arg m main_arg3 c) (arg m main_arg5 c) (arg m main_arg9 c) (arg m main_arg10 c) (arg m main_arg11 c))
  rfl

theorem in2_wl (c : Dev nD) : V23 m ρ c main_v79 = val_main_v94 (F := Ideal) (arg m main_arg12 c) := by
  chase; rfl

theorem in2_wr (c : Dev nD) : V23 m ρ c main_v80 = val_main_v99 (F := Ideal) (arg m main_arg14 c) := by
  chase; rfl

theorem in2_b (c : Dev nD) : V23 m ρ c main_v86 = shapeCast S1x64 (arg m main_arg13 c) shapeCasts_S64_S1x64 := by
  chase; rfl

theorem in2_wlin (c : Dev nD) : V23 m ρ c main_v81 = val_main_v103 (F := Ideal) (arg m main_arg15 c) := by
  chase; rfl

theorem in2_blin (c : Dev nD) : V23 m ρ c main_v87 = shapeCast S1x64 (arg m main_arg16 c) shapeCasts_S64_S1x64 := by
  chase; rfl

/-! ## Its output, cut back to the 100000 rows -/

/-- The user embedding. -/
theorem layer2 (c : Dev nD) :
    extractStridedSlice S100000x64 ![0, 0] (W24 m ρ c (Proc.devRef .tc main_v88)) slices_S102400x64_S100000x64_0_0
      = val_main_v107 (F := Ideal) (arg m main_arg0 c) (arg m main_arg1 c) (arg m main_arg2 c) (arg m main_arg3 c) (arg m main_arg5 c) (arg m main_arg6 c) (arg m main_arg7 c) (arg m main_arg8 c) (arg m main_arg9 c) (arg m main_arg10 c) (arg m main_arg11 c) (arg m main_arg12 c) (arg m main_arg13 c) (arg m main_arg14 c) (arg m main_arg15 c) (arg m main_arg16 c) := by
  rw [show W24 m ρ c (Proc.devRef .tc main_v88) = Region2.out (V23 m ρ) c from (W24_arr m ρ c 8).trans (Region2.arr (V23 m ρ) c)]
  unfold Region2.out
  rw [in2_s, in2_cnt, in2_x, in2_wl, in2_wr, in2_b, in2_wlin, in2_blin]
  refine (Glue.slice_affine_padded (n := 100000) (R := 102400) (d := 64) _ _ _ _ _ _ (zf) h_S_ _ _ pads_S100000x64_S102400x64_024000_000
    pads_S100000x1_S102400x1_024000_000 shapeCasts_S100000_S100000x1 shapeCasts_S64_S1x64 _ _ slices_S102400x64_S100000x64_0_0 (by decide)).trans ?_
  rw [← Cert.ReferenceIdeal.Layers.layer_v102 (arg m main_arg0 c) (arg m main_arg1 c) (arg m main_arg2 c) (arg m main_arg3 c) (arg m main_arg5 c) (arg m main_arg6 c) (arg m main_arg7 c) (arg m main_arg8 c) (arg m main_arg9 c) (arg m main_arg10 c) (arg m main_arg11 c) (arg m main_arg12 c) (arg m main_arg13 c) (arg m main_arg14 c)]
  exact (Cert.ReferenceIdeal.Layers.affine_v107 (arg m main_arg0 c) (arg m main_arg1 c) (arg m main_arg2 c) (arg m main_arg3 c) (arg m main_arg5 c) (arg m main_arg6 c) (arg m main_arg7 c) (arg m main_arg8 c) (arg m main_arg9 c) (arg m main_arg10 c) (arg m main_arg11 c) (arg m main_arg12 c) (arg m main_arg13 c) (arg m main_arg14 c) (arg m main_arg15 c) (arg m main_arg16 c)).symm

end Cert.KernelIdeal.Chase

end
-- ==== Proof.Region3.lean ====
/-
  The array region 3 leaves: a mean-aggregating layer over the 53248 rows of the zero-padded operands.

  The grid has 13 points; point t stages rows 4096·t … 4096·t + 4095 of the row-indexed operands and the whole of the weight
  and bias arrays, runs the body on them and writes its 4096 output rows back to the same rows of the output array.  The
  body's block at (p, q) is the layer's entry on the block's rows; an entry of a layer reads one row of its operands; so
  block t of the output is rows 4096·t … of the layer over the whole padded arrays.  The 13 blocks tile the output
  (row r lies in block r / 4096), so after the last point the output array is that layer, whatever it held before.
-/
import proofs.«169258_j68762426409614_2_alg».proof.Proof.Gen.KernelIdeal.Frame
import proofs.«169258_j68762426409614_2_alg».proof.Proof.Blocks

set_option maxRecDepth 16384

noncomputable section

namespace Cert.KernelIdeal.Region3

open Cert.KernelIdeal Cert.KernelIdeal.Gen Cert.KernelIdeal.Blocks Idealize.ShloMosaic Idealize.ShloMosaic.TcCoe Idealize.ShloMosaic.ValueIdx Cert.Sage
open Cert.LibAffineLayer Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- What the region's output array holds after the last point, as one function of the arrays the region finds. -/
def out (c : Dev nD) : S53248x64.Idx → EReal :=
  layer (n := 53248) (d := 64) (e := 64) one zero (V c main_v92) (V c main_v95) (countsOf (V c main_v94)) (V c main_v90) (V c main_v91) (biasOf (V c main_v96))

/-- The windows' index maps over the grid: the row-indexed windows move with the point, the others stay. -/
theorem idx_facts : ∀ t : Fin cfg3.N,
    win3_0.index t (0 : Fin 2) = t.val
    ∧ win3_0.index t (1 : Fin 2) = 0
    ∧ win3_1.index t (0 : Fin 2) = t.val
    ∧ win3_1.index t (1 : Fin 2) = 0
    ∧ win3_2.index t (0 : Fin 2) = t.val
    ∧ win3_2.index t (1 : Fin 2) = 0
    ∧ win3_3.index t (0 : Fin 2) = 0
    ∧ win3_3.index t (1 : Fin 2) = 0
    ∧ win3_4.index t (0 : Fin 2) = 0
    ∧ win3_4.index t (1 : Fin 2) = 0
    ∧ win3_5.index t (0 : Fin 2) = 0
    ∧ win3_5.index t (1 : Fin 2) = 0
    ∧ win3_6.index t (0 : Fin 2) = t.val
    ∧ win3_6.index t (1 : Fin 2) = 0 :=
  (by decide +kernel : ∀ t : Fin grid3.N, _)

/-- What point t writes back is block t of the array `out`. -/
theorem flushed_eq (c : Dev nD) (t : Fin cfg3.N) :
    (dat3 (F := Ideal) V c).flushed 6 t = ((cfg3.win 6).blk t).view.read (Elt Ideal) (out V c) := by
  show (cfg3.win 6).cut (grid3.coords t) ((dat3 (F := Ideal) V c).after 6 t) = _
  rw [after3_6]
  unfold out3_6
  rw [View.canon_unit_zero hz]
  simp only [View.ld_unit_zero (S := S4096x64) hz, View.ld_unit_zero (S := S4096x1) hz, View.ld_unit_zero (S := S64x64) hz, View.ld_unit_zero (S := S1x64) hz]
  obtain ⟨e00, e01, e10, e11, e20, e21, e30, e31, e40, e41, e50, e51, e60, e61⟩ := idx_facts t
  have ht : t.val < 13 := lt_of_lt_of_eq t.isLt N_3
  funext j
  obtain ⟨p, q, rfl⟩ : ∃ (p : Fin 4096) (q : Fin 64), j = ix2 p q := ⟨j 0, j 1, eq_ix2 j⟩
  have hp : p.val < 4096 := p.isLt
  have hq : q.val < 64 := q.isLt
  show k3_pay1 (F := Ideal) (iblk3 V c 1 t) (iblk3 V c 0 t) (iblk3 V c 2 t) (iblk3 V c 3 t) (iblk3 V c 5 t) (iblk3 V c 4 t) (ix2 p q) = out V c (((cfg3.win 6).blk t).view.emb (ix2 p q))
  refine ((congrFun (congrFun (congrFun (congrFun (congrFun (congrFun (congrFun k3_eq _) _) _) _) _) _) _).trans (combine_at (iblk3 V c 1 t) (iblk3 V c 0 t) (iblk3 V c 2 t) (iblk3 V c 3 t) (iblk3 V c 5 t) (iblk3 V c 4 t) p q)).trans ?_
  have he : ((cfg3.win 6).blk t).view.emb (ix2 p q) = ix2 (⟨t.val * 4096 + p.val, by omega⟩ : Fin 53248) q := funext fun a => Fin.ext (by
    match a with
    | ⟨0, _⟩ => show win3_6.index t (0 : Fin 2) * 4096 + 1 * p.val = t.val * 4096 + p.val; omega
    | ⟨1, _⟩ => show win3_6.index t (1 : Fin 2) * 64 + 1 * q.val = q.val; omega)
  rw [he]
  have c3 : ((iblk3 V c 3 t) : S64x64.Idx → EReal) = (V c main_v90) := funext fun y => congrArg (V c main_v90) (funext fun a => Fin.ext (by
    match a with
    | ⟨0, _⟩ => show win3_3.index t (0 : Fin 2) * 64 + 1 * (y 0).val = (y 0).val; omega
    | ⟨1, _⟩ => show win3_3.index t (1 : Fin 2) * 64 + 1 * (y 1).val = (y 1).val; omega))
  have c4 : ((iblk3 V c 4 t) : S1x64.Idx → EReal) = (V c main_v96) := funext fun y => congrArg (V c main_v96) (funext fun a => Fin.ext (by
    match a with
    | ⟨0, _⟩ => show win3_4.index t (0 : Fin 2) * 1 + 1 * (y 0).val = (y 0).val; omega
    | ⟨1, _⟩ => show win3_4.index t (1 : Fin 2) * 64 + 1 * (y 1).val = (y 1).val; omega))
  have c5 : ((iblk3 V c 5 t) : S64x64.Idx → EReal) = (V c main_v91) := funext fun y => congrArg (V c main_v91) (funext fun a => Fin.ext (by
    match a with
    | ⟨0, _⟩ => show win3_5.index t (0 : Fin 2) * 64 + 1 * (y 0).val = (y 0).val; omega
    | ⟨1, _⟩ => show win3_5.index t (1 : Fin 2) * 64 + 1 * (y 1).val = (y 1).val; omega))
  unfold out
  rw [c3, c4, c5]
  exact layer_rows one zero _ _ _ (V c main_v92) (V c main_v95) (countsOf (V c main_v94)) _ _ _ p (⟨t.val * 4096 + p.val, by omega⟩ : Fin 53248) q
    (fun k => congrArg (V c main_v92) (funext fun a => Fin.ext (by
      match a with
      | ⟨0, _⟩ => show win3_0.index t (0 : Fin 2) * 4096 + 1 * p.val = t.val * 4096 + p.val; omega
      | ⟨1, _⟩ => show win3_0.index t (1 : Fin 2) * 64 + 1 * k.val = k.val; omega)))
    (fun k => congrArg (V c main_v95) (funext fun a => Fin.ext (by
      match a with
      | ⟨0, _⟩ => show win3_2.index t (0 : Fin 2) * 4096 + 1 * p.val = t.val * 4096 + p.val; omega
      | ⟨1, _⟩ => show win3_2.index t (1 : Fin 2) * 64 + 1 * k.val = k.val; omega)))
    (congrArg (V c main_v94) (funext fun a => Fin.ext (by
      match a with
      | ⟨0, _⟩ => show win3_1.index t (0 : Fin 2) * 4096 + 1 * p.val = t.val * 4096 + p.val; omega
      | ⟨1, _⟩ => show win3_1.index t (1 : Fin 2) * 1 + 1 * 0 = 0; omega)))

/-- An index of the output array lies in point t's block iff each coordinate lies in the block's range. -/
theorem mem_blk (t : Fin cfg3.N) (i : S53248x64.Idx) :
    i ∈ ((cfg3.win 6).blk t).view.set ↔ ∀ a : Fin 2, win3_6.index t a * S4096x64.size a ≤ (i a).val ∧ (i a).val < win3_6.index t a * S4096x64.size a + S4096x64.size a := by
  show i ∈ ((View.whole main_v97).slice (win3_6.rect t)).set ↔ _
  rw [View.set_slice_whole, Rect.mem_set_unit]
  exact Iff.rfl

/-- Every index of the output array lies in some point's block: row r in block r / 4096. -/
theorem cover (i : S53248x64.Idx) :
    ∃ t : Fin cfg3.N, (cfg3.win 6).flush t = true ∧ i ∈ ((cfg3.win 6).blk t).view.set := by
  have hi0 : (i 0).val < 53248 := (i 0).isLt
  have hi1 : (i 1).val < 64 := (i 1).isLt
  have hN : (i 0).val / 4096 < cfg3.N := by
    show (i 0).val / 4096 < grid3.N
    rw [N_3]; omega
  refine ⟨⟨(i 0).val / 4096, hN⟩, flush3_6 _, ?_⟩
  have hf := idx_facts ⟨(i 0).val / 4096, hN⟩
  have f0 : win3_6.index ⟨(i 0).val / 4096, hN⟩ (0 : Fin 2) = (i 0).val / 4096 := hf.2.2.2.2.2.2.2.2.2.2.2.2.1
  have f1 : win3_6.index ⟨(i 0).val / 4096, hN⟩ (1 : Fin 2) = 0 := hf.2.2.2.2.2.2.2.2.2.2.2.2.2
  rw [mem_blk]
  intro a
  match a with
  | ⟨0, _⟩ =>
    show win3_6.index ⟨(i 0).val / 4096, hN⟩ (0 : Fin 2) * 4096 ≤ (i 0).val ∧ (i 0).val < win3_6.index ⟨(i 0).val / 4096, hN⟩ (0 : Fin 2) * 4096 + 4096
    rw [f0]; omega
  | ⟨1, _⟩ =>
    show win3_6.index ⟨(i 0).val / 4096, hN⟩ (1 : Fin 2) * 64 ≤ (i 1).val ∧ (i 1).val < win3_6.index ⟨(i 0).val / 4096, hN⟩ (1 : Fin 2) * 64 + 64
    rw [f1]; omega

/-- The output array after the region's last point. -/
theorem arr (c : Dev nD) : (dat3 (F := Ideal) V c).arrAt 6 cfg3.N = out V c :=
  (dat3 (F := Ideal) V c).arrAt_eq_of_cover 6 (out V c) (fun t _ => flushed_eq V c t) cover

end Cert.KernelIdeal.Region3

end
-- ==== Proof.Chase3.lean ====
/-
  The movie encoder's first layer.

  Region 3 is entered with the same neighbourhood sums and counts as region 0 (the host program computes them once), the
  movie features, and the movie encoder's first weights and bias.  Its output, cut back to 50000 rows, is the
  reference's stage for the movies' first hidden rows of the movie encoder.
-/
import proofs.«169258_j68762426409614_2_alg».proof.Proof.Chase2
import proofs.«169258_j68762426409614_2_alg».proof.Proof.Region3
import Idealize.ShloMosaic.Lib.StableHlo.Run
import Idealize.ShloMosaic.PureOps.Ideal

set_option maxRecDepth 16384

noncomputable section

namespace Cert.KernelIdeal.Chase

open Cert.KernelIdeal Cert.KernelIdeal.Gen Idealize.ShloMosaic Idealize.ShloMosaic.TcCoe Idealize.SL.Sem Idealize.ShloMosaic.StableHlo
open Idealize.ShloMosaic.ValueIdx Cert.Sage Cert.LibAffineLayer Cert.KernelIdeal.Blocks
open Cert.ReferenceIdeal.Read

variable (m : (ℓ : Loc nD τ sig) → Buf (Elt Ideal) ℓ) (ρ : Dev nD → PrngReg)

/-! ## Region 3's operands -/

theorem in3_s (c : Dev nD) : V31 m ρ c main_v92
    = pad S53248x64 ![0, 0] ![3248, 0] ![0, 0] (val_main_v121 (F := Ideal) (arg m main_arg0 c) (arg m main_arg2 c)) zf pads_S50000x64_S53248x64_032480_000 h_S_ := by
  chase
  refine congrArg (fun X => pad S53248x64 ![0, 0] ![3248, 0] ![0, 0] X zf pads_S50000x64_S53248x64_032480_000 h_S_)
    (?_ : _ = val_main_v121 (F := Ideal) (arg m main_arg0 c) (arg m main_arg2 c))
  rfl

theorem in3_cnt (c : Dev nD) : V31 m ρ c main_v94
    = pad S53248x1 ![0, 0] ![3248, 0] ![0, 0] (shapeCast S50000x1 (val_main_v125 (F := Ideal) (arg m main_arg2 c)) shapeCasts_S50000_S50000x1) zf pads_S50000x1_S53248x1_032480_000 h_S_ := by
  chase
  refine congrArg (fun Y => pad S53248x1 ![0, 0] ![3248, 0] ![0, 0] Y zf pads_S50000x1_S53248x1_032480_000 h_S_)
    (?_ : _ = shapeCast S50000x1 (val_main_v125 (F := Ideal) (arg m main_arg2 c)) shapeCasts_S50000_S50000x1)
  refine congrArg (fun X => shapeCast S50000x1 X shapeCasts_S50000_S50000x1) (?_ : _ = val_main_v125 (F := Ideal) (arg m main_arg2 c))
  rfl

theorem in3_x (c : Dev nD) : V31 m ρ c main_v95
    = pad S53248x64 ![0, 0] ![3248, 0] ![0, 0] (arg m main_arg0 c) zf pads_S50000x64_S53248x64_032480_000 h_S_ := by
  chase; rfl

theorem in3_wl (c : Dev nD) : V31 m ρ c main_v90 = val_main_v131 (F := Ideal) (arg m main_arg17 c) := by
  chase; rfl

theorem in3_wr (c : Dev nD) : V31 m ρ c main_v91 = val_main_v136 (F := Ideal) (arg m main_arg19 c) := by
  chase; rfl

theorem in3_b (c : Dev nD) : V31 m ρ c main_v96 = shapeCast S1x64 (arg m main_arg18 c) shapeCasts_S64_S1x64 := by
  chase; rfl

/-! ## Its output, cut back to the 50000 rows -/

/-- The movie encoder's first hidden rows. -/
theorem layer3 (c : Dev nD) :
    extractStridedSlice S50000x64 ![0, 0] (W32 m ρ c (Proc.devRef .tc main_v97)) slices_S53248x64_S50000x64_0_0
      = val_main_v139 (F := Ideal) (arg m main_arg0 c) (arg m main_arg2 c) (arg m main_arg17 c) (arg m main_arg18 c) (arg m main_arg19 c) := by
  rw [show W32 m ρ c (Proc.devRef .tc main_v97) = Region3.out (V31 m ρ) c from (W32_arr m ρ c 6).trans (Region3.arr (V31 m ρ) c)]
  unfold Region3.out
  rw [in3_s, in3_cnt, in3_x, in3_wl, in3_wr, in3_b]
  exact (Glue.slice_padded (n := 50000) (R := 53248) (d := 64) _ _ _ _ _ _ (zf) h_S_ _ _ pads_S50000x64_S53248x64_032480_000
    pads_S50000x1_S53248x1_032480_000 shapeCasts_S50000_S50000x1 shapeCasts_S64_S1x64 slices_S53248x64_S50000x64_0_0 (by decide)).trans
    (Cert.ReferenceIdeal.Layers.layer_v139 (arg m main_arg0 c) (arg m main_arg2 c) (arg m main_arg17 c) (arg m main_arg18 c) (arg m main_arg19 c)).symm

end Cert.KernelIdeal.Chase

end
-- ==== Proof.Region4.lean ====
/-
  The array region 4 leaves: a mean-aggregating layer followed by the encoder's closing affine map over the 53248 rows of the zero-padded operands.

  The grid has 13 points; point t stages rows 4096·t … 4096·t + 4095 of the row-indexed operands and the whole of the weight
  and bias arrays, runs the body on them and writes its 4096 output rows back to the same rows of the output array.  The
  body's block at (p, q) is the layer's entry on the block's rows; an entry of a layer reads one row of its operands; so
  block t of the output is rows 4096·t … of the layer over the whole padded arrays.  The 13 blocks tile the output
  (row r lies in block r / 4096), so after the last point the output array is that layer, whatever it held before.
-/
import proofs.«169258_j68762426409614_2_alg».proof.Proof.Gen.KernelIdeal.Frame
import proofs.«169258_j68762426409614_2_alg».proof.Proof.Blocks

set_option maxRecDepth 16384

noncomputable section

namespace Cert.KernelIdeal.Region4

open Cert.KernelIdeal Cert.KernelIdeal.Gen Cert.KernelIdeal.Blocks Idealize.ShloMosaic Idealize.ShloMosaic.TcCoe Idealize.ShloMosaic.ValueIdx Cert.Sage
open Cert.LibAffineLayer Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- What the region's output array holds after the last point, as one function of the arrays the region finds. -/
def out (c : Dev nD) : S53248x64.Idx → EReal :=
  affine (n := 53248) (d := 64) (e := 64) (layer (n := 53248) (d := 64) (e := 64) one zero (V c main_v116) (V c main_v119) (countsOf (V c main_v118)) (V c main_v113) (V c main_v114) (biasOf (V c main_v120))) (V c main_v115) (biasOf (V c main_v121))

/-- The windows' index maps over the grid: the row-indexed windows move with the point, the others stay. -/
theorem idx_facts : ∀ t : Fin cfg4.N,
    win4_0.index t (0 : Fin 2) = t.val
    ∧ win4_0.index t (1 : Fin 2) = 0
    ∧ win4_1.index t (0 : Fin 2) = t.val
    ∧ win4_1.index t (1 : Fin 2) = 0
    ∧ win4_2.index t (0 : Fin 2) = t.val
    ∧ win4_2.index t (1 : Fin 2) = 0
    ∧ win4_3.index t (0 : Fin 2) = 0
    ∧ win4_3.index t (1 : Fin 2) = 0
    ∧ win4_4.index t (0 : Fin 2) = 0
    ∧ win4_4.index t (1 : Fin 2) = 0
    ∧ win4_5.index t (0 : Fin 2) = 0
    ∧ win4_5.index t (1 : Fin 2) = 0
    ∧ win4_6.index t (0 : Fin 2) = 0
    ∧ win4_6.index t (1 : Fin 2) = 0
    ∧ win4_7.index t (0 : Fin 2) = 0
    ∧ win4_7.index t (1 : Fin 2) = 0
    ∧ win4_8.index t (0 : Fin 2) = t.val
    ∧ win4_8.index t (1 : Fin 2) = 0 :=
  (by decide +kernel : ∀ t : Fin grid4.N, _)

/-- What point t writes back is block t of the array `out`. -/
theorem flushed_eq (c : Dev nD) (t : Fin cfg4.N) :
    (dat4 (F := Ideal) V c).flushed 8 t = ((cfg4.win 8).blk t).view.read (Elt Ideal) (out V c) := by
  show (cfg4.win 8).cut (grid4.coords t) ((dat4 (F := Ideal) V c).after 8 t) = _
  rw [after4_8]
  unfold out4_8
  rw [View.canon_unit_zero hz]
  simp only [View.ld_unit_zero (S := S4096x64) hz, View.ld_unit_zero (S := S4096x1) hz, View.ld_unit_zero (S := S64x64) hz, View.ld_unit_zero (S := S1x64) hz]
  obtain ⟨e00, e01, e10, e11, e20, e21, e30, e31, e40, e41, e50, e51, e60, e61, e70, e71, e80, e81⟩ := idx_facts t
  have ht : t.val < 13 := lt_of_lt_of_eq t.isLt N_4
  funext j
  obtain ⟨p, q, rfl⟩ : ∃ (p : Fin 4096) (q : Fin 64), j = ix2 p q := ⟨j 0, j 1, eq_ix2 j⟩
  have hp : p.val < 4096 := p.isLt
  have hq : q.val < 64 := q.isLt
  show k4_pay1 (F := Ideal) (iblk4 V c 1 t) (iblk4 V c 0 t) (iblk4 V c 2 t) (iblk4 V c 3 t) (iblk4 V c 5 t) (iblk4 V c 4 t) (iblk4 V c 6 t) (iblk4 V c 7 t) (ix2 p q) = out V c (((cfg4.win 8).blk t).view.emb (ix2 p q))
  refine ((congrFun (congrFun (congrFun (congrFun (congrFun (congrFun (congrFun (congrFun (congrFun k4_eq _) _) _) _) _) _) _) _) _).trans (combineLin_at (iblk4 V c 1 t) (iblk4 V c 0 t) (iblk4 V c 2 t) (iblk4 V c 3 t) (iblk4 V c 5 t) (iblk4 V c 4 t) (iblk4 V c 6 t) (iblk4 V c 7 t) p q)).trans ?_
  have he : ((cfg4.win 8).blk t).view.emb (ix2 p q) = ix2 (⟨t.val * 4096 + p.val, by omega⟩ : Fin 53248) q := funext fun a => Fin.ext (by
    match a with
    | ⟨0, _⟩ => show win4_8.index t (0 : Fin 2) * 4096 + 1 * p.val = t.val * 4096 + p.val; omega
    | ⟨1, _⟩ => show win4_8.index t (1 : Fin 2) * 64 + 1 * q.val = q.val; omega)
  rw [he]
  have c3 : ((iblk4 V c 3 t) : S64x64.Idx → EReal) = (V c main_v113) := funext fun y => congrArg (V c main_v113) (funext fun a => Fin.ext (by
    match a with
    | ⟨0, _⟩ => show win4_3.index t (0 : Fin 2) * 64 + 1 * (y 0).val = (y 0).val; omega
    | ⟨1, _⟩ => show win4_3.index t (1 : Fin 2) * 64 + 1 * (y 1).val = (y 1).val; omega))
  have c4 : ((iblk4 V c 4 t) : S1x64.Idx → EReal) = (V c main_v120) := funext fun y => congrArg (V c main_v120) (funext fun a => Fin.ext (by
    match a with
    | ⟨0, _⟩ => show win4_4.index t (0 : Fin 2) * 1 + 1 * (y 0).val = (y 0).val; omega
    | ⟨1, _⟩ => show win4_4.index t (1 : Fin 2) * 64 + 1 * (y 1).val = (y 1).val; omega))
  have c5 : ((iblk4 V c 5 t) : S64x64.Idx → EReal) = (V c main_v114) := funext fun y => congrArg (V c main_v114) (funext fun a => Fin.ext (by
    match a with
    | ⟨0, _⟩ => show win4_5.index t (0 : Fin 2) * 64 + 1 * (y 0).val = (y 0).val; omega
    | ⟨1, _⟩ => show win4_5.index t (1 : Fin 2) * 64 + 1 * (y 1).val = (y 1).val; omega))
  have c6 : ((iblk4 V c 6 t) : S64x64.Idx → EReal) = (V c main_v115) := funext fun y => congrArg (V c main_v115) (funext fun a => Fin.ext (by
    match a with
    | ⟨0, _⟩ => show win4_6.index t (0 : Fin 2) * 64 + 1 * (y 0).val = (y 0).val; omega
    | ⟨1, _⟩ => show win4_6.index t (1 : Fin 2) * 64 + 1 * (y 1).val = (y 1).val; omega))
  have c7 : ((iblk4 V c 7 t) : S1x64.Idx → EReal) = (V c main_v121) := funext fun y => congrArg (V c main_v121) (funext fun a => Fin.ext (by
    match a with
    | ⟨0, _⟩ => show win4_7.index t (0 : Fin 2) * 1 + 1 * (y 0).val = (y 0).val; omega
    | ⟨1, _⟩ => show win4_7.index t (1 : Fin 2) * 64 + 1 * (y 1).val = (y 1).val; omega))
  unfold out
  rw [c3, c4, c5, c6, c7]
  exact affine_rows _ _ _ _ p (⟨t.val * 4096 + p.val, by omega⟩ : Fin 53248) q fun k' =>
    layer_rows one zero _ _ _ (V c main_v116) (V c main_v119) (countsOf (V c main_v118)) _ _ _ p (⟨t.val * 4096 + p.val, by omega⟩ : Fin 53248) k'
      (fun k => congrArg (V c main_v116) (funext fun a => Fin.ext (by
      match a with
      | ⟨0, _⟩ => show win4_0.index t (0 : Fin 2) * 4096 + 1 * p.val = t.val * 4096 + p.val; omega
      | ⟨1, _⟩ => show win4_0.index t (1 : Fin 2) * 64 + 1 * k.val = k.val; omega)))
      (fun k => congrArg (V c main_v119) (funext fun a => Fin.ext (by
      match a with
      | ⟨0, _⟩ => show win4_2.index t (0 : Fin 2) * 4096 + 1 * p.val = t.val * 4096 + p.val; omega
      | ⟨1, _⟩ => show win4_2.index t (1 : Fin 2) * 64 + 1 * k.val = k.val; omega)))
      (congrArg (V c main_v118) (funext fun a => Fin.ext (by
      match a with
      | ⟨0, _⟩ => show win4_1.index t (0 : Fin 2) * 4096 + 1 * p.val = t.val * 4096 + p.val; omega
      | ⟨1, _⟩ => show win4_1.index t (1 : Fin 2) * 1 + 1 * 0 = 0; omega)))

/-- An index of the output array lies in point t's block iff each coordinate lies in the block's range. -/
theorem mem_blk (t : Fin cfg4.N) (i : S53248x64.Idx) :
    i ∈ ((cfg4.win 8).blk t).view.set ↔ ∀ a : Fin 2, win4_8.index t a * S4096x64.size a ≤ (i a).val ∧ (i a).val < win4_8.index t a * S4096x64.size a + S4096x64.size a := by
  show i ∈ ((View.whole main_v122).slice (win4_8.rect t)).set ↔ _
  rw [View.set_slice_whole, Rect.mem_set_unit]
  exact Iff.rfl

/-- Every index of the output array lies in some point's block: row r in block r / 4096. -/
theorem cover (i : S53248x64.Idx) :
    ∃ t : Fin cfg4.N, (cfg4.win 8).flush t = true ∧ i ∈ ((cfg4.win 8).blk t).view.set := by
  have hi0 : (i 0).val < 53248 := (i 0).isLt
  have hi1 : (i 1).val < 64 := (i 1).isLt
  have hN : (i 0).val / 4096 < cfg4.N := by
    show (i 0).val / 4096 < grid4.N
    rw [N_4]; omega
  refine ⟨⟨(i 0).val / 4096, hN⟩, flush4_8 _, ?_⟩
  have hf := idx_facts ⟨(i 0).val / 4096, hN⟩
  have f0 : win4_8.index ⟨(i 0).val / 4096, hN⟩ (0 : Fin 2) = (i 0).val / 4096 := hf.2.2.2.2.2.2.2.2.2.2.2.2.2.2.2.2.1
  have f1 : win4_8.index ⟨(i 0).val / 4096, hN⟩ (1 : Fin 2) = 0 := hf.2.2.2.2.2.2.2.2.2.2.2.2.2.2.2.2.2
  rw [mem_blk]
  intro a
  match a with
  | ⟨0, _⟩ =>
    show win4_8.index ⟨(i 0).val / 4096, hN⟩ (0 : Fin 2) * 4096 ≤ (i 0).val ∧ (i 0).val < win4_8.index ⟨(i 0).val / 4096, hN⟩ (0 : Fin 2) * 4096 + 4096
    rw [f0]; omega
  | ⟨1, _⟩ =>
    show win4_8.index ⟨(i 0).val / 4096, hN⟩ (1 : Fin 2) * 64 ≤ (i 1).val ∧ (i 1).val < win4_8.index ⟨(i 0).val / 4096, hN⟩ (1 : Fin 2) * 64 + 64
    rw [f1]; omega

/-- The output array after the region's last point. -/
theorem arr (c : Dev nD) : (dat4 (F := Ideal) V c).arrAt 8 cfg4.N = out V c :=
  (dat4 (F := Ideal) V c).arrAt_eq_of_cover 8 (out V c) (fun t _ => flushed_eq V c t) cover

end Cert.KernelIdeal.Region4

end
-- ==== Proof.Chase4.lean ====
/-
  The movie encoder's second layer and closing map.

  Region 4 is entered with the neighbourhood sums, over the movie-to-movie edges, of the hidden rows region 3 left, the
  movies' in-degree counts, those hidden rows themselves, and the weights and biases of the second layer and of the
  closing affine map.  Its output, cut back to 50000 rows, is the reference's movie embedding.
-/
import proofs.«169258_j68762426409614_2_alg».proof.Proof.Chase3
import proofs.«169258_j68762426409614_2_alg».proof.Proof.Region4
import Idealize.ShloMosaic.Lib.StableHlo.Run
import Idealize.ShloMosaic.PureOps.Ideal

set_option maxRecDepth 16384

noncomputable section

namespace Cert.KernelIdeal.Chase

open Cert.KernelIdeal Cert.KernelIdeal.Gen Idealize.ShloMosaic Idealize.ShloMosaic.TcCoe Idealize.SL.Sem Idealize.ShloMosaic.StableHlo
open Idealize.ShloMosaic.ValueIdx Cert.Sage Cert.LibAffineLayer Cert.KernelIdeal.Blocks
open Cert.ReferenceIdeal.Read

variable (m : (ℓ : Loc nD τ sig) → Buf (Elt Ideal) ℓ) (ρ : Dev nD → PrngReg)

/-! ## Region 4's operands -/

theorem in4_s (c : Dev nD) : V39 m ρ c main_v116
    = pad S53248x64 ![0, 0] ![3248, 0] ![0, 0] (val_main_v153 (F := Ideal) (arg m main_arg0 c) (arg m main_arg2 c) (arg m main_arg17 c) (arg m main_arg18 c) (arg m main_arg19 c)) zf pads_S50000x64_S53248x64_032480_000 h_S_ := by
  chase
  simp only [layer3 m ρ c]
  refine congrArg (fun X => pad S53248x64 ![0, 0] ![3248, 0] ![0, 0] X zf pads_S50000x64_S53248x64_032480_000 h_S_)
    (?_ : _ = val_main_v153 (F := Ideal) (arg m main_arg0 c) (arg m main_arg2 c) (arg m main_arg17 c) (arg m main_arg18 c) (arg m main_arg19 c))
  rfl

theorem in4_cnt (c : Dev nD) : V39 m ρ c main_v118
    = pad S53248x1 ![0, 0] ![3248, 0] ![0, 0] (shapeCast S50000x1 (val_main_v157 (F := Ideal) (arg m main_arg2 c)) shapeCasts_S50000_S50000x1) zf pads_S50000x1_S53248x1_032480_000 h_S_ := by
  chase
  refine congrArg (fun Y => pad S53248x1 ![0, 0] ![3248, 0] ![0, 0] Y zf pads_S50000x1_S53248x1_032480_000 h_S_)
    (?_ : _ = shapeCast S50000x1 (val_main_v157 (F := Ideal) (arg m main_arg2 c)) shapeCasts_S50000_S50000x1)
  refine congrArg (fun X => shapeCast S50000x1 X shapeCasts_S50000_S50000x1) (?_ : _ = val_main_v157 (F := Ideal) (arg m main_arg2 c))
  rfl

theorem in4_x (c : Dev nD) : V39 m ρ c main_v119
    = pad S53248x64 ![0, 0] ![3248, 0] ![0, 0] (val_main_v139 (F := Ideal) (arg m main_arg0 c) (arg m main_arg2 c) (arg m main_arg17 c) (arg m main_arg18 c) (arg m main_arg19 c)) zf pads_S50000x64_S53248x64_032480_000 h_S_ := by
  chase
  simp only [layer3 m ρ c]
  refine congrArg (fun X => pad S53248x64 ![0, 0] ![3248, 0] ![0, 0] X zf pads_S50000x64_S53248x64_032480_000 h_S_)
    (?_ : _ = val_main_v139 (F := Ideal) (arg m main_arg0 c) (arg m main_arg2 c) (arg m main_arg17 c) (arg m main_arg18 c) (arg m main_arg19 c))
  rfl

theorem in4_wl (c : Dev nD) : V39 m ρ c main_v113 = val_main_v163 (F := Ideal) (arg m main_arg20 c) := by
  chase; rfl

theorem in4_wr (c : Dev nD) : V39 m ρ c main_v114 = val_main_v168 (F := Ideal) (arg m main_arg22 c) := by
  chase; rfl

theorem in4_b (c : Dev nD) : V39 m ρ c main_v120 = shapeCast S1x64 (arg m main_arg21 c) shapeCasts_S64_S1x64 := by
  chase; rfl

theorem in4_wlin (c : Dev nD) : V39 m ρ c main_v115 = val_main_v172 (F := Ideal) (arg m main_arg23 c) := by
  chase; rfl

theorem in4_blin (c : Dev nD) : V39 m ρ c main_v121 = shapeCast S1x64 (arg m main_arg24 c) shapeCasts_S64_S1x64 := by
  chase; rfl

/-! ## Its output, cut back to the 50000 rows -/

/-- The movie embedding. -/
theorem layer4 (c : Dev nD) :
    extractStridedSlice S50000x64 ![0, 0] (W40 m ρ c (Proc.devRef .tc main_v122)) slices_S53248x64_S50000x64_0_0
      = val_main_v176 (F := Ideal) (arg m main_arg0 c) (arg m main_arg2 c) (arg m main_arg17 c) (arg m main_arg18 c) (arg m main_arg19 c) (arg m main_arg20 c) (arg m main_arg21 c) (arg m main_arg22 c) (arg m main_arg23 c) (arg m main_arg24 c) := by
  rw [show W40 m ρ c (Proc.devRef .tc main_v122) = Region4.out (V39 m ρ) c from (W40_arr m ρ c 8).trans (Region4.arr (V39 m ρ) c)]
  unfold Region4.out
  rw [in4_s, in4_cnt, in4_x, in4_wl, in4_wr, in4_b, in4_wlin, in4_blin]
  refine (Glue.slice_affine_padded (n := 50000) (R := 53248) (d := 64) _ _ _ _ _ _ (zf) h_S_ _ _ pads_S50000x64_S53248x64_032480_000
    pads_S50000x1_S53248x1_032480_000 shapeCasts_S50000_S50000x1 shapeCasts_S64_S1x64 _ _ slices_S53248x64_S50000x64_0_0 (by decide)).trans ?_
  rw [← Cert.ReferenceIdeal.Layers.layer_v171 (arg m main_arg0 c) (arg m main_arg2 c) (arg m main_arg17 c) (arg m main_arg18 c) (arg m main_arg19 c) (arg m main_arg20 c) (arg m main_arg21 c) (arg m main_arg22 c)]
  exact (Cert.ReferenceIdeal.Layers.affine_v176 (arg m main_arg0 c) (arg m main_arg2 c) (arg m main_arg17 c) (arg m main_arg18 c) (arg m main_arg19 c) (arg m main_arg20 c) (arg m main_arg21 c) (arg m main_arg22 c) (arg m main_arg23 c) (arg m main_arg24 c)).symm

end Cert.KernelIdeal.Chase

end
-- ==== Proof.Region5.lean ====
/-
  The array region 5 leaves: the decoder's scores over the 1007616 rows of the zero-padded operands.

  The grid has 123 points; point t stages rows 8192·t … 8192·t + 8191 of the row-indexed operands and the whole of the weight
  and bias arrays, runs the body on them and writes its 8192 output rows back to the same rows of the output array.  The
  body's block at (p, q) is the layer's entry on the block's rows; an entry of a layer reads one row of its operands; so
  block t of the output is rows 8192·t … of the layer over the whole padded arrays.  The 123 blocks tile the output
  (row r lies in block r / 8192), so after the last point the output array is that layer, whatever it held before.
-/
import proofs.«169258_j68762426409614_2_alg».proof.Proof.Gen.KernelIdeal.Frame
import proofs.«169258_j68762426409614_2_alg».proof.Proof.Blocks

set_option maxRecDepth 16384

noncomputable section

namespace Cert.KernelIdeal.Region5

open Cert.KernelIdeal Cert.KernelIdeal.Gen Cert.KernelIdeal.Blocks Idealize.ShloMosaic Idealize.ShloMosaic.TcCoe Idealize.ShloMosaic.ValueIdx Cert.Sage
open Cert.LibAffineLayer Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- What the region's output array holds after the last point, as one function of the arrays the region finds. -/
def out (c : Dev nD) : S1007616x1.Idx → EReal :=
  fun i => score (n := 1007616) (d := 64) (e := 64) zero (V c main_v147) (V c main_v148) (V c main_v144) (V c main_v145) (biasOf (V c main_v149)) (V c main_v146) ((V c main_v150) (ix2 (0 : Fin 1) (0 : Fin 1))) (i 0)

/-- The windows' index maps over the grid: the row-indexed windows move with the point, the others stay. -/
theorem idx_facts : ∀ t : Fin cfg5.N,
    win5_0.index t (0 : Fin 2) = t.val
    ∧ win5_0.index t (1 : Fin 2) = 0
    ∧ win5_1.index t (0 : Fin 2) = t.val
    ∧ win5_1.index t (1 : Fin 2) = 0
    ∧ win5_2.index t (0 : Fin 2) = 0
    ∧ win5_2.index t (1 : Fin 2) = 0
    ∧ win5_3.index t (0 : Fin 2) = 0
    ∧ win5_3.index t (1 : Fin 2) = 0
    ∧ win5_4.index t (0 : Fin 2) = 0
    ∧ win5_4.index t (1 : Fin 2) = 0
    ∧ win5_5.index t (0 : Fin 2) = 0
    ∧ win5_5.index t (1 : Fin 2) = 0
    ∧ win5_6.index t (0 : Fin 2) = 0
    ∧ win5_6.index t (1 : Fin 2) = 0
    ∧ win5_7.index t (0 : Fin 2) = t.val
    ∧ win5_7.index t (1 : Fin 2) = 0 :=
  (by decide +kernel : ∀ t : Fin grid5.N, _)

/-- What point t writes back is block t of the array `out`. -/
theorem flushed_eq (c : Dev nD) (t : Fin cfg5.N) :
    (dat5 (F := Ideal) V c).flushed 7 t = ((cfg5.win 7).blk t).view.read (Elt Ideal) (out V c) := by
  show (cfg5.win 7).cut (grid5.coords t) ((dat5 (F := Ideal) V c).after 7 t) = _
  rw [after5_7]
  unfold out5_7
  rw [View.canon_unit_zero hz]
  simp only [View.ld_unit_zero (S := S8192x64) hz, View.ld_unit_zero (S := S64x64) hz, View.ld_unit_zero (S := S1x64) hz, View.ld_unit_zero (S := S64x1) hz, View.ld_unit_zero (S := S1x1) hz]
  obtain ⟨e00, e01, e10, e11, e20, e21, e30, e31, e40, e41, e50, e51, e60, e61, e70, e71⟩ := idx_facts t
  have ht : t.val < 123 := lt_of_lt_of_eq t.isLt N_5
  funext j
  obtain ⟨p, q, rfl⟩ : ∃ (p : Fin 8192) (q : Fin 1), j = ix2 p q := ⟨j 0, j 1, eq_ix2 j⟩
  have hp : p.val < 8192 := p.isLt
  have hq : q.val < 1 := q.isLt
  show k5_pay1 (F := Ideal) (iblk5 V c 0 t) (iblk5 V c 1 t) (iblk5 V c 2 t) (iblk5 V c 3 t) (iblk5 V c 4 t) (iblk5 V c 5 t) (iblk5 V c 6 t) (ix2 p q) = out V c (((cfg5.win 7).blk t).view.emb (ix2 p q))
  refine (decoder_at (iblk5 V c 0 t) (iblk5 V c 1 t) (iblk5 V c 2 t) (iblk5 V c 3 t) (iblk5 V c 4 t) (iblk5 V c 5 t) (iblk5 V c 6 t) p q).trans ?_
  have he : ((cfg5.win 7).blk t).view.emb (ix2 p q) = ix2 (⟨t.val * 8192 + p.val, by omega⟩ : Fin 1007616) q := funext fun a => Fin.ext (by
    match a with
    | ⟨0, _⟩ => show win5_7.index t (0 : Fin 2) * 8192 + 1 * p.val = t.val * 8192 + p.val; omega
    | ⟨1, _⟩ => show win5_7.index t (1 : Fin 2) * 1 + 1 * q.val = q.val; omega)
  rw [he]
  have c2 : ((iblk5 V c 2 t) : S64x64.Idx → EReal) = (V c main_v144) := funext fun y => congrArg (V c main_v144) (funext fun a => Fin.ext (by
    match a with
    | ⟨0, _⟩ => show win5_2.index t (0 : Fin 2) * 64 + 1 * (y 0).val = (y 0).val; omega
    | ⟨1, _⟩ => show win5_2.index t (1 : Fin 2) * 64 + 1 * (y 1).val = (y 1).val; omega))
  have c3 : ((iblk5 V c 3 t) : S64x64.Idx → EReal) = (V c main_v145) := funext fun y => congrArg (V c main_v145) (funext fun a => Fin.ext (by
    match a with
    | ⟨0, _⟩ => show win5_3.index t (0 : Fin 2) * 64 + 1 * (y 0).val = (y 0).val; omega
    | ⟨1, _⟩ => show win5_3.index t (1 : Fin 2) * 64 + 1 * (y 1).val = (y 1).val; omega))
  have c4 : ((iblk5 V c 4 t) : S1x64.Idx → EReal) = (V c main_v149) := funext fun y => congrArg (V c main_v149) (funext fun a => Fin.ext (by
    match a with
    | ⟨0, _⟩ => show win5_4.index t (0 : Fin 2) * 1 + 1 * (y 0).val = (y 0).val; omega
    | ⟨1, _⟩ => show win5_4.index t (1 : Fin 2) * 64 + 1 * (y 1).val = (y 1).val; omega))
  have c5 : ((iblk5 V c 5 t) : S64x1.Idx → EReal) = (V c main_v146) := funext fun y => congrArg (V c main_v146) (funext fun a => Fin.ext (by
    match a with
    | ⟨0, _⟩ => show win5_5.index t (0 : Fin 2) * 64 + 1 * (y 0).val = (y 0).val; omega
    | ⟨1, _⟩ => show win5_5.index t (1 : Fin 2) * 1 + 1 * (y 1).val = (y 1).val; omega))
  have c6 : ((iblk5 V c 6 t) : S1x1.Idx → EReal) = (V c main_v150) := funext fun y => congrArg (V c main_v150) (funext fun a => Fin.ext (by
    match a with
    | ⟨0, _⟩ => show win5_6.index t (0 : Fin 2) * 1 + 1 * (y 0).val = (y 0).val; omega
    | ⟨1, _⟩ => show win5_6.index t (1 : Fin 2) * 1 + 1 * (y 1).val = (y 1).val; omega))
  unfold out
  rw [c2, c3, c4, c5, c6]
  exact score_rows zero _ _ (V c main_v147) (V c main_v148) _ _ _ _ _ p (⟨t.val * 8192 + p.val, by omega⟩ : Fin 1007616)
    (fun k => congrArg (V c main_v147) (funext fun a => Fin.ext (by
      match a with
      | ⟨0, _⟩ => show win5_0.index t (0 : Fin 2) * 8192 + 1 * p.val = t.val * 8192 + p.val; omega
      | ⟨1, _⟩ => show win5_0.index t (1 : Fin 2) * 64 + 1 * k.val = k.val; omega)))
    (fun k => congrArg (V c main_v148) (funext fun a => Fin.ext (by
      match a with
      | ⟨0, _⟩ => show win5_1.index t (0 : Fin 2) * 8192 + 1 * p.val = t.val * 8192 + p.val; omega
      | ⟨1, _⟩ => show win5_1.index t (1 : Fin 2) * 64 + 1 * k.val = k.val; omega)))

/-- An index of the output array lies in point t's block iff each coordinate lies in the block's range. -/
theorem mem_blk (t : Fin cfg5.N) (i : S1007616x1.Idx) :
    i ∈ ((cfg5.win 7).blk t).view.set ↔ ∀ a : Fin 2, win5_7.index t a * S8192x1.size a ≤ (i a).val ∧ (i a).val < win5_7.index t a * S8192x1.size a + S8192x1.size a := by
  show i ∈ ((View.whole main_v151).slice (win5_7.rect t)).set ↔ _
  rw [View.set_slice_whole, Rect.mem_set_unit]
  exact Iff.rfl

/-- Every index of the output array lies in some point's block: row r in block r / 8192. -/
theorem cover (i : S1007616x1.Idx) :
    ∃ t : Fin cfg5.N, (cfg5.win 7).flush t = true ∧ i ∈ ((cfg5.win 7).blk t).view.set := by
  have hi0 : (i 0).val < 1007616 := (i 0).isLt
  have hi1 : (i 1).val < 1 := (i 1).isLt
  have hN : (i 0).val / 8192 < cfg5.N := by
    show (i 0).val / 8192 < grid5.N
    rw [N_5]; omega
  refine ⟨⟨(i 0).val / 8192, hN⟩, flush5_7 _, ?_⟩
  have hf := idx_facts ⟨(i 0).val / 8192, hN⟩
  have f0 : win5_7.index ⟨(i 0).val / 8192, hN⟩ (0 : Fin 2) = (i 0).val / 8192 := hf.2.2.2.2.2.2.2.2.2.2.2.2.2.2.1
  have f1 : win5_7.index ⟨(i 0).val / 8192, hN⟩ (1 : Fin 2) = 0 := hf.2.2.2.2.2.2.2.2.2.2.2.2.2.2.2
  rw [mem_blk]
  intro a
  match a with
  | ⟨0, _⟩ =>
    show win5_7.index ⟨(i 0).val / 8192, hN⟩ (0 : Fin 2) * 8192 ≤ (i 0).val ∧ (i 0).val < win5_7.index ⟨(i 0).val / 8192, hN⟩ (0 : Fin 2) * 8192 + 8192
    rw [f0]; omega
  | ⟨1, _⟩ =>
    show win5_7.index ⟨(i 0).val / 8192, hN⟩ (1 : Fin 2) * 1 ≤ (i 1).val ∧ (i 1).val < win5_7.index ⟨(i 0).val / 8192, hN⟩ (1 : Fin 2) * 1 + 1
    rw [f1]; omega

/-- The output array after the region's last point. -/
theorem arr (c : Dev nD) : (dat5 (F := Ideal) V c).arrAt 7 cfg5.N = out V c :=
  (dat5 (F := Ideal) V c).arrAt_eq_of_cover 7 (out V c) (fun t _ => flushed_eq V c t) cover

end Cert.KernelIdeal.Region5

end
-- ==== Proof.GlueDec.lean ====
/-
  The decoder's padding, weight views and flattening.

  The kernel program pads the two gathered arrays of end-point rows with zero rows, scores every padded edge, keeps the
  first n scores and flattens the one-column result to a vector.  It feeds the scorer the first decoder matrix [64, 128]
  as two transposed halves (columns 0 … 63 and 64 … 127, each cut out and transposed), the second decoder matrix [1, 64]
  transposed to a column, and the two biases cast to a [1, 64] row and a [1, 1] cell.  Each of these reads back the entry
  of the matrix or vector it came from, and a score reads one row of each gathered array; so the kept scores are the
  scores of the n edges over the operands themselves.
-/
import Idealize.ShloMosaic.Lib.KernelVsHost
import Idealize.ShloMosaic.Lib.Pipeline.Value
import Idealize.ShloMosaic.Lib.ValueLayout
import proofs.«169258_j68762426409614_2_alg».proof.Proof.Glue

noncomputable section

namespace Cert.Sage.Glue

open Idealize.ShloMosaic Idealize.ShloMosaic.ValueIdx Cert.Sage Cert.LibAffineLayer
open scoped BigOperators

variable {n R : ℕ}

/-- The left half of the first decoder matrix, cut out and transposed. -/
theorem w1Left_eq (W1 : (⟨2, ![64, 128]⟩ : Shape).Idx → EReal)
    (hs0 : (⟨2, ![64, 128]⟩ : Shape).Slices ![0, 0] ⟨2, ![64, 64]⟩)
    (ht : (⟨2, ![64, 64]⟩ : Shape).Transposes [1, 0] ⟨2, ![64, 64]⟩) :
    transpose ⟨2, ![64, 64]⟩ [1, 0] (extractStridedSlice ⟨2, ![64, 64]⟩ ![0, 0] W1 hs0) ht = w1Left W1 := by
  funext j
  obtain ⟨k, q, rfl⟩ : ∃ (k q : Fin 64), j = ix2 k q := ⟨j 0, j 1, eq_ix2 j⟩
  refine (transpose_apply [1, 0] _ ht (ix2 k q) (ix2 q k) fun b => ?_).trans ?_
  · match b with
    | ⟨0, _⟩ => rfl
    | ⟨1, _⟩ => rfl
  · exact extractStridedSlice_apply ![0, 0] W1 hs0 (ix2 q k)
      (ix2 q (⟨k.val, Nat.lt_of_lt_of_le k.isLt (by decide)⟩ : Fin 128)) fun a => by
      match a with
      | ⟨0, _⟩ => show q.val = 0 + q.val; omega
      | ⟨1, _⟩ => show k.val = 0 + k.val; omega

/-- Its right half, cut out and transposed. -/
theorem w1Right_eq (W1 : (⟨2, ![64, 128]⟩ : Shape).Idx → EReal)
    (hs1 : (⟨2, ![64, 128]⟩ : Shape).Slices ![0, 64] ⟨2, ![64, 64]⟩)
    (ht : (⟨2, ![64, 64]⟩ : Shape).Transposes [1, 0] ⟨2, ![64, 64]⟩) :
    transpose ⟨2, ![64, 64]⟩ [1, 0] (extractStridedSlice ⟨2, ![64, 64]⟩ ![0, 64] W1 hs1) ht = w1Right W1 := by
  funext j
  obtain ⟨k, q, rfl⟩ : ∃ (k q : Fin 64), j = ix2 k q := ⟨j 0, j 1, eq_ix2 j⟩
  refine (transpose_apply [1, 0] _ ht (ix2 k q) (ix2 q k) fun b => ?_).trans ?_
  · match b with
    | ⟨0, _⟩ => rfl
    | ⟨1, _⟩ => rfl
  · exact extractStridedSlice_apply ![0, 64] W1 hs1 (ix2 q k)
      (ix2 q (⟨64 + k.val, Nat.add_lt_add_left k.isLt 64⟩ : Fin 128)) fun a => by
      match a with
      | ⟨0, _⟩ => show q.val = 0 + q.val; omega
      | ⟨1, _⟩ => rfl

/-- The second decoder matrix transposed to a column. -/
theorem w2Col_eq (W2 : (⟨2, ![1, 64]⟩ : Shape).Idx → EReal) (ht2 : (⟨2, ![1, 64]⟩ : Shape).Transposes [1, 0] ⟨2, ![64, 1]⟩) :
    transpose ⟨2, ![64, 1]⟩ [1, 0] W2 ht2 = w2Col W2 := by
  funext j
  obtain ⟨k, v, rfl⟩ : ∃ (k : Fin 64) (v : Fin 1), j = ix2 k v := ⟨j 0, j 1, eq_ix2 j⟩
  obtain rfl : v = 0 := Subsingleton.elim v 0
  exact transpose_apply [1, 0] W2 ht2 (ix2 k (0 : Fin 1)) (ix2 (0 : Fin 1) k) fun b => by
    match b with
    | ⟨0, _⟩ => rfl
    | ⟨1, _⟩ => rfl

/-- The first n scores over the padded arrays, flattened, are the scores over the operands. -/
theorem score_padded (ZU ZM : (⟨2, ![n, 64]⟩ : Shape).Idx → EReal) (W1A W1B : (⟨2, ![64, 64]⟩ : Shape).Idx → EReal)
    (B1 : (⟨1, ![64]⟩ : Shape).Idx → EReal) (W2 : (⟨2, ![64, 1]⟩ : Shape).Idx → EReal) (B2 : (⟨1, ![1]⟩ : Shape).Idx → EReal)
    {u : Shape} (z : u.Idx → EReal) (hu : 0 < u.numel) (hi : Fin 2 → ℕ)
    (hp : (⟨2, ![n, 64]⟩ : Shape).Pads ![0, 0] hi ![0, 0] ⟨2, ![R, 64]⟩)
    (hcB1 : (⟨1, ![64]⟩ : Shape).ShapeCasts ⟨2, ![1, 64]⟩) (hcB2 : (⟨1, ![1]⟩ : Shape).ShapeCasts ⟨2, ![1, 1]⟩)
    (hs : (⟨2, ![R, 1]⟩ : Shape).Slices ![0, 0] ⟨2, ![n, 1]⟩) (hc : (⟨2, ![n, 1]⟩ : Shape).ShapeCasts ⟨1, ![n]⟩) (hnR : n ≤ R) :
    shapeCast ⟨1, ![n]⟩ (extractStridedSlice ⟨2, ![n, 1]⟩ ![0, 0]
        (fun i : (⟨2, ![R, 1]⟩ : Shape).Idx => score (n := R) (d := 64) (e := 64) zero
          (pad ⟨2, ![R, 64]⟩ ![0, 0] hi ![0, 0] ZU z hp hu) (pad ⟨2, ![R, 64]⟩ ![0, 0] hi ![0, 0] ZM z hp hu) W1A W1B
          (fun j => shapeCast ⟨2, ![1, 64]⟩ B1 hcB1 (ix2 (0 : Fin 1) (j 0))) W2
          (shapeCast ⟨2, ![1, 1]⟩ B2 hcB2 (ix2 (0 : Fin 1) (0 : Fin 1))) (i 0)) hs) hc
      = fun i => score (n := n) (d := 64) (e := 64) zero ZU ZM W1A W1B B1 W2 (B2 (ix1 (0 : Fin 1))) (i 0) := by
  funext i
  obtain ⟨p, rfl⟩ : ∃ p : Fin n, i = ix1 p := ⟨i 0, eq_ix1 i⟩
  have hpR : 0 + p.val < R := by have := p.isLt; omega
  have hcell : shapeCast ⟨2, ![1, 1]⟩ B2 hcB2 (ix2 (0 : Fin 1) (0 : Fin 1)) = B2 (ix1 (0 : Fin 1)) :=
    shapeCast_apply B2 hcB2 (ix2 (0 : Fin 1) (0 : Fin 1)) (ix1 (0 : Fin 1)) (by
      rw [Shape.rowMajor_val_two, Shape.rowMajor_val_one]
      show (0 : ℕ) = 0 * 1 + 0
      omega)
  refine (shapeCast_apply _ hc (ix1 p) (ix2 p (0 : Fin 1)) (by
    rw [Shape.rowMajor_val_two, Shape.rowMajor_val_one]
    show p.val * 1 + 0 = p.val
    omega)).trans ?_
  refine (LibSliceRows.rows_apply 0 _ hs p (0 : Fin 1) hpR).trans ?_
  show score zero _ _ W1A W1B _ W2 _ (⟨0 + p.val, hpR⟩ : Fin R) = score zero ZU ZM W1A W1B B1 W2 (B2 (ix1 (0 : Fin 1))) p
  rw [rowCast_apply B1 hcB1, hcell]
  exact score_rows zero _ _ ZU ZM W1A W1B B1 W2 (B2 (ix1 (0 : Fin 1))) ⟨0 + p.val, hpR⟩ p
    (fun k => pad_rows_apply ZU z hi hp hu p ⟨0 + p.val, hpR⟩ (by show 0 + p.val = p.val; omega) k)
    (fun k => pad_rows_apply ZM z hi hp hu p ⟨0 + p.val, hpR⟩ (by show 0 + p.val = p.val; omega) k)

end Cert.Sage.Glue

end
-- ==== Proof.Chase5.lean ====
/-
  The decoder: the kernel program's result.

  Region 5 is entered with the user embedding's rows looked up at the edges' user ends and the movie embedding's rows
  looked up at their movie ends — both padded with zero rows —, the two transposed halves of the first decoder matrix, its
  bias as a row, the second decoder matrix as a column and its bias as a cell.  Its output is the padded edges' scores; the
  host keeps the first 1000000 and flattens them.  That vector is the reference's result stage.
-/
import proofs.«169258_j68762426409614_2_alg».proof.Proof.Chase4
import proofs.«169258_j68762426409614_2_alg».proof.Proof.Region5
import proofs.«169258_j68762426409614_2_alg».proof.Proof.GlueDec
import Idealize.ShloMosaic.Lib.StableHlo.Run
import Idealize.ShloMosaic.PureOps.Ideal

set_option maxRecDepth 16384

noncomputable section

namespace Cert.KernelIdeal.Chase

open Cert.KernelIdeal Cert.KernelIdeal.Gen Idealize.ShloMosaic Idealize.ShloMosaic.TcCoe Idealize.SL.Sem Idealize.ShloMosaic.StableHlo
open Idealize.ShloMosaic.ValueIdx Cert.Sage Cert.LibAffineLayer Cert.KernelIdeal.Blocks
open Cert.ReferenceIdeal.Read

variable (m : (ℓ : Loc nD τ sig) → Buf (Elt Ideal) ℓ) (ρ : Dev nD → PrngReg)

/-! ## Region 5's operands -/

theorem in5_zu (c : Dev nD) : V45 m ρ c main_v147
    = pad S1007616x64 ![0, 0] ![7616, 0] ![0, 0] (val_main_v187 (F := Ideal) (arg m main_arg0 c) (arg m main_arg1 c) (arg m main_arg2 c) (arg m main_arg3 c) (arg m main_arg4 c) (arg m main_arg5 c) (arg m main_arg6 c) (arg m main_arg7 c) (arg m main_arg8 c) (arg m main_arg9 c) (arg m main_arg10 c) (arg m main_arg11 c) (arg m main_arg12 c) (arg m main_arg13 c) (arg m main_arg14 c) (arg m main_arg15 c) (arg m main_arg16 c)) zf pads_S1000000x64_S1007616x64_076160_000 h_S_ := by
  chase
  simp only [layer2 m ρ c]
  refine congrArg (fun X => pad S1007616x64 ![0, 0] ![7616, 0] ![0, 0] X zf pads_S1000000x64_S1007616x64_076160_000 h_S_)
    (?_ : _ = val_main_v187 (F := Ideal) (arg m main_arg0 c) (arg m main_arg1 c) (arg m main_arg2 c) (arg m main_arg3 c) (arg m main_arg4 c) (arg m main_arg5 c) (arg m main_arg6 c) (arg m main_arg7 c) (arg m main_arg8 c) (arg m main_arg9 c) (arg m main_arg10 c) (arg m main_arg11 c) (arg m main_arg12 c) (arg m main_arg13 c) (arg m main_arg14 c) (arg m main_arg15 c) (arg m main_arg16 c))
  rfl

theorem in5_zm (c : Dev nD) : V45 m ρ c main_v148
    = pad S1007616x64 ![0, 0] ![7616, 0] ![0, 0] (val_main_v194 (F := Ideal) (arg m main_arg0 c) (arg m main_arg2 c) (arg m main_arg4 c) (arg m main_arg17 c) (arg m main_arg18 c) (arg m main_arg19 c) (arg m main_arg20 c) (arg m main_arg21 c) (arg m main_arg22 c) (arg m main_arg23 c) (arg m main_arg24 c)) zf pads_S1000000x64_S1007616x64_076160_000 h_S_ := by
  chase
  simp only [layer4 m ρ c]
  refine congrArg (fun X => pad S1007616x64 ![0, 0] ![7616, 0] ![0, 0] X zf pads_S1000000x64_S1007616x64_076160_000 h_S_)
    (?_ : _ = val_main_v194 (F := Ideal) (arg m main_arg0 c) (arg m main_arg2 c) (arg m main_arg4 c) (arg m main_arg17 c) (arg m main_arg18 c) (arg m main_arg19 c) (arg m main_arg20 c) (arg m main_arg21 c) (arg m main_arg22 c) (arg m main_arg23 c) (arg m main_arg24 c))
  rfl

theorem in5_w1a (c : Dev nD) : V45 m ρ c main_v144
    = transpose S64x64 [1, 0] (extractStridedSlice S64x64 ![0, 0] (arg m main_arg25 c) slices_S64x128_S64x64_0_0) transposes_S64x64_S64x64_1_0 := by
  chase <;> rfl

theorem in5_w1b (c : Dev nD) : V45 m ρ c main_v145
    = transpose S64x64 [1, 0] (extractStridedSlice S64x64 ![0, 64] (arg m main_arg25 c) slices_S64x128_S64x64_0_64) transposes_S64x64_S64x64_1_0 := by
  chase <;> rfl

theorem in5_b1 (c : Dev nD) : V45 m ρ c main_v149 = shapeCast S1x64 (arg m main_arg26 c) shapeCasts_S64_S1x64 := by
  chase; rfl

theorem in5_w2 (c : Dev nD) : V45 m ρ c main_v146 = transpose S64x1 [1, 0] (arg m main_arg27 c) transposes_S1x64_S64x1_1_0 := by
  chase <;> rfl

theorem in5_b2 (c : Dev nD) : V45 m ρ c main_v150 = shapeCast S1x1 (arg m main_arg28 c) shapeCasts_S1_S1x1 := by
  chase; rfl

/-! ## The result -/

/-- The result buffer after the last host stretch: the kept scores, flattened. -/
theorem result_read (c : Dev nD) : W47 m ρ c (Proc.devRef .tc main_v153)
    = shapeCast S1000000 (extractStridedSlice S1000000x1 ![0, 0] (W46 m ρ c (Proc.devRef .tc main_v151)) slices_S1007616x1_S1000000x1_0_0)
        shapeCasts_S1000000x1_S1000000 := by
  chase; rfl

/-- The kernel program's result is the reference's result stage of the launch contents. -/
theorem result (c : Dev nD) : W47 m ρ c (Proc.devRef .tc main_v153) = val_main_v207 (F := Ideal) (arg m main_arg0 c) (arg m main_arg1 c) (arg m main_arg2 c) (arg m main_arg3 c) (arg m main_arg4 c) (arg m main_arg5 c) (arg m main_arg6 c) (arg m main_arg7 c) (arg m main_arg8 c) (arg m main_arg9 c) (arg m main_arg10 c) (arg m main_arg11 c) (arg m main_arg12 c) (arg m main_arg13 c) (arg m main_arg14 c) (arg m main_arg15 c) (arg m main_arg16 c) (arg m main_arg17 c) (arg m main_arg18 c) (arg m main_arg19 c) (arg m main_arg20 c) (arg m main_arg21 c) (arg m main_arg22 c) (arg m main_arg23 c) (arg m main_arg24 c) (arg m main_arg25 c) (arg m main_arg26 c) (arg m main_arg27 c) (arg m main_arg28 c) := by
  rw [result_read, show W46 m ρ c (Proc.devRef .tc main_v151) = Region5.out (V45 m ρ) c from (W46_arr m ρ c 7).trans (Region5.arr (V45 m ρ) c)]
  unfold Region5.out
  rw [in5_zu, in5_zm, in5_w1a, in5_w1b, in5_b1, in5_w2, in5_b2]
  rw [Glue.w1Left_eq (arg m main_arg25 c) slices_S64x128_S64x64_0_0 transposes_S64x64_S64x64_1_0,
    Glue.w1Right_eq (arg m main_arg25 c) slices_S64x128_S64x64_0_64 transposes_S64x64_S64x64_1_0,
    Glue.w2Col_eq (arg m main_arg27 c) transposes_S1x64_S64x1_1_0]
  exact (Glue.score_padded (n := 1000000) (R := 1007616) _ _ _ _ _ _ _ (zf) h_S_ _ pads_S1000000x64_S1007616x64_076160_000
    shapeCasts_S64_S1x64 shapeCasts_S1_S1x1 slices_S1007616x1_S1000000x1_0_0 shapeCasts_S1000000x1_S1000000 (by decide)).trans
    (Cert.ReferenceIdeal.Layers.score_v207 (arg m main_arg0 c) (arg m main_arg1 c) (arg m main_arg2 c) (arg m main_arg3 c) (arg m main_arg4 c) (arg m main_arg5 c) (arg m main_arg6 c) (arg m main_arg7 c) (arg m main_arg8 c) (arg m main_arg9 c) (arg m main_arg10 c) (arg m main_arg11 c) (arg m main_arg12 c) (arg m main_arg13 c) (arg m main_arg14 c) (arg m main_arg15 c) (arg m main_arg16 c) (arg m main_arg17 c) (arg m main_arg18 c) (arg m main_arg19 c) (arg m main_arg20 c) (arg m main_arg21 c) (arg m main_arg22 c) (arg m main_arg23 c) (arg m main_arg24 c) (arg m main_arg25 c) (arg m main_arg26 c) (arg m main_arg27 c) (arg m main_arg28 c)).symm

end Cert.KernelIdeal.Chase

end
-- ==== Proof.lean ====
/-
  The certificate: a two-encoder graph network with an edge decoder, as a chain of six pipelined kernels among host
  operations, against its plain host reference.

  Both programs compute, on the extended reals, the same composition.  A mean-aggregating layer sends the neighbourhood
  sums s, the in-degree counts cnt and the node rows x to max ((s / max (cnt, 1)) · wlᵀ + b + x · wrᵀ, 0).  The user
  encoder applies it to the movie features over the movie-to-movie edges, to the user embeddings over the movie-to-user
  edges, once more to the results, and ends with an affine map; the movie encoder applies it twice over the
  movie-to-movie edges and ends with an affine map; the decoder scores each edge from the two embeddings' rows at its
  ends, max (zu · w1aᵀ + zm · w1bᵀ + b1, 0) · w2ᵀ + b2.

  The kernel program differs from the reference in arrangement only.  It computes each neighbourhood sum and count once
  and reuses it (the same host operations of the same arguments); it pads the row-indexed operands with zero rows to a
  multiple of the block height, runs each layer block by block on the matrix unit — where, on the extended reals, a
  change of float format is the identity and a product into a zero accumulator is the textbook sum — and keeps the
  unpadded rows (an entry of a layer reads one row of its operands, so the padding is never read); it folds the closing
  affine maps into the last layers' kernels; and it multiplies the two halves of the joined row [zu | zm] by the two
  halves of the first decoder matrix instead of joining them (a sum over 128 = 64 + 64 terms, in order).  No term is
  distributed or cancelled, so the finiteness of the inputs is not used.

  The three frames: the two kernel programs' by the launch theorem for a chain of regions over their segments, the
  reference's by its run.  The idealization changes nothing the ledger records.
-/
import proofs.«169258_j68762426409614_2_alg».proof.Defs
import proofs.«169258_j68762426409614_2_alg».proof.Proof.Gen.Kernel
import proofs.«169258_j68762426409614_2_alg».proof.Proof.Gen.Kernel.Skeleton
import proofs.«169258_j68762426409614_2_alg».proof.Proof.Gen.Kernel.Launch
import proofs.«169258_j68762426409614_2_alg».proof.Proof.Gen.Kernel.Points
import proofs.«169258_j68762426409614_2_alg».proof.Proof.Gen.Kernel.Frame
import proofs.«169258_j68762426409614_2_alg».proof.Proof.Gen.KernelIdeal
import proofs.«169258_j68762426409614_2_alg».proof.Proof.Gen.KernelIdeal.Skeleton
import proofs.«169258_j68762426409614_2_alg».proof.Proof.Gen.KernelIdeal.Launch
import proofs.«169258_j68762426409614_2_alg».proof.Proof.Gen.KernelIdeal.Points
import proofs.«169258_j68762426409614_2_alg».proof.Proof.Gen.KernelIdeal.Frame
import proofs.«169258_j68762426409614_2_alg».proof.Proof.Gen.ReferenceIdeal
import proofs.«169258_j68762426409614_2_alg».proof.Proof.Gen.Pre_finite_inputs
import proofs.«169258_j68762426409614_2_alg».proof.Proof.Gen.ReferenceIdeal.Run
import proofs.«169258_j68762426409614_2_alg».proof.Proof.Gen.ReferenceIdeal.Read
import proofs.«169258_j68762426409614_2_alg».proof.Proof.KernelRun
import proofs.«169258_j68762426409614_2_alg».proof.Proof.Chase5
import Idealize.ShloMosaic.Adequacy
import Idealize.ShloMosaic.Init

set_option maxRecDepth 16384

noncomputable section

namespace Cert.Proof

open Idealize.ShloMosaic Idealize.ShloMosaic.TcCoe Idealize.SL.Sem

/-- Run from memories that agree on the arguments, both idealized programs end with the result buffer at the
    reference's result stage of those arguments. -/
theorem algebraic : Cert.algebraic_KernelIdeal_ReferenceIdeal := by
  intro m ρ m' ρ' _ hagree
  refine ⟨fun c => Cert.ReferenceIdeal.Read.val_main_v207 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28)), ?_, ?_⟩
  · exact (θ_run Cert.KernelIdeal.defs _ _).mono
      (fun r h c => ⟨(h c).1.trans (Cert.KernelIdeal.Chase.result m ρ c), (h c).2⟩) (Cert.KernelIdeal.Run.run_result m ρ)
  · refine (θ_run Cert.ReferenceIdeal.defs _ _).mono (fun r h c => ⟨(h c).1.trans ?_, (h c).2⟩)
      (Cert.ReferenceIdeal.Value.run (F := Ideal) m' ρ')
    obtain ⟨h0, h1, h2, h3, h4, h5, h6, h7, h8, h9, h10, h11, h12, h13, h14, h15, h16, h17, h18, h19, h20, h21, h22, h23, h24, h25, h26, h27, h28⟩ := hagree c
    rw [Cert.ReferenceIdeal.Read.val_main_v207_eq, h0, h1, h2, h3, h4, h5, h6, h7, h8, h9, h10, h11, h12, h13, h14, h15, h16, h17, h18, h19, h20, h21, h22, h23, h24, h25, h26, h27, h28]

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2) (Cert.ReferenceIdeal.Value.run (F := Ideal) m ρ),
  trivial,
  algebraic⟩

end Cert.Proof

end
